-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S4x2048x16x64 : Shape := ⟨4, ![4, 2048, 16, 64]⟩
abbrev S4x16x2048x64 : Shape := ⟨4, ![4, 16, 2048, 64]⟩
abbrev S4x16x1x2048 : Shape := ⟨4, ![4, 16, 1, 2048]⟩
abbrev S4x16x1x64 : Shape := ⟨4, ![4, 16, 1, 64]⟩
abbrev S1x1x512x64 : Shape := ⟨4, ![1, 1, 512, 64]⟩
abbrev S1x1x2048x64 : Shape := ⟨4, ![1, 1, 2048, 64]⟩
abbrev S1x1x1x2048 : Shape := ⟨4, ![1, 1, 1, 2048]⟩
abbrev S1x1x1x64 : Shape := ⟨4, ![1, 1, 1, 64]⟩
abbrev S1x2048 : Shape := ⟨2, ![1, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x64 : Shape := ⟨2, ![1, 64]⟩
abbrev S4x16x2048 : Shape := ⟨3, ![4, 16, 2048]⟩
abbrev S4x16x64 : Shape := ⟨3, ![4, 16, 64]⟩
abbrev S_ : Shape := ⟨0, ![]⟩
abbrev S4x2048 : Shape := ⟨2, ![4, 2048]⟩
abbrev S4x1024 : Shape := ⟨2, ![4, 1024]⟩

abbrev nBuf : Space → Nat
  | .hbm => 45
  | .vmem => 29
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S4x2048x16x64, .bf16⟩
  | .hbm, ⟨26, _⟩ => ⟨S4x16x2048x64, .bf16⟩
  | .hbm, ⟨27, _⟩ => ⟨S4x2048x16x64, .bf16⟩
  | .hbm, ⟨28, _⟩ => ⟨S4x16x2048x64, .bf16⟩
  | .hbm, ⟨29, _⟩ => ⟨S4x2048x16x64, .bf16⟩
  | .hbm, ⟨30, _⟩ => ⟨S4x16x2048x64, .bf16⟩
  | .hbm, ⟨31, _⟩ => ⟨S4x16x1x2048, .f32⟩
  | .hbm, ⟨32, _⟩ => ⟨S4x16x1x64, .f32⟩
  | .hbm, ⟨33, _⟩ => ⟨S4x16x2048, .f32⟩
  | .hbm, ⟨34, _⟩ => ⟨S4x16x64, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S_, .f32⟩
  | .hbm, ⟨39, _⟩ => ⟨S4x2048, .f32⟩
  | .hbm, ⟨40, _⟩ => ⟨S_, .f32⟩
  | .hbm, ⟨41, _⟩ => ⟨S4x2048, .f32⟩
  | .hbm, ⟨42, _⟩ => ⟨S4x2048, .f32⟩
  | .hbm, ⟨43, _⟩ => ⟨S4x1024, .f32⟩
  | .hbm, ⟨44, _⟩ => ⟨S4x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1x512x64, .bf16⟩
  | .local _ .vmem, ⟨15, _⟩ => ⟨S1x1x512x64, .bf16⟩
  | .local _ .vmem, ⟨16, _⟩ => ⟨S1x1x2048x64, .bf16⟩
  | .local _ .vmem, ⟨17, _⟩ => ⟨S1x1x2048x64, .bf16⟩
  | .local _ .vmem, ⟨18, _⟩ => ⟨S1x1x2048x64, .bf16⟩
  | .local _ .vmem, ⟨19, _⟩ => ⟨S1x1x2048x64, .bf16⟩
  | .local _ .vmem, ⟨20, _⟩ => ⟨S1x1x1x2048, .f32⟩
  | .local _ .vmem, ⟨21, _⟩ => ⟨S1x1x1x2048, .f32⟩
  | .local _ .vmem, ⟨22, _⟩ => ⟨S1x1x1x64, .f32⟩
  | .local _ .vmem, ⟨23, _⟩ => ⟨S1x1x1x64, .f32⟩
  | .local _ .vmem, ⟨24, _⟩ => ⟨S1x2048, .f32⟩
  | .local _ .vmem, ⟨25, _⟩ => ⟨S4x1024, .f32⟩
  | .local _ .vmem, ⟨26, _⟩ => ⟨S1024x1024, .bf16⟩
  | .local _ .vmem, ⟨27, _⟩ => ⟨S1x1024, .f32⟩
  | .local _ .vmem, ⟨28, _⟩ => ⟨S4x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem1_0 : DmaSem sig := 25
abbrev cc2_sem2_0 : DmaSem sig := 26
abbrev cc2_sem3_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 16, 4], ![false, false, false]⟩

def k1_cond2 (i : grid1.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_17 : BitVec 32 := 0#32
  let v29 : BitVec 1 := Scalar.cmpi .ne v28 c0_i32_17
  v29

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x16x64 : S8192x1024.ShapeCasts S4x2048x16x64
  transposes_S4x2048x16x64_S4x16x2048x64_0_2_1_3 : S4x2048x16x64.Transposes [0, 2, 1, 3] S4x16x2048x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S1x2048 : S1x1x1x2048.ShapeCasts S1x2048
  shapeCasts_S1x2048_S1x1x1x2048 : S1x2048.ShapeCasts S1x1x1x2048
  inb_S1x1x1x64_S1x1x1x64_0_0_0_0 : ∀ a, (![0, 0, 0, 0] : Fin 4 → Nat) a + S1x1x1x64.size a ≤ S1x1x1x64.size a
  h_S1x1x1x64 : 0 < S1x1x1x64.numel
  shapeCasts_S1x1x1x64_S1x64 : S1x1x1x64.ShapeCasts S1x64
  shapeCasts_S1x64_S1x1x1x64 : S1x64.ShapeCasts S1x1x1x64
  shapeCasts_S4x16x1x2048_S4x16x2048 : S4x16x1x2048.ShapeCasts S4x16x2048
  shapeCasts_S4x16x1x64_S4x16x64 : S4x16x1x64.ShapeCasts S4x16x64
  bcast_S_S4x16x2048 : S_.BroadcastsInDim S4x16x2048 (![] : Fin 0 → Fin S4x16x2048.rank)
  reducesTo_S4x16x2048_S4x2048_d1 : S4x16x2048.ReducesTo [1] S4x2048
  h_S_ : 0 < S_.numel
  bcast_S_S4x2048 : S_.BroadcastsInDim S4x2048 (![] : Fin 0 → Fin S4x2048.rank)
  shapeCasts_S4x16x64_S4x1024 : S4x16x64.ShapeCasts S4x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  broadcasts_S1x1024_S4x1024 : S1x1024.Broadcasts S4x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x1_S512x2048_S1x2048_0_0_1_1_n_n_wf : DotDims.WF S512x1 S512x2048 S1x2048 [0] [0] [1] [1] [] []
  dot_S1x2048_S2048x64_S1x64_1_0_0_1_n_n_wf : DotDims.WF S1x2048 S2048x64 S1x64 [1] [0] [0] [1] [] []
  dot_S4x1024_S1024x1024_S4x1024_1_0_0_1_n_n_wf : DotDims.WF S4x1024 S1024x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S4x16x2048x64.size a
  hwx1_0 : ∀ i : grid1.Coords, EltTy.bits .bf16 = 32 ∨ (Rect.block (s := S4x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1x2048.size a ≤ S4x16x1x2048.size a
  hwx1_3 : ∀ i : grid1.Coords, EltTy.bits .f32 = 32 ∨ (Rect.block (s := S4x16x1x2048) S1x1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1x64.size a ≤ S4x16x1x64.size a
  hwx1_4 : ∀ i : grid1.Coords, EltTy.bits .f32 = 32 ∨ (Rect.block (s := S4x16x1x64) S1x1x1x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4x1024.size a ≤ S4x1024.size a
  hwx2_0 : ∀ i : grid2.Coords, EltTy.bits .f32 = 32 ∨ (Rect.block (s := S4x1024) S4x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x1024.size a ≤ S4x1024.size a
  hwx2_3 : ∀ i : grid2.Coords, EltTy.bits .f32 = 32 ∨ (Rect.block (s := S4x1024) S4x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x1_S512x2048_S1x2048_0_0_1_1_n_n : DotDims S512x1 S512x2048 S1x2048 where
  lhsContracting := [0]
  rhsContracting := [0]
  lhsNonContracting := [1]
  rhsNonContracting := [1]
  lhsBatch := []
  rhsBatch := []
  wf := dot_S512x1_S512x2048_S1x2048_0_0_1_1_n_n_wf
def dot_S1x2048_S2048x64_S1x64_1_0_0_1_n_n : DotDims S1x2048 S2048x64 S1x64 where
  lhsContracting := [1]
  rhsContracting := [0]
  lhsNonContracting := [0]
  rhsNonContracting := [1]
  lhsBatch := []
  rhsBatch := []
  wf := dot_S1x2048_S2048x64_S1x64_1_0_0_1_n_n_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S1x1x1x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S1x1x1x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v28) S4x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S4x1024.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x1024 : Shape := ⟨2, ![4, 1024]⟩
abbrev S4x2048x2048 : Shape := ⟨3, ![4, 2048, 2048]⟩
abbrev S4x2048 : Shape := ⟨2, ![4, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S_, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x1024, .f32⟩
  | .hbm, ⟨55, _⟩ => ⟨S_, .f32⟩
  | .hbm, ⟨56, _⟩ => ⟨S4x1024, .f32⟩
  | .hbm, ⟨57, _⟩ => ⟨S4x1024, .f32⟩
  | .hbm, ⟨58, _⟩ => ⟨S_, .f32⟩
  | .hbm, ⟨59, _⟩ => ⟨S4x2048x2048, .f32⟩
  | .hbm, ⟨60, _⟩ => ⟨S_, .f32⟩
  | .hbm, ⟨61, _⟩ => ⟨S4x2048x2048, .f32⟩
  | .hbm, ⟨62, _⟩ => ⟨S4x2048x2048, .f32⟩
  | .hbm, ⟨63, _⟩ => ⟨S_, .f32⟩
  | .hbm, ⟨64, _⟩ => ⟨S4x2048, .f32⟩
  | .hbm, ⟨65, _⟩ => ⟨S_, .f32⟩
  | .hbm, ⟨66, _⟩ => ⟨S4x2048, .f32⟩
  | .hbm, ⟨67, _⟩ => ⟨S4x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x1024_d1 : S4x2048x1024.ReducesTo [1] S4x1024
  bcast_S_S4x1024 : S_.BroadcastsInDim S4x1024 (![] : Fin 0 → Fin S4x1024.rank)
  reducesTo_S4x16x2048x2048_S4x2048x2048_d1 : S4x16x2048x2048.ReducesTo [1] S4x2048x2048
  bcast_S_S4x2048x2048 : S_.BroadcastsInDim S4x2048x2048 (![] : Fin 0 → Fin S4x2048x2048.rank)
  reducesTo_S4x2048x2048_S4x2048_d1 : S4x2048x2048.ReducesTo [1] S4x2048
  bcast_S_S4x2048 : S_.BroadcastsInDim S4x2048 (![] : Fin 0 → Fin S4x2048.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KI.FrameR0.lean ====
/-
  The projection pipeline: a grid of 16 blocks of 512 rows. At each point the body reads a block of rows of the input
  (512 by 1024, f32), the three transposed weight matrices (1024 by 1024, bf16) and the three bias rows (1 by 1024, f32)
  — the weights and biases are resident: fetched at the first point only, their block index constant — and stores three
  output blocks (512 by 1024, bf16): the rows rounded to bf16, multiplied by a weight matrix with f32 accumulation, plus
  the bias broadcast over the rows, rounded to bf16 (the payloads `k0_pay2`, `k0_pay3`, `k0_pay4`, one per weight
  matrix). Stated here, at any contents `V` of the core's buffers when the pipeline is entered: each window's block at a
  point as a read of its array; that each input's staging buffer holds its block at every point, fetched there or not;
  each output's staging buffer after the body as its one store's payload of the input blocks (`out0_7`, `out0_8`,
  `out0_9`); the body's triple; the pipeline's proof data; and the body's obligation at every point.
-/
import proofs.«155430_j62354335204093_2_alg».proof.Proof.Gen.KernelIdeal.Launch
import proofs.«155430_j62354335204093_2_alg».proof.Proof.Gen.KernelIdeal.Skeleton
import proofs.«155430_j62354335204093_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # The first pallas_call (custom_call 0, pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched input's block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched input's block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched input's block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched input's block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: an unfetched input's block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: an unfetched input's block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each whole buffer as one rectangle -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each output window's buffer -/

/-- Window 7's staging buffer after the body: its one store, the rows' projection by the first weight matrix plus
    its bias, rounded to bf16. -/
def out0_7 (x0 : Vec F S512x1024 .f32) (x1 : Vec F S1024x1024 .bf16) (x2 : Vec F S1x1024 .f32) : Vec F S512x1024 .bf16 :=
  View.canon [⟨r0_0, k0_pay2 (View.ld x0 r0_0) (View.ld x1 r0_1) (View.ld x2 r0_2)⟩]

/-- Window 8's, by the second weight matrix and bias. -/
def out0_8 (x0 : Vec F S512x1024 .f32) (x3 : Vec F S1024x1024 .bf16) (x4 : Vec F S1x1024 .f32) : Vec F S512x1024 .bf16 :=
  View.canon [⟨r0_0, k0_pay3 (View.ld x0 r0_0) (View.ld x3 r0_1) (View.ld x4 r0_2)⟩]

/-- Window 9's, by the third weight matrix and bias. -/
def out0_9 (x0 : Vec F S512x1024 .f32) (x5 : Vec F S1024x1024 .bf16) (x6 : Vec F S1x1024 .f32) : Vec F S512x1024 .bf16 :=
  View.canon [⟨r0_0, k0_pay4 (View.ld x0 r0_0) (View.ld x5 r0_1) (View.ld x6 r0_2)⟩]

/-- Each output's one store is through the whole-buffer rectangle, so it covers the buffer. -/
theorem cover0_out (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The kernel body on whole staging memrefs, the inputs' at read contents `xW` and the outputs' at anything (the body
    loads each once, unused, before storing over all of it), runs to the continuation holding the inputs' as they
    were and each output's at `out0_W` of the inputs'. -/
theorem sound_kernel0 (c : Dev nD) (E : Set ℕ) (i : grid0.Coords)
    (arg0 : Memref sig .tc .vmem S512x1024 .f32) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S512x1024 .bf16) (harg7 : arg7.IsWhole)
    (arg8 : Memref sig .tc .vmem S512x1024 .bf16) (harg8 : arg8.IsWhole)
    (arg9 : Memref sig .tc .vmem S512x1024 .bf16) (harg9 : arg9.IsWhole)
    (x0 : Vec F S512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x2) ∗ owns (c : Thread nD τ) arg8 fullShare (out0_8 x0 x3 x4) ∗ owns (c : Thread nD τ) arg9 fullShare (out0_9 x0 x5 x6)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of pipeline 0 on core `c`: the arrays as the region finds them (`V`); after the body at point
    `t` each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point: the rows' window is fetched at every point,
    the weights' and biases' at the first only, their block index constant. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.FrameR2.lean ====
/-
  The output-projection pipeline: a single grid point. Its body reads the context block (4 by 1024, f32), the transposed
  weight matrix (1024 by 1024, bf16) and the bias row (1 by 1024, f32), and stores into the one output block (4 by 1024,
  f32) the context rounded to bf16, multiplied by the weight matrix with f32 accumulation, plus the bias broadcast over
  the rows (the payload `k2_pay1`). Stated here, at any contents `V` of the core's buffers when the pipeline is
  entered: each window's block at the point as a read of its array; that each input's staging buffer holds its block when
  the body runs; the output's staging buffer after the body as the one store's payload of the three input blocks
  (`out2_3`); the body's triple; the pipeline's proof data; and the body's obligation at the point.
-/
import proofs.«155430_j62354335204093_2_alg».proof.Proof.Gen.KernelIdeal.Launch
import proofs.«155430_j62354335204093_2_alg».proof.Proof.Gen.KernelIdeal.Skeleton
import proofs.«155430_j62354335204093_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # The last pallas_call (custom_call 2, pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: an unfetched input's block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: an unfetched input's block index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: an unfetched input's block index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each whole buffer as one rectangle -/

abbrev r2_0 : Rect S4x1024 := Rect.unit (s := S4x1024) ![0, 0] S4x1024.size inb_S4x1024_S4x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- Window 3's staging buffer after the body, from the input windows' blocks: its one store, of the projected
    context plus the bias. -/
def out2_3 (x0 : Vec F S4x1024 .f32) (x1 : Vec F S1024x1024 .bf16) (x2 : Vec F S1x1024 .f32) : Vec F S4x1024 .f32 :=
  View.canon [⟨r2_0, k2_pay1 (View.ld x0 r2_0) (View.ld x1 r2_1) (View.ld x2 r2_2)⟩]

/-- The store's rectangle is the whole buffer, so it covers it. -/
theorem cover2_3 (p0 : Vec F S4x1024 .f32) (y : S4x1024.Idx) :
    ∃ pc ∈ ([⟨r2_0, p0⟩] : List (View.Piece (Elt F) S4x1024 .f32)), y ∈ pc.1.set :=
  View.cover_of_tiled [⟨r2_0, p0⟩] S4x1024.size (by rfl) y

/-! ## The body's triple -/

set_option maxHeartbeats 1000000 in
/-- The kernel body on whole staging memrefs, the inputs' at read contents `xW` and the output's at anything (the body
    loads it once, unused, before storing over all of it), runs to the continuation holding the inputs' as they
    were and the output's at `out2_3` of the inputs'. -/
theorem sound_kernel2 (c : Dev nD) (E : Set ℕ) (i : grid2.Coords)
    (arg0 : Memref sig .tc .vmem S4x1024 .f32) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S4x1024 .f32) (harg3 : arg3.IsWhole)
    (x0 : Vec F S4x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__outproj_kernel i arg0 harg0 arg1 harg1 arg2 harg2 arg3 harg3) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R1Iface.lean ====
/-
  What the run over the program's three pipelines needs to know of the middle one (the attention pipeline), at any
  contents `V` of the core's buffers when that pipeline is entered: its proof data (the arrays as found, what each
  window's buffer holds after the body at each point, the invariant carried from point to point), that its arrays are
  the ones found, the body's obligation at every point, and that the invariant starts from, and ends in, the core's
  scoped buffers at anything beside the generator register.
-/
import proofs.«155430_j62354335204093_2_alg».proof.Proof.Gen.KernelIdeal.Launch
import proofs.«155430_j62354335204093_2_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The attention pipeline's half of the run, at entry contents `V`. -/
structure R1Half (V : (c : Dev nD) → (b : Ref sig .tc) → Buf (Elt F) ((c : Thread nD τ).loc b)) where
  /-- the proof data on each core -/
  dat : (c : Dev nD) → Dat τ (Elt F) Unit ℕ (UR sig nD τ) ℕ cfg1 c
  /-- its arrays are the ones the pipeline finds -/
  A_eq : ∀ (c : Dev nD) (w : Fin cfg1.W), (dat c).A w = V c (Pipeline.arrRef spec1 w)
  /-- nothing is owed to another core, and every share is whole -/
  owed_zero : ∀ (c : Dev nD) (t : Fin (cfg1.N + 1)), (dat c).owed t = 0
  q_full : ∀ (c : Dev nD) (w : Fin cfg1.W), (dat c).q w = fullShare
  /-- the body's obligation at every point -/
  body : ∀ c : Dev nD, BodyObligation (dat c) (defs₀ (F := F)) Variants.none () Set.univ
  /-- the invariant before the first point is what the launch hands over -/
  hin : ∀ c : Dev nD, (Pipeline.ΦA spec1 c : sProp (MT nD τ sig Unit (Elt F) ℕ (UR sig nD τ) ℕ)) ⊢ (dat c).Φ 0
  /-- and after the last point it gives that back -/
  hout : ∀ c : Dev nD, (dat c).Φ (Fin.last cfg1.N) ⊢ (Pipeline.ΦA spec1 c : sProp (MT nD τ sig Unit (Elt F) ℕ (UR sig nD τ) ℕ))

end Cert.KernelIdeal.Fr

end
-- ==== Proof.KI.RunBase.lean ====
/-
  The run of the program's entry function over its three pipelines, first part: the contents of a core's buffers at each
  boundary between a stretch of host operations and a pipeline, as a fold from the launch memory; what each step of the
  fold leaves alone; every pipeline's proof data at the contents its region is entered with; and the state a core's
  thread is in between two segments. The middle pipeline's half is a parameter.
-/
import proofs.«155430_j62354335204093_2_alg».proof.Proof.KI.FrameR0
import proofs.«155430_j62354335204093_2_alg».proof.Proof.KI.FrameR2
import proofs.«155430_j62354335204093_2_alg».proof.Proof.KI.R1Iface
import proofs.«155430_j62354335204093_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the middle pipeline's half, at any entry contents
variable (R1 : ∀ V : (c : Dev nD) → (b : Ref sig .tc) → Buf (Elt F) ((c : Thread nD τ).loc b), R1Half (F := F) V)
variable (m : (ℓ : Loc nD τ sig) → Buf (Elt F) ℓ) (ρ : Dev nD → PrngReg)

/-! ## The buffer contents at each segment boundary: a fold through the entry function -/

/-- Core `c`'s buffers at launch. -/
abbrev W0 : Dev nD → Valuation τ sig (Elt F) := fun c b => (s₀ m ρ).mem ((c : Dev nD), b)
/-- After the first stretch of host operations (the first pipeline's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pipeline's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the middle pipeline's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the middle pipeline's exit. -/
def W4 (c : Dev nD) : Valuation τ sig (Elt F) :=
  Pipeline.withArrays spec1 c (W3 m ρ c) fun w => ((R1 (V3 m ρ)).dat c).arrAt w cfg1.N
theorem W4_arr (c : Dev nD) (w : Fin cfg1.W) :
    W4 R1 m ρ c (Proc.devRef .tc (Pipeline.arrRef spec1 w)) = ((R1 (V3 m ρ)).dat c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 R1 m ρ c b
theorem hF1 (c : Dev nD) (w : Fin cfg1.W) : ((R1 (V3 m ρ)).dat c).arrAt w cfg1.N = V4 R1 m ρ c (Pipeline.arrRef spec1 w) :=
  (W4_arr R1 m ρ c w).symm
theorem hrest1 (c : Dev nD) : ∀ b, b ∉ Finset.univ.image (Pipeline.arrRef spec1) → V4 R1 m ρ c b = V3 m ρ c b :=
  fun b hb => W4_of_ne R1 m ρ c b fun w e => hb (Finset.mem_image.mpr ⟨w, Finset.mem_univ _, e⟩)

/-- After the third stretch of host operations (the last pipeline's entry). -/
abbrev W5 : Dev nD → Valuation τ sig (Elt F) := fun c => StableHlo.after hostOps2 (W4 R1 m ρ c)
abbrev V5 : (c : Dev nD) → (b : Ref sig .tc) → Buf (Elt F) ((c : Thread nD τ).loc b) := fun c b => W5 R1 m ρ c b
/-- At the last pipeline's exit: the contents the entry function returns with. -/
def W6 (c : Dev nD) : Valuation τ sig (Elt F) :=
  Pipeline.withArrays spec2 c (W5 R1 m ρ c) fun w => (dat2 (V5 R1 m ρ) c).arrAt w cfg2.N
theorem W6_arr (c : Dev nD) (w : Fin cfg2.W) :
    W6 R1 m ρ c (Proc.devRef .tc (Pipeline.arrRef spec2 w)) = (dat2 (V5 R1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 R1 m ρ c (Proc.devRef .tc b) = W5 R1 m ρ c (Proc.devRef .tc b) := by
  unfold W6; exact Pipeline.withArrays_of_ne spec2 c _ _ b hb
abbrev V6 : (c : Dev nD) → (b : Ref sig .tc) → Buf (Elt F) ((c : Thread nD τ).loc b) := fun c b => W6 R1 m ρ c b
theorem hF2 (c : Dev nD) (w : Fin cfg2.W) : (dat2 (V5 R1 m ρ) c).arrAt w cfg2.N = V6 R1 m ρ c (Pipeline.arrRef spec2 w) :=
  (W6_arr R1 m ρ c w).symm
theorem hrest2 (c : Dev nD) : ∀ b, b ∉ Finset.univ.image (Pipeline.arrRef spec2) → V6 R1 m ρ c b = V5 R1 m ρ c b :=
  fun b hb => W6_of_ne R1 m ρ c b fun w e => hb (Finset.mem_image.mpr ⟨w, Finset.mem_univ _, e⟩)

/-! ## What each step of the fold leaves alone -/

/-- A stretch of host operations changes only the buffers its operations write. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 R1 m ρ c (Proc.devRef .tc r) = W4 R1 m ρ c (Proc.devRef .tc r) :=
  StableHlo.after_of_writes_sub hostOps2 _ hostOps2_writes h

/-- A buffer that no stretch of host operations writes and no pipeline stages ends as launched. -/
theorem W6_launch (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) (h5 : ∀ w, Pipeline.arrRef spec2 w ≠ r) :
    W6 R1 m ρ c (Proc.devRef .tc r) = m ((c : Thread nD τ).loc r) :=
  (W6_of_ne R1 m ρ c r h5).trans <| (W5_of R1 m ρ c r h4).trans <| (W4_of_ne R1 m ρ c r h3).trans <|
    (W3_of m ρ c r h2).trans <| (W2_of_ne m ρ c r h1).trans <| (W1_of m ρ c r h0).trans rfl

/-! ### The nine arguments end as launched: no host operation writes one and no pipeline stages one -/

theorem W6_main_arg0 (c : Dev nD) : W6 R1 m ρ c (Proc.devRef .tc main_arg0) = m ((c : Thread nD τ).loc main_arg0) :=
  W6_launch R1 m ρ c main_arg0 (by decide) (by decide) (by decide) (by decide) (by decide) (by decide)
theorem W6_main_arg1 (c : Dev nD) : W6 R1 m ρ c (Proc.devRef .tc main_arg1) = m ((c : Thread nD τ).loc main_arg1) :=
  W6_launch R1 m ρ c main_arg1 (by decide) (by decide) (by decide) (by decide) (by decide) (by decide)
theorem W6_main_arg2 (c : Dev nD) : W6 R1 m ρ c (Proc.devRef .tc main_arg2) = m ((c : Thread nD τ).loc main_arg2) :=
  W6_launch R1 m ρ c main_arg2 (by decide) (by decide) (by decide) (by decide) (by decide) (by decide)
theorem W6_main_arg3 (c : Dev nD) : W6 R1 m ρ c (Proc.devRef .tc main_arg3) = m ((c : Thread nD τ).loc main_arg3) :=
  W6_launch R1 m ρ c main_arg3 (by decide) (by decide) (by decide) (by decide) (by decide) (by decide)
theorem W6_main_arg4 (c : Dev nD) : W6 R1 m ρ c (Proc.devRef .tc main_arg4) = m ((c : Thread nD τ).loc main_arg4) :=
  W6_launch R1 m ρ c main_arg4 (by decide) (by decide) (by decide) (by decide) (by decide) (by decide)
theorem W6_main_arg5 (c : Dev nD) : W6 R1 m ρ c (Proc.devRef .tc main_arg5) = m ((c : Thread nD τ).loc main_arg5) :=
  W6_launch R1 m ρ c main_arg5 (by decide) (by decide) (by decide) (by decide) (by decide) (by decide)
theorem W6_main_arg6 (c : Dev nD) : W6 R1 m ρ c (Proc.devRef .tc main_arg6) = m ((c : Thread nD τ).loc main_arg6) :=
  W6_launch R1 m ρ c main_arg6 (by decide) (by decide) (by decide) (by decide) (by decide) (by decide)
theorem W6_main_arg7 (c : Dev nD) : W6 R1 m ρ c (Proc.devRef .tc main_arg7) = m ((c : Thread nD τ).loc main_arg7) :=
  W6_launch R1 m ρ c main_arg7 (by decide) (by decide) (by decide) (by decide) (by decide) (by decide)
theorem W6_main_arg8 (c : Dev nD) : W6 R1 m ρ c (Proc.devRef .tc main_arg8) = m ((c : Thread nD τ).loc main_arg8) :=
  W6_launch R1 m ρ c main_arg8 (by decide) (by decide) (by decide) (by decide) (by decide) (by decide)

/-! ### The two results: the averaged weights are what the last stretch of host operations left, the projected
    context is the last pipeline's output array -/

theorem W6_main_v27 (c : Dev nD) : W6 R1 m ρ c (Proc.devRef .tc main_v27) = W5 R1 m ρ c (Proc.devRef .tc main_v27) :=
  W6_of_ne R1 m ρ c main_v27 (by decide)
theorem W6_main_v29 (c : Dev nD) : W6 R1 m ρ c (Proc.devRef .tc main_v29) = (dat2 (V5 R1 m ρ) c).arrAt 3 cfg2.N :=
  W6_arr R1 m ρ c 3

/-! ## The proof data family and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => (R1 (V3 m ρ)).dat c
  | ⟨2, _⟩ => fun c => dat2 (V5 R1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W6 R1 m ρ c) ∗ ∃ r, prngReg c r)

end Cert.KernelIdeal.Fr

end
-- ==== Proof.KI.Run0.lean ====
/-
  The run of the entry function, the first pipeline as a segment: entered with every unscoped buffer of the core at the
  contents of the boundary before it, left with them at the contents of the boundary after it. Its arrays are split out of
  the unscoped buffers and put back at their exit contents; the generator register goes into the pipeline's invariant
  and comes back; nothing is owed; the kernel has no semaphore of its own.
-/
import proofs.«155430_j62354335204093_2_alg».proof.Proof.KI.RunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
variable (m : (ℓ : Loc nD τ sig) → Buf (Elt F) ℓ) (ρ : Dev nD → PrngReg)

set_option backward.isDefEq.respectTransparency.types false in
/-- The first pipeline over the thread state. -/
def reg0 : Pipeline.RegionSeg (pcfgs (F := F)) adm (pdats R1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R1 m ρ) launch0.win launch0.arr_whole c
      ((pdats R1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 m ρ) ((pdats R1 m ρ 0 c).share_full fun _ => rfl)
      (V1 m ρ c) (V2 m ρ c) ((pdats R1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run1.lean ====
/-
  The run of the entry function, the middle pipeline as a segment: entered with every unscoped buffer of the core at the
  contents of the boundary before it, left with them at the contents of the boundary after it. Its arrays are split out of
  the unscoped buffers and put back at their exit contents; the generator register goes into the pipeline's invariant
  and comes back; nothing is owed; the kernel has no semaphore of its own.
-/
import proofs.«155430_j62354335204093_2_alg».proof.Proof.KI.RunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
-- the middle pipeline's proof data bound the recorded pairs by everything before its first point
variable (hrec : ∀ (V : (c : Dev nD) → (b : Ref sig .tc) → Buf (Elt F) ((c : Thread nD τ).loc b)) (c : Dev nD), ((R1 V).dat c).recorded 0 = Set.univ)
variable (m : (ℓ : Loc nD τ sig) → Buf (Elt F) ℓ) (ρ : Dev nD → PrngReg)

set_option backward.isDefEq.respectTransparency.types false in
/-- The middle pipeline over the thread state. -/
def reg1 : Pipeline.RegionSeg (pcfgs (F := F)) adm (pdats R1 m ρ) () defs₀ 𝒱₀ L lv 1 where
  win := launch1.win.to₀
  block_pos := launch1.block_pos
  stage_whole := launch1.stage_whole
  K := PEmpty
  osem k := k.elim
  ho := Pipeline.OwnSemFacts.none _
  hbody c := ((R1 (V3 m ρ)).body c).loose
  hwaits := Pipeline.hwaits_of_owed_zero _ _ _ _ L lv 1 fun c t => (R1 (V3 m ρ)).owed_zero c t
  pre c := iprop(StableHlo.held (c : Thread nD τ) (Pipeline.ucRefs τ sig) (W3 m ρ c) ∗ R c)
  post c := iprop(StableHlo.held (c : Thread nD τ) (Pipeline.ucRefs τ sig) (W4 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats R1 m ρ) launch1.win launch1.arr_whole c
      ((pdats R1 m ρ 1 c).share_full ((R1 (V3 m ρ)).q_full c)) (V3 m ρ c) ((R1 (V3 m ρ)).A_eq c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R1 m ρ 1 c).owed 0 = 0 from (R1 (V3 m ρ)).owed_zero c 0]
      icases HO with ⟨%W, HO⟩; iexists W; isplitr
      · ipureintro; intro x _; left
        show x ∈ ((R1 (V3 m ρ)).dat c).recorded 0
        rw [hrec]; trivial
      iexact HO
    isplitl [Hp]; · iexact Hp
    iexact Hrest
  hin c := by
    refine (?_ : _ ⊢ (Pipeline.ΦA spec1 c : sProp 𝕄)).trans ((R1 (V3 m ρ)).hin c)
    unfold Pipeline.ΦA
    iintro ⟨Hp, -, Hr⟩
    isplitl [Hr]; · iexact Hr
    iexact Hp
  hout c := by
    rw [Pipeline.ownSems0_none]
    refine (show (pdats R1 m ρ 1 c).Φ (Fin.last _) ⊢ (Pipeline.ΦA spec1 c : sProp 𝕄) from (R1 (V3 m ρ)).hout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R1 m ρ) ((pdats R1 m ρ 1 c).share_full ((R1 (V3 m ρ)).q_full c))
      (V3 m ρ c) (V4 R1 m ρ c) ((pdats R1 m ρ 1 c).arrAt · cfg1.N) (hF1 R1 m ρ c) (hrest1 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R1 m ρ 1 c).owed (Fin.last _) = 0 from (R1 (V3 m ρ)).owed_zero c _]
    icases HO with ⟨%W, -, HO⟩; iexists W; iexact HO

end Cert.KernelIdeal.Fr

end
-- ==== Proof.KI.Run2.lean ====
/-
  The run of the entry function, the last pipeline as a segment: entered with every unscoped buffer of the core at the
  contents of the boundary before it, left with them at the contents of the boundary after it. Its arrays are split out of
  the unscoped buffers and put back at their exit contents; the generator register goes into the pipeline's invariant
  and comes back; nothing is owed; the kernel has no semaphore of its own.
-/
import proofs.«155430_j62354335204093_2_alg».proof.Proof.KI.RunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
variable (m : (ℓ : Loc nD τ sig) → Buf (Elt F) ℓ) (ρ : Dev nD → PrngReg)

set_option backward.isDefEq.respectTransparency.types false in
/-- The last pipeline over the thread state. -/
def reg2 : Pipeline.RegionSeg (pcfgs (F := F)) adm (pdats R1 m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 R1 m ρ) c).loose
  hwaits := Pipeline.hwaits_of_owed_zero _ _ _ _ L lv 2 fun _ _ => rfl
  pre c := iprop(StableHlo.held (c : Thread nD τ) (Pipeline.ucRefs τ sig) (W5 R1 m ρ c) ∗ R c)
  post c := iprop(Tₙ R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 R1 m ρ c)
  hentry c := by
    rw [Pipeline.ownSems0_none]
    have hsplit := Pipeline.arrays_of_unscopedBufs (p := 2) (pcfgs (F := F)) adm (pdats R1 m ρ) launch2.win launch2.arr_whole c
      ((pdats R1 m ρ 2 c).share_full fun _ => rfl) (V5 R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats R1 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats R1 m ρ) ((pdats R1 m ρ 2 c).share_full fun _ => rfl)
      (V5 R1 m ρ c) (V6 R1 m ρ c) ((pdats R1 m ρ 2 c).arrAt · cfg2.N) (hF2 R1 m ρ c) (hrest2 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Fr

end
-- ==== Proof.KI.Run.lean ====
/-
  The run of the entry function over its three pipelines, last part: the entry function as the list of its six segments
  (a stretch of host operations before each pipeline, nothing after the last), and the launch: from any memory with zero
  counters every weakly fair execution terminates, nothing faulting, and in every final state each unscoped buffer of
  each core holds the contents of the last boundary of the fold.
-/
import proofs.«155430_j62354335204093_2_alg».proof.Proof.KI.Run0
import proofs.«155430_j62354335204093_2_alg».proof.Proof.KI.Run1
import proofs.«155430_j62354335204093_2_alg».proof.Proof.KI.Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
-- the middle pipeline's proof data bound the recorded pairs by everything before its first point
variable (hrec : ∀ (V : (c : Dev nD) → (b : Ref sig .tc) → Buf (Elt F) ((c : Thread nD τ).loc b)) (c : Dev nD), ((R1 V).dat c).recorded 0 = Set.univ)
variable (m : (ℓ : Loc nD τ sig) → Buf (Elt F) ℓ) (ρ : Dev nD → PrngReg)

/-- The entry function's 6 segments in order: a host segment per stretch from its boundary's contents, a region per
    pipeline. -/
abbrev segs : List (Pipeline.Seg (pcfgs (F := F)) adm (pdats R1 m ρ) () defs₀ 𝒱₀ L lv) :=
  [ .host (hseg hostOps0 hostOps0_sub hostOps0_fresh (W0 m ρ)),
    .region (reg0 R1 m ρ),
    .host (hseg hostOps1 hostOps1_sub hostOps1_fresh (W2 m ρ)),
    .region (reg1 R1 hrec m ρ),
    .host (hseg hostOps2 hostOps2_sub hostOps2_fresh (W4 R1 m ρ)),
    .region (reg2 R1 m ρ) ]
/-- The entry function is the run of the segments. -/
theorem main_run (c : Dev nD) : main (F := F) c = Pipeline.Seg.run (segs R1 hrec m ρ) := (main_chain c).trans (by chain_rfl)

include hrec in
set_option backward.isDefEq.respectTransparency.types false in
/-- The run: at the compiled mesh, from any memory with zero counters, every weakly fair execution of the entry function
    on the TensorCores terminates, nothing faulting, and every final state has every unscoped buffer of every core at
    the last boundary's contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 R1 m ρ c b) :=
  Pipeline.θ_run_regions_kit (pcfgs (F := F)) adm (pdats R1 m ρ) () cellOf_inj emb₁ defs₀ 𝒱₀ L lv m ρ main (segs R1 hrec m ρ)
    (fun c Q => by rw [main_run R1 hrec m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 R1 m ρ c) s')
      isplitl [Hh] <;> iassumption)
    (hQ := fun s h c => h c)

end Cert.KernelIdeal.Fr

end
-- ==== Proof.KI.R1Base.lean ====
/-
  The attention pipeline: a grid of 4 × 16 × 4 points (batch, head, block of 512 query rows), the query-block
  coordinate innermost. Each point reads one block of 512 query rows and the whole key and value arrays of its
  (batch, head); a row of 2048 running column sums is kept in a scratch buffer from one point to the next. The
  first query block of a (batch, head) resets that row, every block adds its own contribution, and the last block
  writes the row, and its product with the values, to the two results. So the points fall into three kinds by
  their position modulo 4: 0 (reset, then add), 1 and 2 (add), 3 (add, then write the results); the two result
  windows are untouched, and not written back, at the points of the first two kinds.
-/
import proofs.«155430_j62354335204093_2_alg».proof.Proof.Gen.KernelIdeal.Launch
import proofs.«155430_j62354335204093_2_alg».proof.Proof.Gen.KernelIdeal.Skeleton
import proofs.«155430_j62354335204093_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (an unfetched block is
    the block of the point before: the index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is the first query block": the comparison of the innermost coordinate with 0. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last query block": the comparison of the innermost coordinate with 3. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last query block the two result windows are idle and are not written back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- At the last query block they are live. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The memrefs the body is called with -/

/-- One staging buffer of each result window, through which its contents are stated. -/
abbrev VO1_3 : View sig .tc .vmem S1x1x1x2048 .f32 := (Memref.whole cc1_stg3_0 : Memref sig .tc .vmem S1x1x1x2048 .f32).view
abbrev VO1_4 : View sig .tc .vmem S1x1x1x64 .f32 := (Memref.whole cc1_stg4_0 : Memref sig .tc .vmem S1x1x1x64 .f32).view
/-- Each window's current staging memref at point `t`, and its wholeness. -/
abbrev ms1_0 (t : Fin cfg1.N) : Memref sig .tc .vmem S1x1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1x64 .f32 := win1_4.stage (cfg1.slots t 4)
abbrev hs1_4 (t : Fin cfg1.N) : (ms1_4 t).IsWhole := hstage1_4 ((cfg1.slots t 4).cast nbuf1_4)
/-- The row of running column sums: a whole scratch buffer of the kernel's own, and the view its contents are stated through. -/
abbrev scM1_0 : Memref sig .tc .vmem S1x2048 .f32 := Memref.whole cc1_scratch0
abbrev VS1_0 : View sig .tc .vmem S1x2048 .f32 := scM1_0.view

/-! ## The core's other scoped buffers, with the scratch row singled out -/

/-- The core's scoped buffers that are no staging buffer of this pipeline, in the order the layout lists them, each at
    some contents, with `S` standing where the scratch row stands. -/
def scopedWith1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ S ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- All of them but the scratch row. -/
def scopedOthers1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- The scratch row taken out of the list, -/
theorem scopedWith1_pull (c : Dev nD) (S : sProp 𝕄) : scopedWith1 (F := F) c S ⊢ iprop(S ∗ scopedOthers1 (F := F) c) := by
  unfold scopedWith1 scopedOthers1
  iintro ⟨H0, H1, H2, H3, H4, H5, H6, H7, H8, H9, H10, H11, H12, H13, HS, H15, H16, H17, H18⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H17]; · iexact H17
  iexact H18

/-- and put back. -/
theorem scopedWith1_push (c : Dev nD) (S : sProp 𝕄) : iprop(S ∗ scopedOthers1 (F := F) c) ⊢ scopedWith1 (F := F) c S := by
  unfold scopedWith1 scopedOthers1
  iintro ⟨HS, H0, H1, H2, H3, H4, H5, H6, H7, H8, H9, H10, H11, H12, H13, H15, H16, H17, H18⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  isplitl [H15]; · iexact H15
  isplitl [H16]; · iexact H16
  isplitl [H17]; · iexact H17
  iexact H18

/-- The pipeline's own invariant (the scoped rest at anything, the generator register at some state) with the scratch
    row as a memref owned at some contents. -/
theorem PhiA1_eq (c : Dev nD) :
    (Pipeline.ΦA spec1 c : sProp 𝕄)
      = iprop(scopedWith1 (F := F) c (iprop(∃ d, owns (c : Thread nD τ) scM1_0 fullShare d)) ∗ (∃ r, prngReg c r)) := by
  unfold Pipeline.ΦA scopedWith1; rw [scopedRest1_eq]; simp only [scM1_0, owns_whole]; try rfl

end Cert.KernelIdeal.Fr

end
-- ==== Proof.KI.R1RunA.lean ====
/-
  The attention body at a point of the first kind (the first query block of a batch and head): the scratch row
  is reset and then receives this block's column sums; the result windows are not touched.
-/
import proofs.«155430_j62354335204093_2_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's two stores leave in the scratch row at a first query block, as pieces (last first), with the proof
    that on whole memrefs — the query block and the keys at their contents, the scratch row at anything — the body
    runs to the continuation holding the inputs as they were and the scratch row with those pieces written. The pieces
    are found by running the body. -/
noncomputable def kernelRun1_A (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) :
    { LS0 : List (View.Piece (Elt F) S1x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.Fr

end
-- ==== Proof.KI.R1RunB.lean ====
/-
  The attention body at a point of the second kind (a query block that is neither the first nor the last of its batch
  and head): the scratch row, holding what the point before left, receives this block's column sums; the result
  windows are not touched.
-/
import proofs.«155430_j62354335204093_2_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's store leaves in the scratch row at a middle query block, as pieces, with the proof that on whole
    memrefs — the query block and the keys at their contents, the scratch row at the contents `xs0` the point before
    left — the body runs to the continuation holding the inputs as they were and the scratch row with those pieces
    written. -/
noncomputable def kernelRun1_B (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) :
    { LS0 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg8 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%fs0, %hfs0, HS⟩, Hk⟩
    obtain rfl := harg3.eq_unread hf0; obtain rfl := harg4.eq_unread hf1; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.Fr

end
-- ==== Proof.KI.R1RunC.lean ====
/-
  The attention body at a point of the third kind (the last query block of a batch and head): the scratch row receives
  this block's column sums and is then written to the first result window; its product with the values, scaled, is
  written to the second.
-/
import proofs.«155430_j62354335204093_2_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two result windows and in the scratch row at a last query block, as pieces, with
    the proof that on whole memrefs — the query block, the keys and the values at their contents, the two result
    buffers at anything, the scratch row at the contents `xs0` the point before left — the body runs to the
    continuation holding the inputs as they were and each of the three written buffers with its pieces written. -/
noncomputable def kernelRun1_C (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) :
    Σ' (L3 : List (View.Piece (Elt F) S1x1x1x2048 .f32)) (L4 : List (View.Piece (Elt F) S1x1x1x64 .f32)), { LS0 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS⟩, Hk⟩
    obtain rfl := harg3.eq_unread hf0; obtain rfl := harg4.eq_unread hf1; obtain rfl := harg5.eq_unread hf2; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS

end Cert.KernelIdeal.Fr

end
-- ==== Proof.KI.FrameR1.lean ====
/-
  The attention pipeline, point by point. After the body at a point the scratch row holds: at a first query block, this
  block's column sums added to a row of zeros; at a later block, this block's column sums added to what the point before
  left. At a last query block the first result window holds that row and the second its scaled product with the values;
  at the other points the result windows are left as found and are not written back. So what the scratch row holds after
  point `n` is defined by recursion on `n`, and the invariant carried from point to point says the scratch row holds
  exactly that.
-/
import proofs.«155430_j62354335204093_2_alg».proof.Proof.KI.R1RunC
import proofs.«155430_j62354335204093_2_alg».proof.Proof.KI.R1Iface

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- The two stores of a first query block cover the scratch row. -/
theorem scover1_A (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) (y : S1x2048.Idx) :
    ∃ pc ∈ (kernelRun1_A c i arg3 harg3 arg4 harg4 arg5 harg5 arg6 harg6 arg7 harg7 arg8 harg8 hc0 hc1 x0 x1).1, y ∈ pc.1.set :=
  View.cover_of_tiledL (kernelRun1_A c i arg3 harg3 arg4 harg4 arg5 harg5 arg6 harg6 arg7 harg7 arg8 harg8 hc0 hc1 x0 x1).1 S1x2048.size (by sl_kernel_rfl) y

/-- What a first query block leaves in the scratch row. -/
def sout1_A (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) : Vec F S1x2048 .f32 :=
  VS1_0.read (Elt F) (VS1_0.writes (Elt F) VS1_0.junk (kernelRun1_A c i arg3 harg3 arg4 harg4 arg5 harg5 arg6 harg6 arg7 harg7 arg8 harg8 hc0 hc1 x0 x1).1)

/-- The store of a middle query block covers the scratch row. -/
theorem scover1_B (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) (y : S1x2048.Idx) :
    ∃ pc ∈ (kernelRun1_B c i arg3 harg3 arg4 harg4 arg5 harg5 arg6 harg6 arg7 harg7 arg8 harg8 hc0 hc1 x0 x1 xs0).1, y ∈ pc.1.set :=
  View.cover_of_tiledL (kernelRun1_B c i arg3 harg3 arg4 harg4 arg5 harg5 arg6 harg6 arg7 harg7 arg8 harg8 hc0 hc1 x0 x1 xs0).1 S1x2048.size (by sl_kernel_rfl) y

/-- What a middle query block leaves in the scratch row, given what the point before left. -/
def sout1_B (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) : Vec F S1x2048 .f32 :=
  VS1_0.read (Elt F) (VS1_0.writes (Elt F) VS1_0.junk (kernelRun1_B c i arg3 harg3 arg4 harg4 arg5 harg5 arg6 harg6 arg7 harg7 arg8 harg8 hc0 hc1 x0 x1 xs0).1)

/-- The stores of a last query block cover the first result window, -/
theorem cover1_C_3 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) (y : S1x1x1x2048.Idx) :
    ∃ pc ∈ (kernelRun1_C c i arg3 harg3 arg4 harg4 arg5 harg5 arg6 harg6 arg7 harg7 arg8 harg8 hc0 hc1 x0 x1 x2 xs0).1, y ∈ pc.1.set :=
  View.cover_of_tiledL (kernelRun1_C c i arg3 harg3 arg4 harg4 arg5 harg5 arg6 harg6 arg7 harg7 arg8 harg8 hc0 hc1 x0 x1 x2 xs0).1 S1x1x1x2048.size (by sl_kernel_rfl) y
/-- the second, -/
theorem cover1_C_4 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) (y : S1x1x1x64.Idx) :
    ∃ pc ∈ (kernelRun1_C c i arg3 harg3 arg4 harg4 arg5 harg5 arg6 harg6 arg7 harg7 arg8 harg8 hc0 hc1 x0 x1 x2 xs0).2.1, y ∈ pc.1.set :=
  View.cover_of_tiledL (kernelRun1_C c i arg3 harg3 arg4 harg4 arg5 harg5 arg6 harg6 arg7 harg7 arg8 harg8 hc0 hc1 x0 x1 x2 xs0).2.1 S1x1x1x64.size (by sl_kernel_rfl) y
/-- and the scratch row. -/
theorem scover1_C (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) (y : S1x2048.Idx) :
    ∃ pc ∈ (kernelRun1_C c i arg3 harg3 arg4 harg4 arg5 harg5 arg6 harg6 arg7 harg7 arg8 harg8 hc0 hc1 x0 x1 x2 xs0).2.2.1, y ∈ pc.1.set :=
  View.cover_of_tiledL (kernelRun1_C c i arg3 harg3 arg4 harg4 arg5 harg5 arg6 harg6 arg7 harg7 arg8 harg8 hc0 hc1 x0 x1 x2 xs0).2.2.1 S1x2048.size (by sl_kernel_rfl) y

/-- What a last query block leaves in the first result window, -/
def out1_C_3 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) : Vec F S1x1x1x2048 .f32 :=
  VO1_3.read (Elt F) (VO1_3.writes (Elt F) VO1_3.junk (kernelRun1_C c i arg3 harg3 arg4 harg4 arg5 harg5 arg6 harg6 arg7 harg7 arg8 harg8 hc0 hc1 x0 x1 x2 xs0).1)
/-- in the second, -/
def out1_C_4 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) : Vec F S1x1x1x64 .f32 :=
  VO1_4.read (Elt F) (VO1_4.writes (Elt F) VO1_4.junk (kernelRun1_C c i arg3 harg3 arg4 harg4 arg5 harg5 arg6 harg6 arg7 harg7 arg8 harg8 hc0 hc1 x0 x1 x2 xs0).2.1)
/-- and in the scratch row. -/
def sout1_C (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) : Vec F S1x2048 .f32 :=
  VS1_0.read (Elt F) (VS1_0.writes (Elt F) VS1_0.junk (kernelRun1_C c i arg3 harg3 arg4 harg4 arg5 harg5 arg6 harg6 arg7 harg7 arg8 harg8 hc0 hc1 x0 x1 x2 xs0).2.2.1)

/-- A result window at a point that does not store into it: contents nothing consults (the window is neither written
    back there nor read at the next point). -/
def idle1_3 : Vec F S1x1x1x2048 .f32 := VO1_3.read (Elt F) VO1_3.junk
def idle1_4 : Vec F S1x1x1x64 .f32 := VO1_4.read (Elt F) VO1_4.junk

/-! ## The accumulation -/

/-- What the two result windows' buffers and the scratch row hold after the body at position `n`: by the kind of the
    point, the scratch row of a later block over what position `n - 1` left. -/
def outsAt1 (c : Dev nD) : (n : ℕ) → n < cfg1.N → Vec F S1x1x1x2048 .f32 × Vec F S1x1x1x64 .f32 × Vec F S1x2048 .f32
  | 0, hn => (idle1_3, idle1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => absurd ((hcond1_1 ⟨0, hn⟩).mp h) (by (try dsimp only); omega)) (iblk1 V c 0 ⟨0, hn⟩) (iblk1 V c 1 ⟨0, hn⟩))
  | n + 1, hn =>
    if h0 : (n + 1) % 4 = 0 then
      (idle1_3, idle1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => absurd ((hcond1_1 ⟨n + 1, hn⟩).mp h) (by (try dsimp only); omega)) (iblk1 V c 0 ⟨n + 1, hn⟩) (iblk1 V c 1 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2,
         out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        (idle1_3, idle1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2)

/-- At a first query block. -/
theorem outsAt1_A (c : Dev nD) (t : Fin cfg1.N) (h0 : t.val % 4 = 0) (hc1 : ¬cond1_1 (grid1.coords t)) :
    outsAt1 V c t.val t.isLt = (idle1_3, idle1_4, sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t)) := by
  obtain ⟨n, hn⟩ := t
  cases n with
  | zero => exact rfl
  | succ n => exact (dif_pos h0).trans rfl

/-- At a middle query block. -/
theorem outsAt1_B (c : Dev nD) (t : Fin cfg1.N) (h0 : ¬t.val % 4 = 0) (h1 : ¬t.val % 4 = 3) :
    outsAt1 V c t.val t.isLt = (idle1_3, idle1_4, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last query block. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2,
      out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2,
      sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

/-- Before the first point: the core's scoped buffers at anything, the generator register at some state. Afterwards: the
    same with the scratch row at what the point before left. -/
def PhiS1 (c : Dev nD) : (n : ℕ) → n ≤ cfg1.N → sProp 𝕄
  | 0, _ => Pipeline.ΦA spec1 c
  | n + 1, hn => iprop(scopedWith1 (F := F) c (owns (c : Thread nD τ) scM1_0 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith1 (F := F) c (owns (c : Thread nD τ) scM1_0 fullShare ((outsAt1 V c n hn).2.2)) ∗ (∃ r, prngReg c r)) := rfl
theorem PhiS1_pos (c : Dev nD) (n : ℕ) (h : n ≤ cfg1.N) (hz : n ≠ 0) :
    PhiS1 V c n h = iprop(scopedWith1 (F := F) c (owns (c : Thread nD τ) scM1_0 fullShare ((outsAt1 V c (n - 1) (by omega)).2.2)) ∗ (∃ r, prngReg c r)) := by
  cases n with
  | zero => exact absurd rfl hz
  | succ n => rfl

/-! ## The proof data -/

/-- The arrays as the pipeline finds them; after the body at a point each input's buffer at its block, the result windows'
    at the accumulation's components; the invariant above; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Fr

end
-- ==== Proof.KI.BodyR1.lean ====
/-
  The attention body meets its obligation at every point: by the kind of the point, the run of that kind applies — the
  input windows hold their blocks, the scratch row holds what the point before left (anything, before the very first
  point) — and what it leaves is the accumulation's value at the point.
-/
import proofs.«155430_j62354335204093_2_alg».proof.Proof.KI.FrameR1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · -- a first query block
    have hc1 : ¬cond1_1 (grid1.coords t) := fun h => by have := (hcond1_1 t).mp h; omega
    rw [Dat.leavesExact_idle (dat1 V c) 3 t (idleAt1_3 t hc1) (noFlush1_3 t hc1),
      Dat.leavesExact_idle (dat1 V c) 4 t (idleAt1_4 t hc1) (noFlush1_4 t hc1)]
    rw [outsAt1_A V c t h0 hc1]
    unfold sout1_A; (try dsimp only)
    by_cases hz : t.val = 0
    · -- the very first point: the scratch row at anything
      rw [PhiS1_castSucc V c t, PhiS1_zero V c _ _ hz, PhiA1_eq]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_A c (grid1.coords t) _ _ _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_A c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · -- a later first block: the scratch row at what the point before left, which the reset overwrites
      rw [PhiS1_castSucc V c t, PhiS1_pos V c _ _ hz]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_A c (grid1.coords t) _ _ _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_A c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val % 4 = 3
    · -- a last query block
      have hc0 : ¬cond1_0 (grid1.coords t) := fun h => h0 ((hcond1_0 t).mp h)
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C_3 out1_C_4 sout1_C; (try dsimp only)
      have hz : t.val ≠ 0 := by omega
      rw [PhiS1_castSucc V c t, PhiS1_pos V c _ _ hz]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_C c (grid1.coords t) _ _ _ _ _ _ _ _ _ _ _ _ hc0 hc1 (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_C c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _)
    · -- a middle query block
      have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      rw [outsAt1_B V c t h0 h1]
      unfold sout1_B; (try dsimp only)
      have hz : t.val ≠ 0 := by omega
      rw [PhiS1_castSucc V c t, PhiS1_pos V c _ _ hz]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_B c (grid1.coords t) _ _ _ _ _ _ _ _ _ _ _ _ hc0 hc1 (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_B c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the scratch row holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hsc, Hg⟩
  isplitl [Hsc]
  · ihave Hsc' := (scopedWith1_pull (F := F) c _) $$ Hsc
    icases Hsc' with ⟨HS0, Hoth⟩
    iapply (scopedWith1_push (F := F) c _)
    isplitl [HS0]; · iexists _; iexact HS0
    iexact Hoth
  iexact Hg

theorem hout1 (c : Dev nD) : (dat1 V c).Φ (Fin.last cfg1.N) ⊢ (Pipeline.ΦA spec1 c : sProp 𝕄) :=
  Phi_out1 V c _ (by rw [Fin.val_last]; have : cfg1.N = 256 := N_1; omega)

/-- The attention pipeline's half of the run. -/
def r1Half : R1Half (F := F) V where
  dat := dat1 V
  A_eq := A_eq1 V
  owed_zero := fun _ _ => rfl
  q_full := fun _ _ => rfl
  body := body_obligation1 V
  hin := hin1 V
  hout := hout1 V

end Cert.KernelIdeal.Fr

end
-- ==== Proof.KI.Claims.lean ====
/-
  The frame of the idealized kernel program, as the certificate states it: from any memory satisfying the precondition the
  entry function runs and every argument array ends holding its launch contents — read off the run over the three
  pipelines, whose post gives every unscoped buffer at the last boundary's contents, each argument there as launched.
  And the same run with the two result arrays named beside the arguments.
-/
import proofs.«155430_j62354335204093_2_alg».proof.Proof.KI.Run
import proofs.«155430_j62354335204093_2_alg».proof.Proof.KI.BodyR1
import proofs.«155430_j62354335204093_2_alg».proof.Proof.Gen.Pre_finite_inputs
import proofs.«155430_j62354335204093_2_alg».proof.Defs

set_option maxRecDepth 16384

noncomputable section

namespace Cert.KernelIdeal.Fr

open Cert.KernelIdeal Cert.KernelIdeal.Gen
open Idealize.ShloMosaic Idealize.ShloMosaic.TcCoe
open Idealize.SL Idealize.SL.Sem

/-- The idealized kernel program runs and its argument arrays end unchanged. -/
theorem frame_ki : Cert.frame_KernelIdeal := fun m ρ _ =>
  (θ_run Cert.KernelIdeal.defs _ _).mono (fun r h c =>
    ⟨(h c _ (mem_uc main_arg0 (by decide))).trans (W6_main_arg0 (fun V => r1Half V) m ρ c),
     (h c _ (mem_uc main_arg1 (by decide))).trans (W6_main_arg1 (fun V => r1Half V) m ρ c),
     (h c _ (mem_uc main_arg2 (by decide))).trans (W6_main_arg2 (fun V => r1Half V) m ρ c),
     (h c _ (mem_uc main_arg3 (by decide))).trans (W6_main_arg3 (fun V => r1Half V) m ρ c),
     (h c _ (mem_uc main_arg4 (by decide))).trans (W6_main_arg4 (fun V => r1Half V) m ρ c),
     (h c _ (mem_uc main_arg5 (by decide))).trans (W6_main_arg5 (fun V => r1Half V) m ρ c),
     (h c _ (mem_uc main_arg6 (by decide))).trans (W6_main_arg6 (fun V => r1Half V) m ρ c),
     (h c _ (mem_uc main_arg7 (by decide))).trans (W6_main_arg7 (fun V => r1Half V) m ρ c),
     (h c _ (mem_uc main_arg8 (by decide))).trans (W6_main_arg8 (fun V => r1Half V) m ρ c)⟩)
    (run_all (F := Ideal) (fun V => r1Half V) (fun _ _ => rfl) m ρ)

/-- The same run keeping the two results: the projected context's array and the averaged weights' array end at the
    last boundary's contents, the arguments as launched. -/
theorem run_values (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v29) = W6 (fun V => r1Half V) m ρ c (Proc.devRef .tc main_v29)
      ∧ r.2.mem ((c.tc : Thread nD τ).loc main_v27) = W6 (fun V => r1Half V) m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run Cert.KernelIdeal.defs _ _).mono (fun r h c =>
    ⟨h c _ (mem_uc main_v29 (by decide)), h c _ (mem_uc main_v27 (by decide)),
     (h c _ (mem_uc main_arg0 (by decide))).trans (W6_main_arg0 (fun V => r1Half V) m ρ c),
     (h c _ (mem_uc main_arg1 (by decide))).trans (W6_main_arg1 (fun V => r1Half V) m ρ c),
     (h c _ (mem_uc main_arg2 (by decide))).trans (W6_main_arg2 (fun V => r1Half V) m ρ c),
     (h c _ (mem_uc main_arg3 (by decide))).trans (W6_main_arg3 (fun V => r1Half V) m ρ c),
     (h c _ (mem_uc main_arg4 (by decide))).trans (W6_main_arg4 (fun V => r1Half V) m ρ c),
     (h c _ (mem_uc main_arg5 (by decide))).trans (W6_main_arg5 (fun V => r1Half V) m ρ c),
     (h c _ (mem_uc main_arg6 (by decide))).trans (W6_main_arg6 (fun V => r1Half V) m ρ c),
     (h c _ (mem_uc main_arg7 (by decide))).trans (W6_main_arg7 (fun V => r1Half V) m ρ c),
     (h c _ (mem_uc main_arg8 (by decide))).trans (W6_main_arg8 (fun V => r1Half V) m ρ c)⟩)
    (run_all (F := Ideal) (fun V => r1Half V) (fun _ _ => rfl) m ρ)

end Cert.KernelIdeal.Fr

end
-- ==== Proof.K.FrameR0.lean ====
/-
  The projection pipeline: a grid of 16 blocks of 512 rows. At each point the body reads a block of rows of the input
  (512 by 1024, f32), the three transposed weight matrices (1024 by 1024, bf16) and the three bias rows (1 by 1024, f32)
  — the weights and biases are resident: fetched at the first point only, their block index constant — and stores three
  output blocks (512 by 1024, bf16): the rows rounded to bf16, multiplied by a weight matrix with f32 accumulation, plus
  the bias broadcast over the rows, rounded to bf16 (the payloads `k0_pay2`, `k0_pay3`, `k0_pay4`, one per weight
  matrix). Stated here, at any contents `V` of the core's buffers when the pipeline is entered: each window's block at a
  point as a read of its array; that each input's staging buffer holds its block at every point, fetched there or not;
  each output's staging buffer after the body as its one store's payload of the input blocks (`out0_7`, `out0_8`,
  `out0_9`); the body's triple; the pipeline's proof data; and the body's obligation at every point.
-/
import proofs.«155430_j62354335204093_2_alg».proof.Proof.Gen.Kernel.Launch
import proofs.«155430_j62354335204093_2_alg».proof.Proof.Gen.Kernel.Skeleton
import proofs.«155430_j62354335204093_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # The first pallas_call (custom_call 0, pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched input's block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched input's block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched input's block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched input's block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: an unfetched input's block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: an unfetched input's block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each whole buffer as one rectangle -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each output window's buffer -/

/-- Window 7's staging buffer after the body: its one store, the rows' projection by the first weight matrix plus
    its bias, rounded to bf16. -/
def out0_7 (x0 : Vec F S512x1024 .f32) (x1 : Vec F S1024x1024 .bf16) (x2 : Vec F S1x1024 .f32) : Vec F S512x1024 .bf16 :=
  View.canon [⟨r0_0, k0_pay2 (View.ld x0 r0_0) (View.ld x1 r0_1) (View.ld x2 r0_2)⟩]

/-- Window 8's, by the second weight matrix and bias. -/
def out0_8 (x0 : Vec F S512x1024 .f32) (x3 : Vec F S1024x1024 .bf16) (x4 : Vec F S1x1024 .f32) : Vec F S512x1024 .bf16 :=
  View.canon [⟨r0_0, k0_pay3 (View.ld x0 r0_0) (View.ld x3 r0_1) (View.ld x4 r0_2)⟩]

/-- Window 9's, by the third weight matrix and bias. -/
def out0_9 (x0 : Vec F S512x1024 .f32) (x5 : Vec F S1024x1024 .bf16) (x6 : Vec F S1x1024 .f32) : Vec F S512x1024 .bf16 :=
  View.canon [⟨r0_0, k0_pay4 (View.ld x0 r0_0) (View.ld x5 r0_1) (View.ld x6 r0_2)⟩]

/-- Each output's one store is through the whole-buffer rectangle, so it covers the buffer. -/
theorem cover0_out (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The kernel body on whole staging memrefs, the inputs' at read contents `xW` and the outputs' at anything (the body
    loads each once, unused, before storing over all of it), runs to the continuation holding the inputs' as they
    were and each output's at `out0_W` of the inputs'. -/
theorem sound_kernel0 (c : Dev nD) (E : Set ℕ) (i : grid0.Coords)
    (arg0 : Memref sig .tc .vmem S512x1024 .f32) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S512x1024 .bf16) (harg7 : arg7.IsWhole)
    (arg8 : Memref sig .tc .vmem S512x1024 .bf16) (harg8 : arg8.IsWhole)
    (arg9 : Memref sig .tc .vmem S512x1024 .bf16) (harg9 : arg9.IsWhole)
    (x0 : Vec F S512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x2) ∗ owns (c : Thread nD τ) arg8 fullShare (out0_8 x0 x3 x4) ∗ owns (c : Thread nD τ) arg9 fullShare (out0_9 x0 x5 x6)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of pipeline 0 on core `c`: the arrays as the region finds them (`V`); after the body at point
    `t` each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point: the rows' window is fetched at every point,
    the weights' and biases' at the first only, their block index constant. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.FrameR2.lean ====
/-
  The output-projection pipeline: a single grid point. Its body reads the context block (4 by 1024, f32), the transposed
  weight matrix (1024 by 1024, bf16) and the bias row (1 by 1024, f32), and stores into the one output block (4 by 1024,
  f32) the context rounded to bf16, multiplied by the weight matrix with f32 accumulation, plus the bias broadcast over
  the rows (the payload `k2_pay1`). Stated here, at any contents `V` of the core's buffers when the pipeline is
  entered: each window's block at the point as a read of its array; that each input's staging buffer holds its block when
  the body runs; the output's staging buffer after the body as the one store's payload of the three input blocks
  (`out2_3`); the body's triple; the pipeline's proof data; and the body's obligation at the point.
-/
import proofs.«155430_j62354335204093_2_alg».proof.Proof.Gen.Kernel.Launch
import proofs.«155430_j62354335204093_2_alg».proof.Proof.Gen.Kernel.Skeleton
import proofs.«155430_j62354335204093_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # The last pallas_call (custom_call 2, pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: an unfetched input's block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: an unfetched input's block index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: an unfetched input's block index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each whole buffer as one rectangle -/

abbrev r2_0 : Rect S4x1024 := Rect.unit (s := S4x1024) ![0, 0] S4x1024.size inb_S4x1024_S4x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- Window 3's staging buffer after the body, from the input windows' blocks: its one store, of the projected
    context plus the bias. -/
def out2_3 (x0 : Vec F S4x1024 .f32) (x1 : Vec F S1024x1024 .bf16) (x2 : Vec F S1x1024 .f32) : Vec F S4x1024 .f32 :=
  View.canon [⟨r2_0, k2_pay1 (View.ld x0 r2_0) (View.ld x1 r2_1) (View.ld x2 r2_2)⟩]

/-- The store's rectangle is the whole buffer, so it covers it. -/
theorem cover2_3 (p0 : Vec F S4x1024 .f32) (y : S4x1024.Idx) :
    ∃ pc ∈ ([⟨r2_0, p0⟩] : List (View.Piece (Elt F) S4x1024 .f32)), y ∈ pc.1.set :=
  View.cover_of_tiled [⟨r2_0, p0⟩] S4x1024.size (by rfl) y

/-! ## The body's triple -/

set_option maxHeartbeats 1000000 in
/-- The kernel body on whole staging memrefs, the inputs' at read contents `xW` and the output's at anything (the body
    loads it once, unused, before storing over all of it), runs to the continuation holding the inputs' as they
    were and the output's at `out2_3` of the inputs'. -/
theorem sound_kernel2 (c : Dev nD) (E : Set ℕ) (i : grid2.Coords)
    (arg0 : Memref sig .tc .vmem S4x1024 .f32) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S4x1024 .f32) (harg3 : arg3.IsWhole)
    (x0 : Vec F S4x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__outproj_kernel i arg0 harg0 arg1 harg1 arg2 harg2 arg3 harg3) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R1Iface.lean ====
/-
  What the run over the program's three pipelines needs to know of the middle one (the attention pipeline), at any
  contents `V` of the core's buffers when that pipeline is entered: its proof data (the arrays as found, what each
  window's buffer holds after the body at each point, the invariant carried from point to point), that its arrays are
  the ones found, the body's obligation at every point, and that the invariant starts from, and ends in, the core's
  scoped buffers at anything beside the generator register.
-/
import proofs.«155430_j62354335204093_2_alg».proof.Proof.Gen.Kernel.Launch
import proofs.«155430_j62354335204093_2_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The attention pipeline's half of the run, at entry contents `V`. -/
structure R1Half (V : (c : Dev nD) → (b : Ref sig .tc) → Buf (Elt F) ((c : Thread nD τ).loc b)) where
  /-- the proof data on each core -/
  dat : (c : Dev nD) → Dat τ (Elt F) Unit ℕ (UR sig nD τ) ℕ cfg1 c
  /-- its arrays are the ones the pipeline finds -/
  A_eq : ∀ (c : Dev nD) (w : Fin cfg1.W), (dat c).A w = V c (Pipeline.arrRef spec1 w)
  /-- nothing is owed to another core, and every share is whole -/
  owed_zero : ∀ (c : Dev nD) (t : Fin (cfg1.N + 1)), (dat c).owed t = 0
  q_full : ∀ (c : Dev nD) (w : Fin cfg1.W), (dat c).q w = fullShare
  /-- the body's obligation at every point -/
  body : ∀ c : Dev nD, BodyObligation (dat c) (defs₀ (F := F)) Variants.none () Set.univ
  /-- the invariant before the first point is what the launch hands over -/
  hin : ∀ c : Dev nD, (Pipeline.ΦA spec1 c : sProp (MT nD τ sig Unit (Elt F) ℕ (UR sig nD τ) ℕ)) ⊢ (dat c).Φ 0
  /-- and after the last point it gives that back -/
  hout : ∀ c : Dev nD, (dat c).Φ (Fin.last cfg1.N) ⊢ (Pipeline.ΦA spec1 c : sProp (MT nD τ sig Unit (Elt F) ℕ (UR sig nD τ) ℕ))

end Cert.Kernel.Fr

end
-- ==== Proof.K.RunBase.lean ====
/-
  The run of the program's entry function over its three pipelines, first part: the contents of a core's buffers at each
  boundary between a stretch of host operations and a pipeline, as a fold from the launch memory; what each step of the
  fold leaves alone; every pipeline's proof data at the contents its region is entered with; and the state a core's
  thread is in between two segments. The middle pipeline's half is a parameter.
-/
import proofs.«155430_j62354335204093_2_alg».proof.Proof.K.FrameR0
import proofs.«155430_j62354335204093_2_alg».proof.Proof.K.FrameR2
import proofs.«155430_j62354335204093_2_alg».proof.Proof.K.R1Iface
import proofs.«155430_j62354335204093_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the middle pipeline's half, at any entry contents
variable (R1 : ∀ V : (c : Dev nD) → (b : Ref sig .tc) → Buf (Elt F) ((c : Thread nD τ).loc b), R1Half (F := F) V)
variable (m : (ℓ : Loc nD τ sig) → Buf (Elt F) ℓ) (ρ : Dev nD → PrngReg)

/-! ## The buffer contents at each segment boundary: a fold through the entry function -/

/-- Core `c`'s buffers at launch. -/
abbrev W0 : Dev nD → Valuation τ sig (Elt F) := fun c b => (s₀ m ρ).mem ((c : Dev nD), b)
/-- After the first stretch of host operations (the first pipeline's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first pipeline's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the middle pipeline's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the middle pipeline's exit. -/
def W4 (c : Dev nD) : Valuation τ sig (Elt F) :=
  Pipeline.withArrays spec1 c (W3 m ρ c) fun w => ((R1 (V3 m ρ)).dat c).arrAt w cfg1.N
theorem W4_arr (c : Dev nD) (w : Fin cfg1.W) :
    W4 R1 m ρ c (Proc.devRef .tc (Pipeline.arrRef spec1 w)) = ((R1 (V3 m ρ)).dat c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 R1 m ρ c b
theorem hF1 (c : Dev nD) (w : Fin cfg1.W) : ((R1 (V3 m ρ)).dat c).arrAt w cfg1.N = V4 R1 m ρ c (Pipeline.arrRef spec1 w) :=
  (W4_arr R1 m ρ c w).symm
theorem hrest1 (c : Dev nD) : ∀ b, b ∉ Finset.univ.image (Pipeline.arrRef spec1) → V4 R1 m ρ c b = V3 m ρ c b :=
  fun b hb => W4_of_ne R1 m ρ c b fun w e => hb (Finset.mem_image.mpr ⟨w, Finset.mem_univ _, e⟩)

/-- After the third stretch of host operations (the last pipeline's entry). -/
abbrev W5 : Dev nD → Valuation τ sig (Elt F) := fun c => StableHlo.after hostOps2 (W4 R1 m ρ c)
abbrev V5 : (c : Dev nD) → (b : Ref sig .tc) → Buf (Elt F) ((c : Thread nD τ).loc b) := fun c b => W5 R1 m ρ c b
/-- At the last pipeline's exit: the contents the entry function returns with. -/
def W6 (c : Dev nD) : Valuation τ sig (Elt F) :=
  Pipeline.withArrays spec2 c (W5 R1 m ρ c) fun w => (dat2 (V5 R1 m ρ) c).arrAt w cfg2.N
theorem W6_arr (c : Dev nD) (w : Fin cfg2.W) :
    W6 R1 m ρ c (Proc.devRef .tc (Pipeline.arrRef spec2 w)) = (dat2 (V5 R1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 R1 m ρ c (Proc.devRef .tc b) = W5 R1 m ρ c (Proc.devRef .tc b) := by
  unfold W6; exact Pipeline.withArrays_of_ne spec2 c _ _ b hb
abbrev V6 : (c : Dev nD) → (b : Ref sig .tc) → Buf (Elt F) ((c : Thread nD τ).loc b) := fun c b => W6 R1 m ρ c b
theorem hF2 (c : Dev nD) (w : Fin cfg2.W) : (dat2 (V5 R1 m ρ) c).arrAt w cfg2.N = V6 R1 m ρ c (Pipeline.arrRef spec2 w) :=
  (W6_arr R1 m ρ c w).symm
theorem hrest2 (c : Dev nD) : ∀ b, b ∉ Finset.univ.image (Pipeline.arrRef spec2) → V6 R1 m ρ c b = V5 R1 m ρ c b :=
  fun b hb => W6_of_ne R1 m ρ c b fun w e => hb (Finset.mem_image.mpr ⟨w, Finset.mem_univ _, e⟩)

/-! ## What each step of the fold leaves alone -/

/-- A stretch of host operations changes only the buffers its operations write. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 R1 m ρ c (Proc.devRef .tc r) = W4 R1 m ρ c (Proc.devRef .tc r) :=
  StableHlo.after_of_writes_sub hostOps2 _ hostOps2_writes h

/-- A buffer that no stretch of host operations writes and no pipeline stages ends as launched. -/
theorem W6_launch (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) (h5 : ∀ w, Pipeline.arrRef spec2 w ≠ r) :
    W6 R1 m ρ c (Proc.devRef .tc r) = m ((c : Thread nD τ).loc r) :=
  (W6_of_ne R1 m ρ c r h5).trans <| (W5_of R1 m ρ c r h4).trans <| (W4_of_ne R1 m ρ c r h3).trans <|
    (W3_of m ρ c r h2).trans <| (W2_of_ne m ρ c r h1).trans <| (W1_of m ρ c r h0).trans rfl

/-! ### The nine arguments end as launched: no host operation writes one and no pipeline stages one -/

theorem W6_main_arg0 (c : Dev nD) : W6 R1 m ρ c (Proc.devRef .tc main_arg0) = m ((c : Thread nD τ).loc main_arg0) :=
  W6_launch R1 m ρ c main_arg0 (by decide) (by decide) (by decide) (by decide) (by decide) (by decide)
theorem W6_main_arg1 (c : Dev nD) : W6 R1 m ρ c (Proc.devRef .tc main_arg1) = m ((c : Thread nD τ).loc main_arg1) :=
  W6_launch R1 m ρ c main_arg1 (by decide) (by decide) (by decide) (by decide) (by decide) (by decide)
theorem W6_main_arg2 (c : Dev nD) : W6 R1 m ρ c (Proc.devRef .tc main_arg2) = m ((c : Thread nD τ).loc main_arg2) :=
  W6_launch R1 m ρ c main_arg2 (by decide) (by decide) (by decide) (by decide) (by decide) (by decide)
theorem W6_main_arg3 (c : Dev nD) : W6 R1 m ρ c (Proc.devRef .tc main_arg3) = m ((c : Thread nD τ).loc main_arg3) :=
  W6_launch R1 m ρ c main_arg3 (by decide) (by decide) (by decide) (by decide) (by decide) (by decide)
theorem W6_main_arg4 (c : Dev nD) : W6 R1 m ρ c (Proc.devRef .tc main_arg4) = m ((c : Thread nD τ).loc main_arg4) :=
  W6_launch R1 m ρ c main_arg4 (by decide) (by decide) (by decide) (by decide) (by decide) (by decide)
theorem W6_main_arg5 (c : Dev nD) : W6 R1 m ρ c (Proc.devRef .tc main_arg5) = m ((c : Thread nD τ).loc main_arg5) :=
  W6_launch R1 m ρ c main_arg5 (by decide) (by decide) (by decide) (by decide) (by decide) (by decide)
theorem W6_main_arg6 (c : Dev nD) : W6 R1 m ρ c (Proc.devRef .tc main_arg6) = m ((c : Thread nD τ).loc main_arg6) :=
  W6_launch R1 m ρ c main_arg6 (by decide) (by decide) (by decide) (by decide) (by decide) (by decide)
theorem W6_main_arg7 (c : Dev nD) : W6 R1 m ρ c (Proc.devRef .tc main_arg7) = m ((c : Thread nD τ).loc main_arg7) :=
  W6_launch R1 m ρ c main_arg7 (by decide) (by decide) (by decide) (by decide) (by decide) (by decide)
theorem W6_main_arg8 (c : Dev nD) : W6 R1 m ρ c (Proc.devRef .tc main_arg8) = m ((c : Thread nD τ).loc main_arg8) :=
  W6_launch R1 m ρ c main_arg8 (by decide) (by decide) (by decide) (by decide) (by decide) (by decide)

/-! ### The two results: the averaged weights are what the last stretch of host operations left, the projected
    context is the last pipeline's output array -/

theorem W6_main_v27 (c : Dev nD) : W6 R1 m ρ c (Proc.devRef .tc main_v27) = W5 R1 m ρ c (Proc.devRef .tc main_v27) :=
  W6_of_ne R1 m ρ c main_v27 (by decide)
theorem W6_main_v29 (c : Dev nD) : W6 R1 m ρ c (Proc.devRef .tc main_v29) = (dat2 (V5 R1 m ρ) c).arrAt 3 cfg2.N :=
  W6_arr R1 m ρ c 3

/-! ## The proof data family and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => (R1 (V3 m ρ)).dat c
  | ⟨2, _⟩ => fun c => dat2 (V5 R1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W6 R1 m ρ c) ∗ ∃ r, prngReg c r)

end Cert.Kernel.Fr

end
-- ==== Proof.K.Run0.lean ====
/-
  The run of the entry function, the first pipeline as a segment: entered with every unscoped buffer of the core at the
  contents of the boundary before it, left with them at the contents of the boundary after it. Its arrays are split out of
  the unscoped buffers and put back at their exit contents; the generator register goes into the pipeline's invariant
  and comes back; nothing is owed; the kernel has no semaphore of its own.
-/
import proofs.«155430_j62354335204093_2_alg».proof.Proof.K.RunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
variable (m : (ℓ : Loc nD τ sig) → Buf (Elt F) ℓ) (ρ : Dev nD → PrngReg)

set_option backward.isDefEq.respectTransparency.types false in
/-- The first pipeline over the thread state. -/
def reg0 : Pipeline.RegionSeg (pcfgs (F := F)) adm (pdats R1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R1 m ρ) launch0.win launch0.arr_whole c
      ((pdats R1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 m ρ) ((pdats R1 m ρ 0 c).share_full fun _ => rfl)
      (V1 m ρ c) (V2 m ρ c) ((pdats R1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Run1.lean ====
/-
  The run of the entry function, the middle pipeline as a segment: entered with every unscoped buffer of the core at the
  contents of the boundary before it, left with them at the contents of the boundary after it. Its arrays are split out of
  the unscoped buffers and put back at their exit contents; the generator register goes into the pipeline's invariant
  and comes back; nothing is owed; the kernel has no semaphore of its own.
-/
import proofs.«155430_j62354335204093_2_alg».proof.Proof.K.RunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
-- the middle pipeline's proof data bound the recorded pairs by everything before its first point
variable (hrec : ∀ (V : (c : Dev nD) → (b : Ref sig .tc) → Buf (Elt F) ((c : Thread nD τ).loc b)) (c : Dev nD), ((R1 V).dat c).recorded 0 = Set.univ)
variable (m : (ℓ : Loc nD τ sig) → Buf (Elt F) ℓ) (ρ : Dev nD → PrngReg)

set_option backward.isDefEq.respectTransparency.types false in
/-- The middle pipeline over the thread state. -/
def reg1 : Pipeline.RegionSeg (pcfgs (F := F)) adm (pdats R1 m ρ) () defs₀ 𝒱₀ L lv 1 where
  win := launch1.win.to₀
  block_pos := launch1.block_pos
  stage_whole := launch1.stage_whole
  K := PEmpty
  osem k := k.elim
  ho := Pipeline.OwnSemFacts.none _
  hbody c := ((R1 (V3 m ρ)).body c).loose
  hwaits := Pipeline.hwaits_of_owed_zero _ _ _ _ L lv 1 fun c t => (R1 (V3 m ρ)).owed_zero c t
  pre c := iprop(StableHlo.held (c : Thread nD τ) (Pipeline.ucRefs τ sig) (W3 m ρ c) ∗ R c)
  post c := iprop(StableHlo.held (c : Thread nD τ) (Pipeline.ucRefs τ sig) (W4 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats R1 m ρ) launch1.win launch1.arr_whole c
      ((pdats R1 m ρ 1 c).share_full ((R1 (V3 m ρ)).q_full c)) (V3 m ρ c) ((R1 (V3 m ρ)).A_eq c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R1 m ρ 1 c).owed 0 = 0 from (R1 (V3 m ρ)).owed_zero c 0]
      icases HO with ⟨%W, HO⟩; iexists W; isplitr
      · ipureintro; intro x _; left
        show x ∈ ((R1 (V3 m ρ)).dat c).recorded 0
        rw [hrec]; trivial
      iexact HO
    isplitl [Hp]; · iexact Hp
    iexact Hrest
  hin c := by
    refine (?_ : _ ⊢ (Pipeline.ΦA spec1 c : sProp 𝕄)).trans ((R1 (V3 m ρ)).hin c)
    unfold Pipeline.ΦA
    iintro ⟨Hp, -, Hr⟩
    isplitl [Hr]; · iexact Hr
    iexact Hp
  hout c := by
    rw [Pipeline.ownSems0_none]
    refine (show (pdats R1 m ρ 1 c).Φ (Fin.last _) ⊢ (Pipeline.ΦA spec1 c : sProp 𝕄) from (R1 (V3 m ρ)).hout c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R1 m ρ) ((pdats R1 m ρ 1 c).share_full ((R1 (V3 m ρ)).q_full c))
      (V3 m ρ c) (V4 R1 m ρ c) ((pdats R1 m ρ 1 c).arrAt · cfg1.N) (hF1 R1 m ρ c) (hrest1 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R1 m ρ 1 c).owed (Fin.last _) = 0 from (R1 (V3 m ρ)).owed_zero c _]
    icases HO with ⟨%W, -, HO⟩; iexists W; iexact HO

end Cert.Kernel.Fr

end
-- ==== Proof.K.Run2.lean ====
/-
  The run of the entry function, the last pipeline as a segment: entered with every unscoped buffer of the core at the
  contents of the boundary before it, left with them at the contents of the boundary after it. Its arrays are split out of
  the unscoped buffers and put back at their exit contents; the generator register goes into the pipeline's invariant
  and comes back; nothing is owed; the kernel has no semaphore of its own.
-/
import proofs.«155430_j62354335204093_2_alg».proof.Proof.K.RunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
variable (m : (ℓ : Loc nD τ sig) → Buf (Elt F) ℓ) (ρ : Dev nD → PrngReg)

set_option backward.isDefEq.respectTransparency.types false in
/-- The last pipeline over the thread state. -/
def reg2 : Pipeline.RegionSeg (pcfgs (F := F)) adm (pdats R1 m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 R1 m ρ) c).loose
  hwaits := Pipeline.hwaits_of_owed_zero _ _ _ _ L lv 2 fun _ _ => rfl
  pre c := iprop(StableHlo.held (c : Thread nD τ) (Pipeline.ucRefs τ sig) (W5 R1 m ρ c) ∗ R c)
  post c := iprop(Tₙ R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 R1 m ρ c)
  hentry c := by
    rw [Pipeline.ownSems0_none]
    have hsplit := Pipeline.arrays_of_unscopedBufs (p := 2) (pcfgs (F := F)) adm (pdats R1 m ρ) launch2.win launch2.arr_whole c
      ((pdats R1 m ρ 2 c).share_full fun _ => rfl) (V5 R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats R1 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats R1 m ρ) ((pdats R1 m ρ 2 c).share_full fun _ => rfl)
      (V5 R1 m ρ c) (V6 R1 m ρ c) ((pdats R1 m ρ 2 c).arrAt · cfg2.N) (hF2 R1 m ρ c) (hrest2 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Fr

end
-- ==== Proof.K.Run.lean ====
/-
  The run of the entry function over its three pipelines, last part: the entry function as the list of its six segments
  (a stretch of host operations before each pipeline, nothing after the last), and the launch: from any memory with zero
  counters every weakly fair execution terminates, nothing faulting, and in every final state each unscoped buffer of
  each core holds the contents of the last boundary of the fold.
-/
import proofs.«155430_j62354335204093_2_alg».proof.Proof.K.Run0
import proofs.«155430_j62354335204093_2_alg».proof.Proof.K.Run1
import proofs.«155430_j62354335204093_2_alg».proof.Proof.K.Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R1 : ∀ V : (c : Dev nD) → (b : Ref sig .tc) → Buf (Elt F) ((c : Thread nD τ).loc b), R1Half (F := F) V)
-- the middle pipeline's proof data bound the recorded pairs by everything before its first point
variable (hrec : ∀ (V : (c : Dev nD) → (b : Ref sig .tc) → Buf (Elt F) ((c : Thread nD τ).loc b)) (c : Dev nD), ((R1 V).dat c).recorded 0 = Set.univ)
variable (m : (ℓ : Loc nD τ sig) → Buf (Elt F) ℓ) (ρ : Dev nD → PrngReg)

/-- The entry function's 6 segments in order: a host segment per stretch from its boundary's contents, a region per
    pipeline. -/
abbrev segs : List (Pipeline.Seg (pcfgs (F := F)) adm (pdats R1 m ρ) () defs₀ 𝒱₀ L lv) :=
  [ .host (hseg hostOps0 hostOps0_sub hostOps0_fresh (W0 m ρ)),
    .region (reg0 R1 m ρ),
    .host (hseg hostOps1 hostOps1_sub hostOps1_fresh (W2 m ρ)),
    .region (reg1 R1 hrec m ρ),
    .host (hseg hostOps2 hostOps2_sub hostOps2_fresh (W4 R1 m ρ)),
    .region (reg2 R1 m ρ) ]
/-- The entry function is the run of the segments. -/
theorem main_run (c : Dev nD) : main (F := F) c = Pipeline.Seg.run (segs R1 hrec m ρ) := (main_chain c).trans (by chain_rfl)

include hrec in
set_option backward.isDefEq.respectTransparency.types false in
/-- The run: at the compiled mesh, from any memory with zero counters, every weakly fair execution of the entry function
    on the TensorCores terminates, nothing faulting, and every final state has every unscoped buffer of every core at
    the last boundary's contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 R1 m ρ c b) :=
  Pipeline.θ_run_regions_kit (pcfgs (F := F)) adm (pdats R1 m ρ) () cellOf_inj emb₁ defs₀ 𝒱₀ L lv m ρ main (segs R1 hrec m ρ)
    (fun c Q => by rw [main_run R1 hrec m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 R1 m ρ c) s')
      isplitl [Hh] <;> iassumption)
    (hQ := fun s h c => h c)

end Cert.Kernel.Fr

end
-- ==== Proof.K.R1Base.lean ====
/-
  The attention pipeline: a grid of 4 × 16 × 4 points (batch, head, block of 512 query rows), the query-block
  coordinate innermost. Each point reads one block of 512 query rows and the whole key and value arrays of its
  (batch, head); a row of 2048 running column sums is kept in a scratch buffer from one point to the next. The
  first query block of a (batch, head) resets that row, every block adds its own contribution, and the last block
  writes the row, and its product with the values, to the two results. So the points fall into three kinds by
  their position modulo 4: 0 (reset, then add), 1 and 2 (add), 3 (add, then write the results); the two result
  windows are untouched, and not written back, at the points of the first two kinds.
-/
import proofs.«155430_j62354335204093_2_alg».proof.Proof.Gen.Kernel.Launch
import proofs.«155430_j62354335204093_2_alg».proof.Proof.Gen.Kernel.Skeleton
import proofs.«155430_j62354335204093_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (an unfetched block is
    the block of the point before: the index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is the first query block": the comparison of the innermost coordinate with 0. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last query block": the comparison of the innermost coordinate with 3. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last query block the two result windows are idle and are not written back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- At the last query block they are live. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The memrefs the body is called with -/

/-- One staging buffer of each result window, through which its contents are stated. -/
abbrev VO1_3 : View sig .tc .vmem S1x1x1x2048 .f32 := (Memref.whole cc1_stg3_0 : Memref sig .tc .vmem S1x1x1x2048 .f32).view
abbrev VO1_4 : View sig .tc .vmem S1x1x1x64 .f32 := (Memref.whole cc1_stg4_0 : Memref sig .tc .vmem S1x1x1x64 .f32).view
/-- Each window's current staging memref at point `t`, and its wholeness. -/
abbrev ms1_0 (t : Fin cfg1.N) : Memref sig .tc .vmem S1x1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1x64 .f32 := win1_4.stage (cfg1.slots t 4)
abbrev hs1_4 (t : Fin cfg1.N) : (ms1_4 t).IsWhole := hstage1_4 ((cfg1.slots t 4).cast nbuf1_4)
/-- The row of running column sums: a whole scratch buffer of the kernel's own, and the view its contents are stated through. -/
abbrev scM1_0 : Memref sig .tc .vmem S1x2048 .f32 := Memref.whole cc1_scratch0
abbrev VS1_0 : View sig .tc .vmem S1x2048 .f32 := scM1_0.view

/-! ## The core's other scoped buffers, with the scratch row singled out -/

/-- The core's scoped buffers that are no staging buffer of this pipeline, in the order the layout lists them, each at
    some contents, with `S` standing where the scratch row stands. -/
def scopedWith1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ S ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- All of them but the scratch row. -/
def scopedOthers1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

/-- The scratch row taken out of the list, -/
theorem scopedWith1_pull (c : Dev nD) (S : sProp 𝕄) : scopedWith1 (F := F) c S ⊢ iprop(S ∗ scopedOthers1 (F := F) c) := by
  unfold scopedWith1 scopedOthers1
  iintro ⟨H0, H1, H2, H3, H4, H5, H6, H7, H8, H9, H10, H11, H12, H13, HS, H15, H16, H17, H18⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  isplitl [H17]; · iexact H17
  iexact H18

/-- and put back. -/
theorem scopedWith1_push (c : Dev nD) (S : sProp 𝕄) : iprop(S ∗ scopedOthers1 (F := F) c) ⊢ scopedWith1 (F := F) c S := by
  unfold scopedWith1 scopedOthers1
  iintro ⟨HS, H0, H1, H2, H3, H4, H5, H6, H7, H8, H9, H10, H11, H12, H13, H15, H16, H17, H18⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  isplitl [H15]; · iexact H15
  isplitl [H16]; · iexact H16
  isplitl [H17]; · iexact H17
  iexact H18

/-- The pipeline's own invariant (the scoped rest at anything, the generator register at some state) with the scratch
    row as a memref owned at some contents. -/
theorem PhiA1_eq (c : Dev nD) :
    (Pipeline.ΦA spec1 c : sProp 𝕄)
      = iprop(scopedWith1 (F := F) c (iprop(∃ d, owns (c : Thread nD τ) scM1_0 fullShare d)) ∗ (∃ r, prngReg c r)) := by
  unfold Pipeline.ΦA scopedWith1; rw [scopedRest1_eq]; simp only [scM1_0, owns_whole]; try rfl

end Cert.Kernel.Fr

end
-- ==== Proof.K.R1RunA.lean ====
/-
  The attention body at a point of the first kind (the first query block of a batch and head): the scratch row
  is reset and then receives this block's column sums; the result windows are not touched.
-/
import proofs.«155430_j62354335204093_2_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's two stores leave in the scratch row at a first query block, as pieces (last first), with the proof
    that on whole memrefs — the query block and the keys at their contents, the scratch row at anything — the body
    runs to the continuation holding the inputs as they were and the scratch row with those pieces written. The pieces
    are found by running the body. -/
noncomputable def kernelRun1_A (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) :
    { LS0 : List (View.Piece (Elt F) S1x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.Fr

end
-- ==== Proof.K.R1RunB.lean ====
/-
  The attention body at a point of the second kind (a query block that is neither the first nor the last of its batch
  and head): the scratch row, holding what the point before left, receives this block's column sums; the result
  windows are not touched.
-/
import proofs.«155430_j62354335204093_2_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's store leaves in the scratch row at a middle query block, as pieces, with the proof that on whole
    memrefs — the query block and the keys at their contents, the scratch row at the contents `xs0` the point before
    left — the body runs to the continuation holding the inputs as they were and the scratch row with those pieces
    written. -/
noncomputable def kernelRun1_B (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) :
    { LS0 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg8 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%fs0, %hfs0, HS⟩, Hk⟩
    obtain rfl := harg3.eq_unread hf0; obtain rfl := harg4.eq_unread hf1; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.Fr

end
-- ==== Proof.K.R1RunC.lean ====
/-
  The attention body at a point of the third kind (the last query block of a batch and head): the scratch row receives
  this block's column sums and is then written to the first result window; its product with the values, scaled, is
  written to the second.
-/
import proofs.«155430_j62354335204093_2_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two result windows and in the scratch row at a last query block, as pieces, with
    the proof that on whole memrefs — the query block, the keys and the values at their contents, the two result
    buffers at anything, the scratch row at the contents `xs0` the point before left — the body runs to the
    continuation holding the inputs as they were and each of the three written buffers with its pieces written. -/
noncomputable def kernelRun1_C (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) :
    Σ' (L3 : List (View.Piece (Elt F) S1x1x1x2048 .f32)) (L4 : List (View.Piece (Elt F) S1x1x1x64 .f32)), { LS0 : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS⟩, Hk⟩
    obtain rfl := harg3.eq_unread hf0; obtain rfl := harg4.eq_unread hf1; obtain rfl := harg5.eq_unread hf2; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS

end Cert.Kernel.Fr

end
-- ==== Proof.K.FrameR1.lean ====
/-
  The attention pipeline, point by point. After the body at a point the scratch row holds: at a first query block, this
  block's column sums added to a row of zeros; at a later block, this block's column sums added to what the point before
  left. At a last query block the first result window holds that row and the second its scaled product with the values;
  at the other points the result windows are left as found and are not written back. So what the scratch row holds after
  point `n` is defined by recursion on `n`, and the invariant carried from point to point says the scratch row holds
  exactly that.
-/
import proofs.«155430_j62354335204093_2_alg».proof.Proof.K.R1RunC
import proofs.«155430_j62354335204093_2_alg».proof.Proof.K.R1Iface

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- The two stores of a first query block cover the scratch row. -/
theorem scover1_A (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) (y : S1x2048.Idx) :
    ∃ pc ∈ (kernelRun1_A c i arg3 harg3 arg4 harg4 arg5 harg5 arg6 harg6 arg7 harg7 arg8 harg8 hc0 hc1 x0 x1).1, y ∈ pc.1.set :=
  View.cover_of_tiledL (kernelRun1_A c i arg3 harg3 arg4 harg4 arg5 harg5 arg6 harg6 arg7 harg7 arg8 harg8 hc0 hc1 x0 x1).1 S1x2048.size (by sl_kernel_rfl) y

/-- What a first query block leaves in the scratch row. -/
def sout1_A (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) : Vec F S1x2048 .f32 :=
  VS1_0.read (Elt F) (VS1_0.writes (Elt F) VS1_0.junk (kernelRun1_A c i arg3 harg3 arg4 harg4 arg5 harg5 arg6 harg6 arg7 harg7 arg8 harg8 hc0 hc1 x0 x1).1)

/-- The store of a middle query block covers the scratch row. -/
theorem scover1_B (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) (y : S1x2048.Idx) :
    ∃ pc ∈ (kernelRun1_B c i arg3 harg3 arg4 harg4 arg5 harg5 arg6 harg6 arg7 harg7 arg8 harg8 hc0 hc1 x0 x1 xs0).1, y ∈ pc.1.set :=
  View.cover_of_tiledL (kernelRun1_B c i arg3 harg3 arg4 harg4 arg5 harg5 arg6 harg6 arg7 harg7 arg8 harg8 hc0 hc1 x0 x1 xs0).1 S1x2048.size (by sl_kernel_rfl) y

/-- What a middle query block leaves in the scratch row, given what the point before left. -/
def sout1_B (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) : Vec F S1x2048 .f32 :=
  VS1_0.read (Elt F) (VS1_0.writes (Elt F) VS1_0.junk (kernelRun1_B c i arg3 harg3 arg4 harg4 arg5 harg5 arg6 harg6 arg7 harg7 arg8 harg8 hc0 hc1 x0 x1 xs0).1)

/-- The stores of a last query block cover the first result window, -/
theorem cover1_C_3 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) (y : S1x1x1x2048.Idx) :
    ∃ pc ∈ (kernelRun1_C c i arg3 harg3 arg4 harg4 arg5 harg5 arg6 harg6 arg7 harg7 arg8 harg8 hc0 hc1 x0 x1 x2 xs0).1, y ∈ pc.1.set :=
  View.cover_of_tiledL (kernelRun1_C c i arg3 harg3 arg4 harg4 arg5 harg5 arg6 harg6 arg7 harg7 arg8 harg8 hc0 hc1 x0 x1 x2 xs0).1 S1x1x1x2048.size (by sl_kernel_rfl) y
/-- the second, -/
theorem cover1_C_4 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) (y : S1x1x1x64.Idx) :
    ∃ pc ∈ (kernelRun1_C c i arg3 harg3 arg4 harg4 arg5 harg5 arg6 harg6 arg7 harg7 arg8 harg8 hc0 hc1 x0 x1 x2 xs0).2.1, y ∈ pc.1.set :=
  View.cover_of_tiledL (kernelRun1_C c i arg3 harg3 arg4 harg4 arg5 harg5 arg6 harg6 arg7 harg7 arg8 harg8 hc0 hc1 x0 x1 x2 xs0).2.1 S1x1x1x64.size (by sl_kernel_rfl) y
/-- and the scratch row. -/
theorem scover1_C (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) (y : S1x2048.Idx) :
    ∃ pc ∈ (kernelRun1_C c i arg3 harg3 arg4 harg4 arg5 harg5 arg6 harg6 arg7 harg7 arg8 harg8 hc0 hc1 x0 x1 x2 xs0).2.2.1, y ∈ pc.1.set :=
  View.cover_of_tiledL (kernelRun1_C c i arg3 harg3 arg4 harg4 arg5 harg5 arg6 harg6 arg7 harg7 arg8 harg8 hc0 hc1 x0 x1 x2 xs0).2.2.1 S1x2048.size (by sl_kernel_rfl) y

/-- What a last query block leaves in the first result window, -/
def out1_C_3 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) : Vec F S1x1x1x2048 .f32 :=
  VO1_3.read (Elt F) (VO1_3.writes (Elt F) VO1_3.junk (kernelRun1_C c i arg3 harg3 arg4 harg4 arg5 harg5 arg6 harg6 arg7 harg7 arg8 harg8 hc0 hc1 x0 x1 x2 xs0).1)
/-- in the second, -/
def out1_C_4 (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) : Vec F S1x1x1x64 .f32 :=
  VO1_4.read (Elt F) (VO1_4.writes (Elt F) VO1_4.junk (kernelRun1_C c i arg3 harg3 arg4 harg4 arg5 harg5 arg6 harg6 arg7 harg7 arg8 harg8 hc0 hc1 x0 x1 x2 xs0).2.1)
/-- and in the scratch row. -/
def sout1_C (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) : Vec F S1x2048 .f32 :=
  VS1_0.read (Elt F) (VS1_0.writes (Elt F) VS1_0.junk (kernelRun1_C c i arg3 harg3 arg4 harg4 arg5 harg5 arg6 harg6 arg7 harg7 arg8 harg8 hc0 hc1 x0 x1 x2 xs0).2.2.1)

/-- A result window at a point that does not store into it: contents nothing consults (the window is neither written
    back there nor read at the next point). -/
def idle1_3 : Vec F S1x1x1x2048 .f32 := VO1_3.read (Elt F) VO1_3.junk
def idle1_4 : Vec F S1x1x1x64 .f32 := VO1_4.read (Elt F) VO1_4.junk

/-! ## The accumulation -/

/-- What the two result windows' buffers and the scratch row hold after the body at position `n`: by the kind of the
    point, the scratch row of a later block over what position `n - 1` left. -/
def outsAt1 (c : Dev nD) : (n : ℕ) → n < cfg1.N → Vec F S1x1x1x2048 .f32 × Vec F S1x1x1x64 .f32 × Vec F S1x2048 .f32
  | 0, hn => (idle1_3, idle1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => absurd ((hcond1_1 ⟨0, hn⟩).mp h) (by (try dsimp only); omega)) (iblk1 V c 0 ⟨0, hn⟩) (iblk1 V c 1 ⟨0, hn⟩))
  | n + 1, hn =>
    if h0 : (n + 1) % 4 = 0 then
      (idle1_3, idle1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => absurd ((hcond1_1 ⟨n + 1, hn⟩).mp h) (by (try dsimp only); omega)) (iblk1 V c 0 ⟨n + 1, hn⟩) (iblk1 V c 1 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2,
         out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        (idle1_3, idle1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2)

/-- At a first query block. -/
theorem outsAt1_A (c : Dev nD) (t : Fin cfg1.N) (h0 : t.val % 4 = 0) (hc1 : ¬cond1_1 (grid1.coords t)) :
    outsAt1 V c t.val t.isLt = (idle1_3, idle1_4, sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t)) := by
  obtain ⟨n, hn⟩ := t
  cases n with
  | zero => exact rfl
  | succ n => exact (dif_pos h0).trans rfl

/-- At a middle query block. -/
theorem outsAt1_B (c : Dev nD) (t : Fin cfg1.N) (h0 : ¬t.val % 4 = 0) (h1 : ¬t.val % 4 = 3) :
    outsAt1 V c t.val t.isLt = (idle1_3, idle1_4, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last query block. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2,
      out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2,
      sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

/-- Before the first point: the core's scoped buffers at anything, the generator register at some state. Afterwards: the
    same with the scratch row at what the point before left. -/
def PhiS1 (c : Dev nD) : (n : ℕ) → n ≤ cfg1.N → sProp 𝕄
  | 0, _ => Pipeline.ΦA spec1 c
  | n + 1, hn => iprop(scopedWith1 (F := F) c (owns (c : Thread nD τ) scM1_0 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith1 (F := F) c (owns (c : Thread nD τ) scM1_0 fullShare ((outsAt1 V c n hn).2.2)) ∗ (∃ r, prngReg c r)) := rfl
theorem PhiS1_pos (c : Dev nD) (n : ℕ) (h : n ≤ cfg1.N) (hz : n ≠ 0) :
    PhiS1 V c n h = iprop(scopedWith1 (F := F) c (owns (c : Thread nD τ) scM1_0 fullShare ((outsAt1 V c (n - 1) (by omega)).2.2)) ∗ (∃ r, prngReg c r)) := by
  cases n with
  | zero => exact absurd rfl hz
  | succ n => rfl

/-! ## The proof data -/

/-- The arrays as the pipeline finds them; after the body at a point each input's buffer at its block, the result windows'
    at the accumulation's components; the invariant above; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Fr

end
-- ==== Proof.K.BodyR1.lean ====
/-
  The attention body meets its obligation at every point: by the kind of the point, the run of that kind applies — the
  input windows hold their blocks, the scratch row holds what the point before left (anything, before the very first
  point) — and what it leaves is the accumulation's value at the point.
-/
import proofs.«155430_j62354335204093_2_alg».proof.Proof.K.FrameR1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · -- a first query block
    have hc1 : ¬cond1_1 (grid1.coords t) := fun h => by have := (hcond1_1 t).mp h; omega
    rw [Dat.leavesExact_idle (dat1 V c) 3 t (idleAt1_3 t hc1) (noFlush1_3 t hc1),
      Dat.leavesExact_idle (dat1 V c) 4 t (idleAt1_4 t hc1) (noFlush1_4 t hc1)]
    rw [outsAt1_A V c t h0 hc1]
    unfold sout1_A; (try dsimp only)
    by_cases hz : t.val = 0
    · -- the very first point: the scratch row at anything
      rw [PhiS1_castSucc V c t, PhiS1_zero V c _ _ hz, PhiA1_eq]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_A c (grid1.coords t) _ _ _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_A c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · -- a later first block: the scratch row at what the point before left, which the reset overwrites
      rw [PhiS1_castSucc V c t, PhiS1_pos V c _ _ hz]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_A c (grid1.coords t) _ _ _ _ _ _ _ _ _ _ _ _ ((hcond1_0 t).mpr h0) hc1 (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_A c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · by_cases h1 : t.val % 4 = 3
    · -- a last query block
      have hc0 : ¬cond1_0 (grid1.coords t) := fun h => h0 ((hcond1_0 t).mp h)
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C_3 out1_C_4 sout1_C; (try dsimp only)
      have hz : t.val ≠ 0 := by omega
      rw [PhiS1_castSucc V c t, PhiS1_pos V c _ _ hz]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_C c (grid1.coords t) _ _ _ _ _ _ _ _ _ _ _ _ hc0 hc1 (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_C c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _)
    · -- a middle query block
      have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      rw [outsAt1_B V c t h0 h1]
      unfold sout1_B; (try dsimp only)
      have hz : t.val ≠ 0 := by omega
      rw [PhiS1_castSucc V c t, PhiS1_pos V c _ _ hz]
      iintro ⟨⟨Hsc, Hg⟩, Ho, ⟨%d0, H0⟩, ⟨%d1, H1⟩, ⟨%d2, H2⟩, ⟨%d3, H3⟩, ⟨%d4, H4⟩⟩
      ihave Hsc' := (scopedWith1_pull (F := F) c _) $$ Hsc
      icases Hsc' with ⟨HS0, Hoth⟩
      iapply ((kernelRun1_B c (grid1.coords t) _ _ _ _ _ _ _ _ _ _ _ _ hc0 hc1 (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · iapply (scopedWith1_push (F := F) c _)
          isplitl [HS0]
          · unfold owns; iexists _; isplitr
            swap; · iexact HS0
            ipureintro; exact View.read_writes_of_cover _ _ _ _ _ (scover1_B c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the scratch row holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hsc, Hg⟩
  isplitl [Hsc]
  · ihave Hsc' := (scopedWith1_pull (F := F) c _) $$ Hsc
    icases Hsc' with ⟨HS0, Hoth⟩
    iapply (scopedWith1_push (F := F) c _)
    isplitl [HS0]; · iexists _; iexact HS0
    iexact Hoth
  iexact Hg

theorem hout1 (c : Dev nD) : (dat1 V c).Φ (Fin.last cfg1.N) ⊢ (Pipeline.ΦA spec1 c : sProp 𝕄) :=
  Phi_out1 V c _ (by rw [Fin.val_last]; have : cfg1.N = 256 := N_1; omega)

/-- The attention pipeline's half of the run. -/
def r1Half : R1Half (F := F) V where
  dat := dat1 V
  A_eq := A_eq1 V
  owed_zero := fun _ _ => rfl
  q_full := fun _ _ => rfl
  body := body_obligation1 V
  hin := hin1 V
  hout := hout1 V

end Cert.Kernel.Fr

end
-- ==== Proof.K.Claims.lean ====
/-
  The frame of the kernel program as printed, as the certificate states it: from any memory satisfying the precondition the
  entry function runs and every argument array ends holding its launch contents — read off the run over the three
  pipelines, whose post gives every unscoped buffer at the last boundary's contents, each argument there as launched.
-/
import proofs.«155430_j62354335204093_2_alg».proof.Proof.K.Run
import proofs.«155430_j62354335204093_2_alg».proof.Proof.K.BodyR1
import proofs.«155430_j62354335204093_2_alg».proof.Proof.Gen.Pre_finite_inputs
import proofs.«155430_j62354335204093_2_alg».proof.Defs

set_option maxRecDepth 16384

noncomputable section

namespace Cert.Kernel.Fr

open Cert.Kernel Cert.Kernel.Gen
open Idealize.ShloMosaic Idealize.ShloMosaic.TcCoe
open Idealize.SL Idealize.SL.Sem

/-- The kernel program runs and its argument arrays end unchanged. -/
theorem frame_k : Cert.frame_Kernel := fun m ρ _ =>
  (θ_run Cert.Kernel.defs _ _).mono (fun r h c =>
    ⟨(h c _ (mem_uc main_arg0 (by decide))).trans (W6_main_arg0 (fun V => r1Half V) m ρ c),
     (h c _ (mem_uc main_arg1 (by decide))).trans (W6_main_arg1 (fun V => r1Half V) m ρ c),
     (h c _ (mem_uc main_arg2 (by decide))).trans (W6_main_arg2 (fun V => r1Half V) m ρ c),
     (h c _ (mem_uc main_arg3 (by decide))).trans (W6_main_arg3 (fun V => r1Half V) m ρ c),
     (h c _ (mem_uc main_arg4 (by decide))).trans (W6_main_arg4 (fun V => r1Half V) m ρ c),
     (h c _ (mem_uc main_arg5 (by decide))).trans (W6_main_arg5 (fun V => r1Half V) m ρ c),
     (h c _ (mem_uc main_arg6 (by decide))).trans (W6_main_arg6 (fun V => r1Half V) m ρ c),
     (h c _ (mem_uc main_arg7 (by decide))).trans (W6_main_arg7 (fun V => r1Half V) m ρ c),
     (h c _ (mem_uc main_arg8 (by decide))).trans (W6_main_arg8 (fun V => r1Half V) m ρ c)⟩)
    (run_all (F := Bits) (fun V => r1Half V) (fun _ _ => rfl) m ρ)

end Cert.Kernel.Fr

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.LibIdealCoe.lean ====
/-
  The ideal float operations on FINITE values: every operation of the extended-real instance, applied
  to coercions of reals, is the coercion of the real operation.

  The extended reals `[-∞, +∞]` carry the reals as the coercions `((r : ℝ) : EReal)`.  On them a sum, a
  difference, a product are the real ones; a quotient by a nonzero real is the real quotient; the
  exponential is the real exponential; a finite sum of coercions is the coercion of the sum; the
  supremum of a nonempty finite family of coercions is the coercion of the largest member.  The f32
  words of the powers of two that occur as divisors (`16`, `64`, `2048`) denote those reals, and the
  square root of a nonnegative real is the real square root.
-/
import Idealize.ShloMosaic.PureOps.Ideal
import Idealize.ShloMosaic.PureOps.Ideal.Laws

noncomputable section

namespace Cert.IdealCoe

open Idealize.ShloMosaic
open Finset BigOperators

/-- A finite sum of coerced reals is the coercion of the real sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over a whole finite type. -/
theorem coe_sum {ι : Type*} [Fintype ι] (f : ι → ℝ) :
    ∑ i, ((f i : ℝ) : EReal) = ((∑ i, f i : ℝ) : EReal) := coe_finset_sum _ f

/-- A quotient of two finite values with a nonzero divisor is the real quotient. -/
theorem div_coe_coe (x y : ℝ) (hy : y ≠ 0) : Ideal.div (x : EReal) (y : EReal) = ((x / y : ℝ) : EReal) := by
  rw [Ideal.div_coe hy, ← EReal.coe_mul, mul_one_div]

/-- The supremum of a nonempty finite family of finite values is the largest of them. -/
theorem iSup_coe {ι : Type*} [Fintype ι] [Nonempty ι] (f : ι → ℝ) :
    ⨆ i, ((f i : ℝ) : EReal) = ((Finset.univ.sup' Finset.univ_nonempty f : ℝ) : EReal) := by
  refine le_antisymm (iSup_le fun i => EReal.coe_le_coe_iff.2 (Finset.le_sup' f (Finset.mem_univ i))) ?_
  obtain ⟨i, _, hi⟩ := Finset.exists_mem_eq_sup' Finset.univ_nonempty f
  rw [hi]
  exact le_iSup (fun i => ((f i : ℝ) : EReal)) i

/-- The maximum with `-∞` on the left is the other value. -/
theorem max_bot_left' (x : EReal) : max ⊥ x = x := max_eq_right bot_le

/-- The f32 word `0x42800000` denotes `64`. -/
theorem ofBits_f32_64 : Ideal.ofBits .f32 0x42800000#32 = ((64 : ℝ) : EReal) := by
  simp [Ideal.ofBits, Ideal.ieee]
  rw [← EReal.coe_mul]
  exact congrArg _ (by norm_num)

/-- The f32 word `0x45000000` denotes `2048`. -/
theorem ofBits_f32_2048 : Ideal.ofBits .f32 0x45000000#32 = ((2048 : ℝ) : EReal) := by
  simp [Ideal.ofBits, Ideal.ieee]
  rw [← EReal.coe_mul]
  exact congrArg _ (by norm_num)

/-- The f32 word `0x41800000` denotes `16`. -/
theorem ofBits_f32_16 : Ideal.ofBits .f32 0x41800000#32 = ((16 : ℝ) : EReal) := by
  simp [Ideal.ofBits, Ideal.ieee]
  rw [← EReal.coe_mul]
  exact congrArg _ (by norm_num)

/-- The f32 word `0xFF800000` denotes `-∞`. -/
theorem ofBits_f32_negInf : Ideal.ofBits .f32 0xFF800000#32 = ⊥ := by simp [Ideal.ofBits, Ideal.ieee]

/-- The square root of a nonnegative finite value is the real square root. -/
theorem sqrt_coe_of_nonneg (r : ℝ) (hr : 0 ≤ r) : Ideal.sqrt (r : EReal) = ((Real.sqrt r : ℝ) : EReal) := by
  rw [Ideal.sqrt_coe, if_neg (not_lt.2 hr)]

end Cert.IdealCoe

end
-- ==== Proof.KI.PayLin.lean ====
/-
  An affine map applied to a block of rows, read at an index over the reals.

  A block of M rows of width 1024 is multiplied by a 1024 × 1024 matrix (contracting the block's second
  axis with the matrix's first) into a zero accumulator, and one row of 1024 biases is added to every
  row.  When every entry of the three operands is a real number, the entry (r, o) of the result is the
  real number  Σ_h x[r, h] · W[h, o] + bias[o].
-/
import proofs.«155430_j62354335204093_2_alg».proof.Proof.LibPlainDot
import proofs.«155430_j62354335204093_2_alg».proof.Proof.LibIdealCoe
import Idealize.ShloMosaic.Lib.ValueLayout

noncomputable section

namespace Cert.KernelIdeal.Val

open Idealize.ShloMosaic Idealize.ShloMosaic.ValueIdx
open Finset BigOperators

/-- Rows times a matrix plus a bias row, entry by entry: every product and every sum stays among the reals. -/
theorem rows_affine_apply {M : Nat} {φ₁ φ₂ : FTy} (xr : Fin M → Fin 1024 → ℝ) (wr : Fin 1024 → Fin 1024 → ℝ)
    (br : Fin 1024 → ℝ) (prec : Option ContractPrecision)
    (x : FVec Ideal ⟨2, ![M, 1024]⟩ φ₁) (w : FVec Ideal ⟨2, ![1024, 1024]⟩ φ₂) (bias : FVec Ideal ⟨2, ![1, 1024]⟩ .f32)
    (hb : (⟨2, ![1, 1024]⟩ : Shape).Broadcasts ⟨2, ![M, 1024]⟩)
    (hx : ∀ r h, x (ix2 r h) = ((xr r h : ℝ) : EReal)) (hw : ∀ h o, w (ix2 h o) = ((wr h o : ℝ) : EReal))
    (hbias : ∀ o, bias (ix2 (0 : Fin 1) o) = ((br o : ℝ) : EReal)) (r : Fin M) (o : Fin 1024) :
    addf (FloatOps.matmul (DotDims.plain M 1024 1024) prec x w (constant ⟨2, ![M, 1024]⟩ .f32 0x00000000#32))
        (broadcastTo ⟨2, ![M, 1024]⟩ bias hb) (ix2 r o)
      = (((∑ h, xr r h * wr h o) + br o : ℝ) : EReal) := by
  rw [addf_apply, Cert.LibPlainDot.plain_matmul_apply, broadcastTo_1b_ab_apply]
  show (∑ k : Fin 1024, x (ix2 r k) * w (ix2 k o)) + bias (ix2 (0 : Fin 1) o) = _
  simp only [hx, hw, hbias, ← EReal.coe_mul, Cert.IdealCoe.coe_sum, ← EReal.coe_add]

end Cert.KernelIdeal.Val

end
-- ==== Proof.KI.Pay0.lean ====
/-
  The three input projections' blocks, read at an index over the reals.

  The first kernel body takes a block x of 512 rows of the input (width 1024) and, for each of the query, key
  and value projections, a matrix W and a bias row, and stores  x · W + bias.  With real entries the entry
  (r, o) of each stored block is  Σ_h x[r, h] · W[h, o] + bias[o].  The three stored blocks are the same function
  of their own matrix and bias.
-/
import proofs.«155430_j62354335204093_2_alg».proof.Proof.Gen.KernelIdeal.Skeleton
import proofs.«155430_j62354335204093_2_alg».proof.Proof.KI.PayLin

noncomputable section

namespace Cert.KernelIdeal.Val

open Cert.KernelIdeal Cert.KernelIdeal.Gen Idealize.ShloMosaic ValueIdx
open Finset BigOperators

/-- The block the query projection stores, entry by entry. -/
theorem pay0_q_apply (xr : Fin 512 → Fin 1024 → ℝ) (wr : Fin 1024 → Fin 1024 → ℝ) (br : Fin 1024 → ℝ)
    (x0 : Vec Ideal S512x1024 .f32) (x1 : Vec Ideal S1024x1024 .bf16) (x2 : Vec Ideal S1x1024 .f32)
    (h0 : ∀ r h, x0 (ix2 r h) = ((xr r h : ℝ) : EReal)) (h1 : ∀ h o, x1 (ix2 h o) = ((wr h o : ℝ) : EReal))
    (h2 : ∀ o, x2 (ix2 0 o) = ((br o : ℝ) : EReal)) (r : Fin 512) (o : Fin 1024) :
    k0_pay2 (F := Ideal) x0 x1 x2 (ix2 r o) = (((∑ h, xr r h * wr h o) + br o : ℝ) : EReal) := by
  unfold k0_pay2 k0_pay1
  dsimp only
  rw [shapeCast_self, shapeCast_self, shapeCast_self]
  exact rows_affine_apply (M := 512) xr wr br none x0 x1 x2 broadcasts_S1x1024_S512x1024 h0 h1 h2 r o

/-- The block the key projection stores, entry by entry. -/
theorem pay0_k_apply (xr : Fin 512 → Fin 1024 → ℝ) (wr : Fin 1024 → Fin 1024 → ℝ) (br : Fin 1024 → ℝ)
    (x0 : Vec Ideal S512x1024 .f32) (x1 : Vec Ideal S1024x1024 .bf16) (x2 : Vec Ideal S1x1024 .f32)
    (h0 : ∀ r h, x0 (ix2 r h) = ((xr r h : ℝ) : EReal)) (h1 : ∀ h o, x1 (ix2 h o) = ((wr h o : ℝ) : EReal))
    (h2 : ∀ o, x2 (ix2 0 o) = ((br o : ℝ) : EReal)) (r : Fin 512) (o : Fin 1024) :
    k0_pay3 (F := Ideal) x0 x1 x2 (ix2 r o) = (((∑ h, xr r h * wr h o) + br o : ℝ) : EReal) :=
  pay0_q_apply xr wr br x0 x1 x2 h0 h1 h2 r o

/-- The block the value projection stores, entry by entry. -/
theorem pay0_v_apply (xr : Fin 512 → Fin 1024 → ℝ) (wr : Fin 1024 → Fin 1024 → ℝ) (br : Fin 1024 → ℝ)
    (x0 : Vec Ideal S512x1024 .f32) (x1 : Vec Ideal S1024x1024 .bf16) (x2 : Vec Ideal S1x1024 .f32)
    (h0 : ∀ r h, x0 (ix2 r h) = ((xr r h : ℝ) : EReal)) (h1 : ∀ h o, x1 (ix2 h o) = ((wr h o : ℝ) : EReal))
    (h2 : ∀ o, x2 (ix2 0 o) = ((br o : ℝ) : EReal)) (r : Fin 512) (o : Fin 1024) :
    k0_pay4 (F := Ideal) x0 x1 x2 (ix2 r o) = (((∑ h, xr r h * wr h o) + br o : ℝ) : EReal) :=
  pay0_q_apply xr wr br x0 x1 x2 h0 h1 h2 r o

end Cert.KernelIdeal.Val

end
-- ==== Proof.KI.Final0.lean ====
/-
  The three input projections' arrays after their pipeline, each as one function of the arrays the pipeline reads.

  The first pipeline has sixteen grid points.  At point t the input window's block is rows 512 t … 512 t + 511 of
  the 8192 × 1024 input; the three matrices and the three bias rows are whole arrays at every point; and each of
  the three results' blocks written back at t is rows 512 t … 512 t + 511 of its 8192 × 1024 array.  The sixteen
  blocks tile each result array (row r belongs to point r / 512), so each result array ends holding, at (r, o),
  Σ_h x[r, h] · W[h, o] + bias[o]  for its own matrix W and bias.
-/
import proofs.«155430_j62354335204093_2_alg».proof.Proof.KI.FrameR0
import proofs.«155430_j62354335204093_2_alg».proof.Proof.KI.Pay0
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem ValueIdx
open Idealize.ShloMosaic.Pipeline (Dat)
open BigOperators

variable (V : (c : Dev nD) → (b : Ref sig .tc) → Buf (Elt Ideal) ((c : Thread nD τ).loc b)) (c : Dev nD)

/-- The offset `(0, 0)` of a whole-buffer rectangle. -/
theorem zero_off0 : (![0, 0] : Fin 2 → Nat) = fun _ => 0 := funext fun a => by fin_cases a <;> rfl

/-! ## The windows' block indices at a point, decided over the sixteen points -/

/-- The input rows' window moves down one block per point. -/
theorem idx0_0 : ∀ t : Fin cfg0.N, win0_0.index t 0 = t.val ∧ win0_0.index t 1 = 0 :=
  (by decide +kernel : ∀ t : Fin grid0.N, win0_0.index t 0 = t.val ∧ win0_0.index t 1 = 0)
/-- The matrices and bias rows stay at block `(0, 0)`. -/
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
/-- Each result's window moves down one block per point. -/
theorem idx0_7 : ∀ t : Fin cfg0.N, win0_7.index t 0 = t.val ∧ win0_7.index t 1 = 0 :=
  (by decide +kernel : ∀ t : Fin grid0.N, win0_7.index t 0 = t.val ∧ win0_7.index t 1 = 0)
theorem idx0_8 : ∀ t : Fin cfg0.N, win0_8.index t 0 = t.val ∧ win0_8.index t 1 = 0 :=
  (by decide +kernel : ∀ t : Fin grid0.N, win0_8.index t 0 = t.val ∧ win0_8.index t 1 = 0)
theorem idx0_9 : ∀ t : Fin cfg0.N, win0_9.index t 0 = t.val ∧ win0_9.index t 1 = 0 :=
  (by decide +kernel : ∀ t : Fin grid0.N, win0_9.index t 0 = t.val ∧ win0_9.index t 1 = 0)

/-! ## The input blocks as parts of their arrays -/

/-- The input rows' block at point `t`, at a local index, is the input array at row `512 t` + the local row. -/
theorem iblk0_0_apply (t : Fin cfg0.N) (x : S512x1024.Idx) (k : S8192x1024.Idx)
    (hk0 : (k 0).val = 512 * t.val + (x 0).val) (hk1 : (k 1).val = (x 1).val) :
    (iblk0 V c 0 t : Vec Ideal S512x1024 .f32) x = (V c main_v12 : S8192x1024.Idx → EReal) k := by
  obtain ⟨e0, e1⟩ := idx0_0 t
  unfold iblk0
  rw [View.read_apply]
  show V c main_v12 _ = V c main_v12 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The query matrix's block at any point is the array itself. -/
theorem iblk0_1_apply (t : Fin cfg0.N) (x : S1024x1024.Idx) :
    (iblk0 V c 1 t : Vec Ideal S1024x1024 .bf16) x = (V c main_v1 : S1024x1024.Idx → EReal) x := by
  obtain ⟨e0, e1⟩ := idx0_1 t
  unfold iblk0
  rw [View.read_apply]
  show V c main_v1 _ = V c main_v1 _
  congr 1
  funext a
  apply Fin.ext
  match a with
  | ⟨0, _⟩ => show win0_1.index t 0 * 1024 + 1 * (x 0).val = (x 0).val; rw [e0]; omega
  | ⟨1, _⟩ => show win0_1.index t 1 * 1024 + 1 * (x 1).val = (x 1).val; rw [e1]; omega

/-- The query bias row's block at any point is the array itself. -/
theorem iblk0_2_apply (t : Fin cfg0.N) (x : S1x1024.Idx) :
    (iblk0 V c 2 t : Vec Ideal S1x1024 .f32) x = (V c main_v8 : S1x1024.Idx → EReal) x := by
  obtain ⟨e0, e1⟩ := idx0_2 t
  unfold iblk0
  rw [View.read_apply]
  show V c main_v8 _ = V c main_v8 _
  congr 1
  funext a
  apply Fin.ext
  match a with
  | ⟨0, _⟩ => show win0_2.index t 0 * 1 + 1 * (x 0).val = (x 0).val; rw [e0]; omega
  | ⟨1, _⟩ => show win0_2.index t 1 * 1024 + 1 * (x 1).val = (x 1).val; rw [e1]; omega

/-- The key matrix's block at any point is the array itself. -/
theorem iblk0_3_apply (t : Fin cfg0.N) (x : S1024x1024.Idx) :
    (iblk0 V c 3 t : Vec Ideal S1024x1024 .bf16) x = (V c main_v3 : S1024x1024.Idx → EReal) x := by
  obtain ⟨e0, e1⟩ := idx0_3 t
  unfold iblk0
  rw [View.read_apply]
  show V c main_v3 _ = V c main_v3 _
  congr 1
  funext a
  apply Fin.ext
  match a with
  | ⟨0, _⟩ => show win0_3.index t 0 * 1024 + 1 * (x 0).val = (x 0).val; rw [e0]; omega
  | ⟨1, _⟩ => show win0_3.index t 1 * 1024 + 1 * (x 1).val = (x 1).val; rw [e1]; omega

/-- The key bias row's block at any point is the array itself. -/
theorem iblk0_4_apply (t : Fin cfg0.N) (x : S1x1024.Idx) :
    (iblk0 V c 4 t : Vec Ideal S1x1024 .f32) x = (V c main_v9 : S1x1024.Idx → EReal) x := by
  obtain ⟨e0, e1⟩ := idx0_4 t
  unfold iblk0
  rw [View.read_apply]
  show V c main_v9 _ = V c main_v9 _
  congr 1
  funext a
  apply Fin.ext
  match a with
  | ⟨0, _⟩ => show win0_4.index t 0 * 1 + 1 * (x 0).val = (x 0).val; rw [e0]; omega
  | ⟨1, _⟩ => show win0_4.index t 1 * 1024 + 1 * (x 1).val = (x 1).val; rw [e1]; omega

/-- The value matrix's block at any point is the array itself. -/
theorem iblk0_5_apply (t : Fin cfg0.N) (x : S1024x1024.Idx) :
    (iblk0 V c 5 t : Vec Ideal S1024x1024 .bf16) x = (V c main_v5 : S1024x1024.Idx → EReal) x := by
  obtain ⟨e0, e1⟩ := idx0_5 t
  unfold iblk0
  rw [View.read_apply]
  show V c main_v5 _ = V c main_v5 _
  congr 1
  funext a
  apply Fin.ext
  match a with
  | ⟨0, _⟩ => show win0_5.index t 0 * 1024 + 1 * (x 0).val = (x 0).val; rw [e0]; omega
  | ⟨1, _⟩ => show win0_5.index t 1 * 1024 + 1 * (x 1).val = (x 1).val; rw [e1]; omega

/-- The value bias row's block at any point is the array itself. -/
theorem iblk0_6_apply (t : Fin cfg0.N) (x : S1x1024.Idx) :
    (iblk0 V c 6 t : Vec Ideal S1x1024 .f32) x = (V c main_v10 : S1x1024.Idx → EReal) x := by
  obtain ⟨e0, e1⟩ := idx0_6 t
  unfold iblk0
  rw [View.read_apply]
  show V c main_v10 _ = V c main_v10 _
  congr 1
  funext a
  apply Fin.ext
  match a with
  | ⟨0, _⟩ => show win0_6.index t 0 * 1 + 1 * (x 0).val = (x 0).val; rw [e0]; omega
  | ⟨1, _⟩ => show win0_6.index t 1 * 1024 + 1 * (x 1).val = (x 1).val; rw [e1]; omega

/-- The projected array: at `(r, o)` the real number `Σ_h x[r, h] · W[h, o] + bias[o]`. -/
abbrev projArr0 (xf : Fin 8192 → Fin 1024 → ℝ) (wT : Fin 1024 → Fin 1024 → ℝ) (bb : Fin 1024 → ℝ) : S8192x1024.Idx → EReal :=
  fun i => (((∑ h, xf ⟨(i 0).val, (i 0).isLt⟩ h * wT h ⟨(i 1).val, (i 1).isLt⟩) + bb ⟨(i 1).val, (i 1).isLt⟩ : ℝ) : EReal)

variable (xf : Fin 8192 → Fin 1024 → ℝ) (wT : Fin 1024 → Fin 1024 → ℝ) (bb : Fin 1024 → ℝ)

/-! ## The query projection's array (window 7) -/

/-- What point `t` writes back to the query array is block `t` of the projected array. -/
theorem flushed0_7_eq (h0 : ∀ r h, (V c main_v12 : S8192x1024.Idx → EReal) (ix2 r h) = ((xf r h : ℝ) : EReal))
    (h1 : ∀ h o, (V c main_v1 : S1024x1024.Idx → EReal) (ix2 h o) = ((wT h o : ℝ) : EReal))
    (h2 : ∀ o, (V c main_v8 : S1x1024.Idx → EReal) (ix2 0 o) = ((bb o : ℝ) : EReal)) (t : Fin cfg0.N) :
    (dat0 V c).flushed 7 t = ((cfg0.win 7).blk t).view.read (Elt Ideal) (projArr0 xf wT bb) := by
  show (cfg0.win 7).cut (grid0.coords t) ((dat0 V c).after 7 t) = _
  rw [after0_7]
  unfold out0_7
  rw [View.canon_unit_zero zero_off0]
  simp only [View.ld_unit_zero (S := S512x1024) zero_off0, View.ld_unit_zero (S := S1024x1024) zero_off0,
    View.ld_unit_zero (S := S1x1024) zero_off0]
  funext y
  show k0_pay2 (F := Ideal) (iblk0 V c 0 t) (iblk0 V c 1 t) (iblk0 V c 2 t) y
    = projArr0 xf wT bb (((cfg0.win 7).blk t).view.emb y)
  have ht : t.val < 16 := t.isLt
  have hy0 : (y 0).val < 512 := (y 0).isLt
  have hy1 : (y 1).val < 1024 := (y 1).isLt
  have he : ((cfg0.win 7).blk t).view.emb y
      = ix2 (⟨512 * t.val + (y 0).val, by omega⟩ : Fin 8192) (⟨(y 1).val, hy1⟩ : Fin 1024) := by
    obtain ⟨e0, e1⟩ := idx0_7 t
    funext a
    apply Fin.ext
    match a with
    | ⟨0, _⟩ => show win0_7.index t 0 * 512 + 1 * (y 0).val = 512 * t.val + (y 0).val; rw [e0]; omega
    | ⟨1, _⟩ => show win0_7.index t 1 * 1024 + 1 * (y 1).val = (y 1).val; rw [e1]; omega
  rw [he]
  refine (congrArg (k0_pay2 (F := Ideal) (iblk0 V c 0 t) (iblk0 V c 1 t) (iblk0 V c 2 t)) (eq_ix2 y)).trans ?_
  exact pay0_q_apply (fun r h => xf ⟨512 * t.val + r.val, by have hr : r.val < 512 := r.isLt; omega⟩ h) wT bb _ _ _
    (fun r h => (iblk0_0_apply V c t (ix2 r h)
      (ix2 (⟨512 * t.val + r.val, by have hr : r.val < 512 := r.isLt; omega⟩ : Fin 8192) h) rfl rfl).trans (h0 _ h))
    (fun h o => (iblk0_1_apply V c t (ix2 h o)).trans (h1 h o))
    (fun o => (iblk0_2_apply V c t (ix2 0 o)).trans (h2 o)) (y 0) (y 1)

/-- An index of the query array is in point `t`'s block iff each coordinate is in the block's range. -/
theorem mem_blk0_7 (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v13_0).slice (win0_7.rect t)).set ↔ _
  rw [View.set_slice_whole, Rect.mem_set_unit]
  exact Iff.rfl

/-- Row `r` of the query array lies in the block of point `r / 512`: the sixteen blocks tile the array. -/
theorem cover0_7_all (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < cfg0.N := by show (i 0).val / 512 < 16; omega
  refine ⟨⟨(i 0).val / 512, hN⟩, flush0_7 _, ?_⟩
  obtain ⟨e0, e1⟩ := idx0_7 ⟨(i 0).val / 512, hN⟩
  rw [mem_blk0_7]
  intro a
  match a with
  | ⟨0, _⟩ =>
    show win0_7.index ⟨(i 0).val / 512, hN⟩ 0 * 512 ≤ (i 0).val
      ∧ (i 0).val < win0_7.index ⟨(i 0).val / 512, hN⟩ 0 * 512 + 512
    rw [e0]
    show (i 0).val / 512 * 512 ≤ (i 0).val ∧ (i 0).val < (i 0).val / 512 * 512 + 512
    omega
  | ⟨1, _⟩ =>
    show win0_7.index ⟨(i 0).val / 512, hN⟩ 1 * 1024 ≤ (i 1).val
      ∧ (i 1).val < win0_7.index ⟨(i 0).val / 512, hN⟩ 1 * 1024 + 1024
    rw [e1]; omega

/-- The query array after the pipeline: the projection of every input row, entry by entry. -/
theorem final0_7 (h0 : ∀ r h, (V c main_v12 : S8192x1024.Idx → EReal) (ix2 r h) = ((xf r h : ℝ) : EReal))
    (h1 : ∀ h o, (V c main_v1 : S1024x1024.Idx → EReal) (ix2 h o) = ((wT h o : ℝ) : EReal))
    (h2 : ∀ o, (V c main_v8 : S1x1024.Idx → EReal) (ix2 0 o) = ((bb o : ℝ) : EReal)) :
    (dat0 V c).arrAt 7 cfg0.N = fun i =>
      (((∑ h, xf ⟨(i 0).val, (i 0).isLt⟩ h * wT h ⟨(i 1).val, (i 1).isLt⟩) + bb ⟨(i 1).val, (i 1).isLt⟩ : ℝ) : EReal) :=
  (dat0 V c).arrAt_eq_of_cover 7 (projArr0 xf wT bb) (fun t _ => flushed0_7_eq V c xf wT bb h0 h1 h2 t) cover0_7_all

/-! ## The key projection's array (window 8) -/

/-- What point `t` writes back to the key array is block `t` of the projected array. -/
theorem flushed0_8_eq (h0 : ∀ r h, (V c main_v12 : S8192x1024.Idx → EReal) (ix2 r h) = ((xf r h : ℝ) : EReal))
    (h1 : ∀ h o, (V c main_v3 : S1024x1024.Idx → EReal) (ix2 h o) = ((wT h o : ℝ) : EReal))
    (h2 : ∀ o, (V c main_v9 : S1x1024.Idx → EReal) (ix2 0 o) = ((bb o : ℝ) : EReal)) (t : Fin cfg0.N) :
    (dat0 V c).flushed 8 t = ((cfg0.win 8).blk t).view.read (Elt Ideal) (projArr0 xf wT bb) := by
  show (cfg0.win 8).cut (grid0.coords t) ((dat0 V c).after 8 t) = _
  rw [after0_8]
  unfold out0_8
  rw [View.canon_unit_zero zero_off0]
  simp only [View.ld_unit_zero (S := S512x1024) zero_off0, View.ld_unit_zero (S := S1024x1024) zero_off0,
    View.ld_unit_zero (S := S1x1024) zero_off0]
  funext y
  show k0_pay3 (F := Ideal) (iblk0 V c 0 t) (iblk0 V c 3 t) (iblk0 V c 4 t) y
    = projArr0 xf wT bb (((cfg0.win 8).blk t).view.emb y)
  have ht : t.val < 16 := t.isLt
  have hy0 : (y 0).val < 512 := (y 0).isLt
  have hy1 : (y 1).val < 1024 := (y 1).isLt
  have he : ((cfg0.win 8).blk t).view.emb y
      = ix2 (⟨512 * t.val + (y 0).val, by omega⟩ : Fin 8192) (⟨(y 1).val, hy1⟩ : Fin 1024) := by
    obtain ⟨e0, e1⟩ := idx0_8 t
    funext a
    apply Fin.ext
    match a with
    | ⟨0, _⟩ => show win0_8.index t 0 * 512 + 1 * (y 0).val = 512 * t.val + (y 0).val; rw [e0]; omega
    | ⟨1, _⟩ => show win0_8.index t 1 * 1024 + 1 * (y 1).val = (y 1).val; rw [e1]; omega
  rw [he]
  refine (congrArg (k0_pay3 (F := Ideal) (iblk0 V c 0 t) (iblk0 V c 3 t) (iblk0 V c 4 t)) (eq_ix2 y)).trans ?_
  exact pay0_k_apply (fun r h => xf ⟨512 * t.val + r.val, by have hr : r.val < 512 := r.isLt; omega⟩ h) wT bb _ _ _
    (fun r h => (iblk0_0_apply V c t (ix2 r h)
      (ix2 (⟨512 * t.val + r.val, by have hr : r.val < 512 := r.isLt; omega⟩ : Fin 8192) h) rfl rfl).trans (h0 _ h))
    (fun h o => (iblk0_3_apply V c t (ix2 h o)).trans (h1 h o))
    (fun o => (iblk0_4_apply V c t (ix2 0 o)).trans (h2 o)) (y 0) (y 1)

/-- An index of the key array is in point `t`'s block iff each coordinate is in the block's range. -/
theorem mem_blk0_8 (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v13_1).slice (win0_8.rect t)).set ↔ _
  rw [View.set_slice_whole, Rect.mem_set_unit]
  exact Iff.rfl

/-- Row `r` of the key array lies in the block of point `r / 512`: the sixteen blocks tile the array. -/
theorem cover0_8_all (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 512 < cfg0.N := by show (i 0).val / 512 < 16; omega
  refine ⟨⟨(i 0).val / 512, hN⟩, flush0_8 _, ?_⟩
  obtain ⟨e0, e1⟩ := idx0_8 ⟨(i 0).val / 512, hN⟩
  rw [mem_blk0_8]
  intro a
  match a with
  | ⟨0, _⟩ =>
    show win0_8.index ⟨(i 0).val / 512, hN⟩ 0 * 512 ≤ (i 0).val
      ∧ (i 0).val < win0_8.index ⟨(i 0).val / 512, hN⟩ 0 * 512 + 512
    rw [e0]
    show (i 0).val / 512 * 512 ≤ (i 0).val ∧ (i 0).val < (i 0).val / 512 * 512 + 512
    omega
  | ⟨1, _⟩ =>
    show win0_8.index ⟨(i 0).val / 512, hN⟩ 1 * 1024 ≤ (i 1).val
      ∧ (i 1).val < win0_8.index ⟨(i 0).val / 512, hN⟩ 1 * 1024 + 1024
    rw [e1]; omega

/-- The key array after the pipeline: the projection of every input row, entry by entry. -/
theorem final0_8 (h0 : ∀ r h, (V c main_v12 : S8192x1024.Idx → EReal) (ix2 r h) = ((xf r h : ℝ) : EReal))
    (h1 : ∀ h o, (V c main_v3 : S1024x1024.Idx → EReal) (ix2 h o) = ((wT h o : ℝ) : EReal))
    (h2 : ∀ o, (V c main_v9 : S1x1024.Idx → EReal) (ix2 0 o) = ((bb o : ℝ) : EReal)) :
    (dat0 V c).arrAt 8 cfg0.N = fun i =>
      (((∑ h, xf ⟨(i 0).val, (i 0).isLt⟩ h * wT h ⟨(i 1).val, (i 1).isLt⟩) + bb ⟨(i 1).val, (i 1).isLt⟩ : ℝ) : EReal) :=
  (dat0 V c).arrAt_eq_of_cover 8 (projArr0 xf wT bb) (fun t _ => flushed0_8_eq V c xf wT bb h0 h1 h2 t) cover0_8_all

/-! ## The value projection's array (window 9) -/

/-- What point `t` writes back to the value array is block `t` of the projected array. -/
theorem flushed0_9_eq (h0 : ∀ r h, (V c main_v12 : S8192x1024.Idx → EReal) (ix2 r h) = ((xf r h : ℝ) : EReal))
    (h1 : ∀ h o, (V c main_v5 : S1024x1024.Idx → EReal) (ix2 h o) = ((wT h o : ℝ) : EReal))
    (h2 : ∀ o, (V c main_v10 : S1x1024.Idx → EReal) (ix2 0 o) = ((bb o : ℝ) : EReal)) (t : Fin cfg0.N) :
    (dat0 V c).flushed 9 t = ((cfg0.win 9).blk t).view.read (Elt Ideal) (projArr0 xf wT bb) := by
  show (cfg0.win 9).cut (grid0.coords t) ((dat0 V c).after 9 t) = _
  rw [after0_9]
  unfold out0_9
  rw [View.canon_unit_zero zero_off0]
  simp only [View.ld_unit_zero (S := S512x1024) zero_off0, View.ld_unit_zero (S := S1024x1024) zero_off0,
    View.ld_unit_zero (S := S1x1024) zero_off0]
  funext y
  show k0_pay4 (F := Ideal) (iblk0 V c 0 t) (iblk0 V c 5 t) (iblk0 V c 6 t) y
    = projArr0 xf wT bb (((cfg0.win 9).blk t).view.emb y)
  have ht : t.val < 16 := t.isLt
  have hy0 : (y 0).val < 512 := (y 0).isLt
  have hy1 : (y 1).val < 1024 := (y 1).isLt
  have he : ((cfg0.win 9).blk t).view.emb y
      = ix2 (⟨512 * t.val + (y 0).val, by omega⟩ : Fin 8192) (⟨(y 1).val, hy1⟩ : Fin 1024) := by
    obtain ⟨e0, e1⟩ := idx0_9 t
    funext a
    apply Fin.ext
    match a with
    | ⟨0, _⟩ => show win0_9.index t 0 * 512 + 1 * (y 0).val = 512 * t.val + (y 0).val; rw [e0]; omega
    | ⟨1, _⟩ => show win0_9.index t 1 * 1024 + 1 * (y 1).val = (y 1).val; rw [e1]; omega
  rw [he]
  refine (congrArg (k0_pay4 (F := Ideal) (iblk0 V c 0 t) (iblk0 V c 5 t) (iblk0 V c 6 t)) (eq_ix2 y)).trans ?_
  exact pay0_v_apply (fun r h => xf ⟨512 * t.val + r.val, by have hr : r.val < 512 := r.isLt; omega⟩ h) wT bb _ _ _
    (fun r h => (iblk0_0_apply V c t (ix2 r h)
      (ix2 (⟨512 * t.val + r.val, by have hr : r.val < 512 := r.isLt; omega⟩ : Fin 8192) h) rfl rfl).trans (h0 _ h))
    (fun h o => (iblk0_5_apply V c t (ix2 h o)).trans (h1 h o))
    (fun o => (iblk0_6_apply V c t (ix2 0 o)).trans (h2 o)) (y 0) (y 1)

/-- An index of the value array is in point `t`'s block iff each coordinate is in the block's range. -/
theorem mem_blk0_9 (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v13_2).slice (win0_9.rect t)).set ↔ _
  rw [View.set_slice_whole, Rect.mem_set_unit]
  exact Iff.rfl

/-- Row `r` of the value array lies in the block of point `r / 512`: the sixteen blocks tile the array. -/
theorem cover0_9_all (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 512 < cfg0.N := by show (i 0).val / 512 < 16; omega
  refine ⟨⟨(i 0).val / 512, hN⟩, flush0_9 _, ?_⟩
  obtain ⟨e0, e1⟩ := idx0_9 ⟨(i 0).val / 512, hN⟩
  rw [mem_blk0_9]
  intro a
  match a with
  | ⟨0, _⟩ =>
    show win0_9.index ⟨(i 0).val / 512, hN⟩ 0 * 512 ≤ (i 0).val
      ∧ (i 0).val < win0_9.index ⟨(i 0).val / 512, hN⟩ 0 * 512 + 512
    rw [e0]
    show (i 0).val / 512 * 512 ≤ (i 0).val ∧ (i 0).val < (i 0).val / 512 * 512 + 512
    omega
  | ⟨1, _⟩ =>
    show win0_9.index ⟨(i 0).val / 512, hN⟩ 1 * 1024 ≤ (i 1).val
      ∧ (i 1).val < win0_9.index ⟨(i 0).val / 512, hN⟩ 1 * 1024 + 1024
    rw [e1]; omega

/-- The value array after the pipeline: the projection of every input row, entry by entry. -/
theorem final0_9 (h0 : ∀ r h, (V c main_v12 : S8192x1024.Idx → EReal) (ix2 r h) = ((xf r h : ℝ) : EReal))
    (h1 : ∀ h o, (V c main_v5 : S1024x1024.Idx → EReal) (ix2 h o) = ((wT h o : ℝ) : EReal))
    (h2 : ∀ o, (V c main_v10 : S1x1024.Idx → EReal) (ix2 0 o) = ((bb o : ℝ) : EReal)) :
    (dat0 V c).arrAt 9 cfg0.N = fun i =>
      (((∑ h, xf ⟨(i 0).val, (i 0).isLt⟩ h * wT h ⟨(i 1).val, (i 1).isLt⟩) + bb ⟨(i 1).val, (i 1).isLt⟩ : ℝ) : EReal) :=
  (dat0 V c).arrAt_eq_of_cover 9 (projArr0 xf wT bb) (fun t _ => flushed0_9_eq V c xf wT bb h0 h1 h2 t) cover0_9_all

end Cert.KernelIdeal.Val

end
-- ==== Proof.KI.PiecesR1.lean ====
/-
  What each kind of point leaves, as arithmetic: the scratch row after a first query block is this block's column sums
  added to a row of zeros; after a later block, added to what the point before left; and at a last query block the first
  result is that row reshaped, the second its scaled product with the values reshaped.
-/
import proofs.«155430_j62354335204093_2_alg».proof.Proof.KI.FrameR1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle query block: the scratch row becomes the block's contribution added to what it held. -/
theorem sout1_B_eq (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : ¬cond1_1 i)
    (x0 : Vec F S1x1x512x64 .bf16) (x1 : Vec F S1x1x2048x64 .bf16) (xs0 : Vec F S1x2048 .f32) :
    sout1_B c i arg3 harg3 arg4 harg4 arg5 harg5 arg6 harg6 arg7 harg7 arg8 harg8 hc0 hc1 x0 x1 xs0 = k1_pay2 x0 x1 xs0 := by
  unfold sout1_B
  rw [View.read_writes_eq_canon _ _ _ (scover1_B c i arg3 harg3 arg4 harg4 arg5 harg5 arg6 harg6 arg7 harg7 arg8 harg8 hc0 hc1 x0 x1 xs0)]
  unfold kernelRun1_B
  dsimp only
  rw [View.canon_unit_zero hz2]
  simp only [View.readAt_eq_ld, harg3.read_unread, harg4.read_unread, harg5.read_unread, harg8.read_unread, View.ld_unit_zero (S := S1x1x512x64) hz4, View.ld_unit_zero (S := S1x1x2048x64) hz4, View.ld_unit_zero (S := S1x2048) hz2]

/-- A first query block: the scratch row is reset to zeros, read back, and becomes the block's contribution added to them. -/
theorem sout1_A_eq (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : cond1_0 i) (hc1 : ¬cond1_1 i)
    (x0 : Vec F S1x1x512x64 .bf16) (x1 : Vec F S1x1x2048x64 .bf16) :
    sout1_A c i arg3 harg3 arg4 harg4 arg5 harg5 arg6 harg6 arg7 harg7 arg8 harg8 hc0 hc1 x0 x1 = k1_pay2 x0 x1 (k1_pay1 (F := F)) := by
  unfold sout1_A
  rw [View.read_writes_eq_canon _ _ _ (scover1_A c i arg3 harg3 arg4 harg4 arg5 harg5 arg6 harg6 arg7 harg7 arg8 harg8 hc0 hc1 x0 x1)]
  unfold kernelRun1_A
  dsimp only
  sl_unfold_words
  rw [View.canon_cons_unit_zero (S := S1x2048) hz2, View.readCov_unit_zero (S := S1x2048) _ hz2]
  simp only [View.readAt_eq_ld, harg3.read_unread, harg4.read_unread, harg5.read_unread, harg8.read_unread, View.ld_unit_zero (S := S1x1x512x64) hz4, View.ld_unit_zero (S := S1x1x2048x64) hz4, View.ld_unit_zero (S := S1x2048) hz2]

/-- A last query block: the scratch row as at a middle block, -/
theorem sout1_C_eq (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) :
    sout1_C c i arg3 harg3 arg4 harg4 arg5 harg5 arg6 harg6 arg7 harg7 arg8 harg8 hc0 hc1 x0 x1 x2 xs0 = k1_pay2 x0 x1 xs0 := by
  unfold sout1_C
  rw [View.read_writes_eq_canon _ _ _ (scover1_C c i arg3 harg3 arg4 harg4 arg5 harg5 arg6 harg6 arg7 harg7 arg8 harg8 hc0 hc1 x0 x1 x2 xs0)]
  unfold kernelRun1_C
  dsimp only
  sl_unfold_words
  rw [View.canon_unit_zero hz2]
  simp only [View.readAt_eq_ld, harg3.read_unread, harg4.read_unread, harg5.read_unread, harg8.read_unread, View.ld_unit_zero (S := S1x1x512x64) hz4, View.ld_unit_zero (S := S1x1x2048x64) hz4, View.ld_unit_zero (S := S1x2048) hz2]

/-- the first result: the new scratch row, reshaped, -/
theorem out1_C_3_eq (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) :
    out1_C_3 c i arg3 harg3 arg4 harg4 arg5 harg5 arg6 harg6 arg7 harg7 arg8 harg8 hc0 hc1 x0 x1 x2 xs0 = k1_pay3 (k1_pay2 x0 x1 xs0) := by
  unfold out1_C_3
  rw [View.read_writes_eq_canon _ _ _ (cover1_C_3 c i arg3 harg3 arg4 harg4 arg5 harg5 arg6 harg6 arg7 harg7 arg8 harg8 hc0 hc1 x0 x1 x2 xs0)]
  unfold kernelRun1_C
  dsimp only
  sl_unfold_words
  rw [View.canon_unit_zero hz4, View.readCov_unit_zero (S := S1x2048) _ hz2]
  simp only [View.readAt_eq_ld, harg3.read_unread, harg4.read_unread, harg5.read_unread, harg8.read_unread, View.ld_unit_zero (S := S1x1x512x64) hz4, View.ld_unit_zero (S := S1x1x2048x64) hz4, View.ld_unit_zero (S := S1x2048) hz2, View.ld_unit_zero (S := S1x1x1x2048) hz4, View.ld_unit_zero (S := S1x1x1x64) hz4]

/-- the second: its scaled product with the values, reshaped. -/
theorem out1_C_4_eq (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x1x2048 .f32) (harg6 : arg6.IsWhole) (arg7 : Memref sig .tc .vmem S1x1x1x64 .f32) (harg7 : arg7.IsWhole) (arg8 : Memref sig .tc .vmem S1x2048 .f32) (harg8 : arg8.IsWhole) (hc0 : ¬cond1_0 i) (hc1 : cond1_1 i)
    (x0 : Vec F S1x1x512x64 .bf16) (x1 : Vec F S1x1x2048x64 .bf16) (x2 : Vec F S1x1x2048x64 .bf16) (xs0 : Vec F S1x2048 .f32) :
    out1_C_4 c i arg3 harg3 arg4 harg4 arg5 harg5 arg6 harg6 arg7 harg7 arg8 harg8 hc0 hc1 x0 x1 x2 xs0 = k1_pay4 x2 (k1_pay2 x0 x1 xs0) := by
  unfold out1_C_4
  rw [View.read_writes_eq_canon _ _ _ (cover1_C_4 c i arg3 harg3 arg4 harg4 arg5 harg5 arg6 harg6 arg7 harg7 arg8 harg8 hc0 hc1 x0 x1 x2 xs0)]
  unfold kernelRun1_C
  dsimp only
  sl_unfold_words
  rw [View.canon_unit_zero hz4, View.readCov_unit_zero (S := S1x2048) _ hz2]
  simp only [View.readAt_eq_ld, harg3.read_unread, harg4.read_unread, harg5.read_unread, harg8.read_unread, View.ld_unit_zero (S := S1x1x512x64) hz4, View.ld_unit_zero (S := S1x1x2048x64) hz4, View.ld_unit_zero (S := S1x2048) hz2, View.ld_unit_zero (S := S1x1x1x2048) hz4, View.ld_unit_zero (S := S1x1x1x64) hz4]

end Cert.KernelIdeal.Fr

end
-- ==== Proof.KI.BlocksR1.lean ====
/-
  The attention pipeline's blocks as parts of its arrays. Point `t` of the grid is batch `t / 64`, head `(t / 4) mod 16`,
  query block `t mod 4`. Its query block is rows `512 (t mod 4) … 512 (t mod 4) + 511` of that batch and head; its key and
  value blocks are that batch and head's whole arrays; its result blocks are that batch and head's rows of the results.
-/
import proofs.«155430_j62354335204093_2_alg».proof.Proof.KI.FrameR1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The query window's block index at point `t`. -/
theorem idx1_0 : ∀ t : Fin cfg1.N, win1_0.index t 0 = t.val / 64 ∧ win1_0.index t 1 = t.val / 4 % 16 ∧ win1_0.index t 2 = t.val % 4 ∧ win1_0.index t 3 = 0 :=
  (by decide +kernel : ∀ t : Fin grid1.N, win1_0.index t 0 = t.val / 64 ∧ win1_0.index t 1 = t.val / 4 % 16 ∧ win1_0.index t 2 = t.val % 4 ∧ win1_0.index t 3 = 0)
/-- The key window's. -/
theorem idx1_1 : ∀ t : Fin cfg1.N, win1_1.index t 0 = t.val / 64 ∧ win1_1.index t 1 = t.val / 4 % 16 ∧ win1_1.index t 2 = 0 ∧ win1_1.index t 3 = 0 :=
  (by decide +kernel : ∀ t : Fin grid1.N, win1_1.index t 0 = t.val / 64 ∧ win1_1.index t 1 = t.val / 4 % 16 ∧ win1_1.index t 2 = 0 ∧ win1_1.index t 3 = 0)
/-- The value window's. -/
theorem idx1_2 : ∀ t : Fin cfg1.N, win1_2.index t 0 = t.val / 64 ∧ win1_2.index t 1 = t.val / 4 % 16 ∧ win1_2.index t 2 = 0 ∧ win1_2.index t 3 = 0 :=
  (by decide +kernel : ∀ t : Fin grid1.N, win1_2.index t 0 = t.val / 64 ∧ win1_2.index t 1 = t.val / 4 % 16 ∧ win1_2.index t 2 = 0 ∧ win1_2.index t 3 = 0)
/-- The two result windows'. -/
theorem idx1_3 : ∀ t : Fin cfg1.N, win1_3.index t 0 = t.val / 64 ∧ win1_3.index t 1 = t.val / 4 % 16 ∧ win1_3.index t 2 = 0 ∧ win1_3.index t 3 = 0 :=
  (by decide +kernel : ∀ t : Fin grid1.N, win1_3.index t 0 = t.val / 64 ∧ win1_3.index t 1 = t.val / 4 % 16 ∧ win1_3.index t 2 = 0 ∧ win1_3.index t 3 = 0)
theorem idx1_4 : ∀ t : Fin cfg1.N, win1_4.index t 0 = t.val / 64 ∧ win1_4.index t 1 = t.val / 4 % 16 ∧ win1_4.index t 2 = 0 ∧ win1_4.index t 3 = 0 :=
  (by decide +kernel : ∀ t : Fin grid1.N, win1_4.index t 0 = t.val / 64 ∧ win1_4.index t 1 = t.val / 4 % 16 ∧ win1_4.index t 2 = 0 ∧ win1_4.index t 3 = 0)

/-- The query block at point `t`, at a local index, is the query array at batch `t / 64`, head `(t / 4) mod 16`, row
    `512 (t mod 4)` + the local row. -/
theorem iblk1_0_apply (c : Dev nD) (t : Fin cfg1.N) (x : S1x1x512x64.Idx) (k : S4x16x2048x64.Idx)
    (hk0 : (k 0).val = t.val / 64) (hk1 : (k 1).val = t.val / 4 % 16)
    (hk2 : (k 2).val = 512 * (t.val % 4) + (x 2).val) (hk3 : (k 3).val = (x 3).val) :
    (iblk1 V c 0 t : Vec F S1x1x512x64 .bf16) x = (V c main_v15 : S4x16x2048x64.Idx → Elt F .bf16) k := by
  obtain ⟨h0, h1, h2, h3⟩ := idx1_0 t
  have hx0 : (x 0).val = 0 := by have h : (x 0).val < 1 := (x 0).isLt; omega
  have hx1 : (x 1).val = 0 := by have h : (x 1).val < 1 := (x 1).isLt; omega
  unfold iblk1
  rw [View.read_apply]
  show V c main_v15 _ = V c main_v15 _
  congr 1
  funext a
  apply Fin.ext
  match a with
  | ⟨0, _⟩ => show win1_0.index t 0 * 1 + 1 * (x 0).val = (k 0).val; rw [h0, hk0, hx0]; omega
  | ⟨1, _⟩ => show win1_0.index t 1 * 1 + 1 * (x 1).val = (k 1).val; rw [h1, hk1, hx1]; omega
  | ⟨2, _⟩ => show win1_0.index t 2 * 512 + 1 * (x 2).val = (k 2).val; rw [h2, hk2]; omega
  | ⟨3, _⟩ => show win1_0.index t 3 * 64 + 1 * (x 3).val = (k 3).val; rw [h3, hk3]; omega

/-- The key block at point `t` is the key array of that batch and head. -/
theorem iblk1_1_apply (c : Dev nD) (t : Fin cfg1.N) (x : S1x1x2048x64.Idx) (k : S4x16x2048x64.Idx)
    (hk0 : (k 0).val = t.val / 64) (hk1 : (k 1).val = t.val / 4 % 16)
    (hk2 : (k 2).val = (x 2).val) (hk3 : (k 3).val = (x 3).val) :
    (iblk1 V c 1 t : Vec F S1x1x2048x64 .bf16) x = (V c main_v17 : S4x16x2048x64.Idx → Elt F .bf16) k := by
  obtain ⟨h0, h1, h2, h3⟩ := idx1_1 t
  have hx0 : (x 0).val = 0 := by have h : (x 0).val < 1 := (x 0).isLt; omega
  have hx1 : (x 1).val = 0 := by have h : (x 1).val < 1 := (x 1).isLt; omega
  unfold iblk1
  rw [View.read_apply]
  show V c main_v17 _ = V c main_v17 _
  congr 1
  funext a
  apply Fin.ext
  match a with
  | ⟨0, _⟩ => show win1_1.index t 0 * 1 + 1 * (x 0).val = (k 0).val; rw [h0, hk0, hx0]; omega
  | ⟨1, _⟩ => show win1_1.index t 1 * 1 + 1 * (x 1).val = (k 1).val; rw [h1, hk1, hx1]; omega
  | ⟨2, _⟩ => show win1_1.index t 2 * 2048 + 1 * (x 2).val = (k 2).val; rw [h2, hk2]; omega
  | ⟨3, _⟩ => show win1_1.index t 3 * 64 + 1 * (x 3).val = (k 3).val; rw [h3, hk3]; omega

/-- The value block at point `t` is the value array of that batch and head. -/
theorem iblk1_2_apply (c : Dev nD) (t : Fin cfg1.N) (x : S1x1x2048x64.Idx) (k : S4x16x2048x64.Idx)
    (hk0 : (k 0).val = t.val / 64) (hk1 : (k 1).val = t.val / 4 % 16)
    (hk2 : (k 2).val = (x 2).val) (hk3 : (k 3).val = (x 3).val) :
    (iblk1 V c 2 t : Vec F S1x1x2048x64 .bf16) x = (V c main_v19 : S4x16x2048x64.Idx → Elt F .bf16) k := by
  obtain ⟨h0, h1, h2, h3⟩ := idx1_2 t
  have hx0 : (x 0).val = 0 := by have h : (x 0).val < 1 := (x 0).isLt; omega
  have hx1 : (x 1).val = 0 := by have h : (x 1).val < 1 := (x 1).isLt; omega
  unfold iblk1
  rw [View.read_apply]
  show V c main_v19 _ = V c main_v19 _
  congr 1
  funext a
  apply Fin.ext
  match a with
  | ⟨0, _⟩ => show win1_2.index t 0 * 1 + 1 * (x 0).val = (k 0).val; rw [h0, hk0, hx0]; omega
  | ⟨1, _⟩ => show win1_2.index t 1 * 1 + 1 * (x 1).val = (k 1).val; rw [h1, hk1, hx1]; omega
  | ⟨2, _⟩ => show win1_2.index t 2 * 2048 + 1 * (x 2).val = (k 2).val; rw [h2, hk2]; omega
  | ⟨3, _⟩ => show win1_2.index t 3 * 64 + 1 * (x 3).val = (k 3).val; rw [h3, hk3]; omega

end Cert.KernelIdeal.Fr

end
-- ==== Proof.Spec.lean ====
/-
  Multi-head self-attention reduced to its two pooled results, written over the reals by coordinates
  (batch b : Fin 4, head n : Fin 16, position i j l : Fin 2048, lane d : Fin 64, model index h o : Fin 1024,
  with h = 64 n + d).

  Two spellings of the same mathematics are given.

  * The direct one: scores (q·k)/√64, a row softmax exp(s - max s)/Σ exp(s - max s), the context
    Σ_j attn·v, the output projection of every position, and then the means: over positions for the
    projected output, over heads and then over query positions for the attention weights.
  * The pooled one: the scale 1/8 folded into q, the softmax normaliser taken as a reciprocal and
    multiplied in, the attention weights summed over the query positions FIRST (a column sum), the
    context mean obtained from that column sum by one product with v, and the output projection
    applied once to the mean.

  They agree because a mean over query positions commutes with the two linear maps that follow the
  softmax (the product with v and the output projection); the proof is in the algebra module.
-/
import Idealize.ShloMosaic.PureOps.Ideal

noncomputable section

namespace Cert.Attn

open Finset BigOperators

/-- The model index of head `n`, lane `d`: `64 n + d`. -/
def hd (n : Fin 16) (d : Fin 64) : Fin 1024 := ⟨64 * n.val + d.val, by omega⟩
/-- The head of a model index. -/
def hdN (h : Fin 1024) : Fin 16 := ⟨h.val / 64, by omega⟩
/-- The lane of a model index. -/
def hdD (h : Fin 1024) : Fin 64 := ⟨h.val % 64, Nat.mod_lt _ (by norm_num)⟩

theorem hd_hdN_hdD (h : Fin 1024) : hd (hdN h) (hdD h) = h := by
  apply Fin.ext; simp only [hd, hdN, hdD]; omega
theorem hdN_hd (n : Fin 16) (d : Fin 64) : hdN (hd n d) = n := by
  apply Fin.ext; simp only [hd, hdN]; omega
theorem hdD_hd (n : Fin 16) (d : Fin 64) : hdD (hd n d) = d := by
  apply Fin.ext; simp only [hd, hdD]; omega

/-- A linear projection split into heads: `Σ_h x[b,l,h] · W[64 n + d, h] + bias[64 n + d]`. -/
def proj (x : Fin 4 → Fin 2048 → Fin 1024 → ℝ) (W : Fin 1024 → Fin 1024 → ℝ) (bias : Fin 1024 → ℝ)
    (b : Fin 4) (n : Fin 16) (l : Fin 2048) (d : Fin 64) : ℝ :=
  (∑ h, x b l h * W (hd n d) h) + bias (hd n d)

/-- The largest entry of a row of 2048 reals. -/
def rowMax (s : Fin 2048 → ℝ) : ℝ := Finset.univ.sup' Finset.univ_nonempty s

section Heads

variable (q k v : Fin 4 → Fin 16 → Fin 2048 → Fin 64 → ℝ)

/-! ### The direct spelling -/

/-- Scores: `(Σ_d q[i,d] k[j,d]) / √64`. -/
def scoreR (b : Fin 4) (n : Fin 16) (i j : Fin 2048) : ℝ := (∑ d, q b n i d * k b n j d) / Real.sqrt 64
/-- `exp (s - row max)`. -/
def expR (b : Fin 4) (n : Fin 16) (i j : Fin 2048) : ℝ :=
  Real.exp (scoreR q k b n i j - rowMax (scoreR q k b n i))
/-- The softmax weight: `exp (s - max) / Σ_j exp (s - max)`. -/
def attnR (b : Fin 4) (n : Fin 16) (i j : Fin 2048) : ℝ := expR q k b n i j / ∑ j', expR q k b n i j'
/-- The context: `Σ_j attn[i,j] v[j,d]`. -/
def ctxR (b : Fin 4) (n : Fin 16) (i : Fin 2048) (d : Fin 64) : ℝ := ∑ j, attnR q k b n i j * v b n j d
/-- The attention weights averaged over the heads, then over the query positions. -/
def weightsR (b : Fin 4) (j : Fin 2048) : ℝ := (∑ i, (∑ n, attnR q k b n i j) / 16) / 2048
/-- The projected output of every position, averaged over the positions. -/
def pooledR (Wo : Fin 1024 → Fin 1024 → ℝ) (bo : Fin 1024 → ℝ) (b : Fin 4) (o : Fin 1024) : ℝ :=
  (∑ l, ((∑ h, ctxR q k v b (hdN h) l (hdD h) * Wo o h) + bo o)) / 2048

/-! ### The pooled spelling -/

/-- Scores with the scale folded into `q`: `Σ_d (q[i,d] · 1/8) k[j,d]`. -/
def scoreK (b : Fin 4) (n : Fin 16) (i j : Fin 2048) : ℝ := ∑ d, (q b n i d * (1 / 8)) * k b n j d
/-- `exp (s - row max)` of those scores. -/
def expK (b : Fin 4) (n : Fin 16) (i j : Fin 2048) : ℝ :=
  Real.exp (scoreK q k b n i j - rowMax (scoreK q k b n i))
/-- The column sum of the softmax weights over the query positions, the normaliser as a reciprocal. -/
def colsumK (b : Fin 4) (n : Fin 16) (j : Fin 2048) : ℝ :=
  ∑ i, (1 / ∑ j', expK q k b n i j') * expK q k b n i j
/-- The context averaged over the query positions, from the column sum. -/
def ctxmeanK (b : Fin 4) (n : Fin 16) (d : Fin 64) : ℝ := ∑ j, (colsumK q k b n j * (1 / 2048)) * v b n j d
/-- The attention weights: the column sums scaled by `1/2048`, averaged over the heads. -/
def weightsK (b : Fin 4) (j : Fin 2048) : ℝ := (∑ n, colsumK q k b n j * (1 / 2048)) / 16
/-- The output projection applied once, to the averaged context. -/
def pooledK (Wo : Fin 1024 → Fin 1024 → ℝ) (bo : Fin 1024 → ℝ) (b : Fin 4) (o : Fin 1024) : ℝ :=
  (∑ h, ctxmeanK q k v b (hdN h) (hdD h) * Wo o h) + bo o

end Heads

end Cert.Attn

end
-- ==== Proof.LibTransposedDot.lean ====
/-
  A matrix product whose right operand is contracted on its last axis, read at an index, at the ideal instance.

  For the dimension numbers of an `M × K` by `N × K` product (rows against rows: both operands contracted on their
  second axis) a kernel's matrix product into a zero accumulator is, at the output index `(r, c)`, the sum over
  `k : Fin K` of `lhs (r, k) * rhs (c, k)`. Imports only the library.
-/
import Idealize.ShloMosaic.PureOps.Ideal.Laws
import Idealize.ShloMosaic.Lib.ValueIdx

noncomputable section

namespace Cert.LibTransposedDot

open Idealize.ShloMosaic Idealize.ShloMosaic.ValueIdx

section TransposedRhs
variable {M K N : Nat} {φ₁ φ₂ : FTy}

theorem tr_lhsIdx (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

theorem tr_rhsIdx (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- Rows against rows: the entry (r, c) is the sum over the shared width of the products. -/
theorem tr_matmul_apply (prec : Option ContractPrecision) (lhs : FVec Ideal ⟨2, ![M, K]⟩ φ₁) (rhs : FVec Ideal ⟨2, ![N, K]⟩ φ₂)
    (j : (⟨2, ![M, N]⟩ : Shape).Idx) :
    FloatOps.matmul (DotDims.transposedRhs M K N) prec lhs rhs (constant ⟨2, ![M, N]⟩ .f32 0x00000000#32) j
      = ∑ k : Fin K, lhs (ix2 (j 0) k) * rhs (ix2 (j 1) k) := by
  rw [Ideal.matmul_constant_zero_apply, ← Equiv.sum_comp (contrEquiv1 (DotDims.transposedRhs M K N) K rfl rfl).symm]
  exact Finset.sum_congr rfl fun k _ => by rw [tr_lhsIdx, tr_rhsIdx]; rfl

end TransposedRhs

end Cert.LibTransposedDot

end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.LibRowStat.lean ====
/-
  A per-row statistic of an [R, C] array kept as a column [R, 1] and stretched back to [R, C], read at an index, at the
  ideal instance: the row maximum taken from -∞ is the supremum of the row, the row sum from the zero word is the sum of
  the row, for any extents with R ≠ 1. (The keepdims form a softmax takes its two statistics in.) Imports the
  library and the two modules on a reduction by maximum and on a vector kept as a column.
-/
import Idealize.ShloMosaic.PureOps.Ideal.Laws
import Idealize.ShloMosaic.Lib.ValueIdx
import Idealize.ShloMosaic.Lib.Pipeline.Value
import proofs.«155430_j62354335204093_2_alg».proof.Proof.LibReduceExtremum
import proofs.«155430_j62354335204093_2_alg».proof.Proof.LibColumnCast

noncomputable section

namespace Cert.LibRowStat

open Idealize.ShloMosaic Idealize.ShloMosaic.ValueIdx

section RowStat
variable {R C : Nat}

/-- The index a reduction over the second axis of an [R, C] array visits at row r, coordinate k. -/
theorem lift_row (h : (⟨2, ![R, C]⟩ : Shape).Reduces [1] ⟨1, ![R]⟩) (r : Fin R) (k : Fin C) :
    h.lift (ix1 r) (k : Fin ((⟨2, ![R, C]⟩ : Shape).size 1)) = ix2 r k := by
  funext a
  apply Fin.ext
  match a with
  | ⟨0, _⟩ => rfl
  | ⟨1, _⟩ => rfl

/-- A column [R, 1] stretched to [R, C] reads, at (r, c), the column's entry r. -/
theorem stretch_col {α : Type} (hC : R ≠ 1) (v : (⟨2, ![R, 1]⟩ : Shape).Idx → α) (h : (⟨2, ![R, 1]⟩ : Shape).Broadcasts ⟨2, ![R, C]⟩)
    (r : Fin R) (c : Fin C) : broadcastTo ⟨2, ![R, C]⟩ v h (ix2 r c) = v (ix2 r 0) :=
  broadcastTo_apply v h _ _ fun a => by
    match a with
    | ⟨0, _⟩ => exact (if_neg hC).symm
    | ⟨1, _⟩ => exact (if_pos rfl).symm

/-- The row maximum (from -∞), kept as a column and stretched, is at (r, c) the supremum of row r. -/
theorem rowMax_apply (hR : R ≠ 1) (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0xFF800000#32 : BitVec 32) = 0xFF800000#32) (r : Fin R) (c : Fin C) :
    broadcastTo ⟨2, ![R, C]⟩ (shapeCast ⟨2, ![R, 1]⟩ (multiReduction .maximumf [1] ⟨1, ![R]⟩ S 0xFF800000#32 hr hφ hacc) hc) hb (ix2 r c)
      = ⨆ k : Fin C, S (ix2 r k) := by
  rw [stretch_col hR, Cert.ColumnCast.shapeCast_a_a1_apply, ReduceExtremum.multiReduction_max_single_f32_printed]
  show (⨆ k : Fin C, S (hr.lift (ix1 r) k)) = _
  exact iSup_congr fun k => congrArg S (lift_row hr r k)

/-- The row sum, kept as a column and stretched, is at (r, c) the sum of row r. -/
theorem rowSum_apply (hR : R ≠ 1) (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0x00000000#32 : BitVec 32) = 0x00000000#32) (r : Fin R) (c : Fin C) :
    broadcastTo ⟨2, ![R, C]⟩ (shapeCast ⟨2, ![R, 1]⟩ (multiReduction .add [1] ⟨1, ![R]⟩ S 0x00000000#32 hr hφ hacc) hc) hb (ix2 r c)
      = ∑ k : Fin C, S (ix2 r k) := by
  rw [stretch_col hR, Cert.ColumnCast.shapeCast_a_a1_apply]
  refine (Ideal.multiReduction_add_single S _ hr hφ hacc (ix1 r)).trans ?_
  show (∑ k : Fin C, S (hr.lift (ix1 r) k)) = _
  exact Finset.sum_congr rfl fun k _ => congrArg S (lift_row hr r k)

end RowStat

end Cert.LibRowStat

end
-- ==== Proof.LibLeadingDot.lean ====
/-
  A matrix product whose two operands are both contracted on their FIRST axis, read at an index, at the ideal
  instance.

  For the dimension numbers of a `K × M` by `K × N` product (columns against columns: the left operand is used
  transposed) a kernel's matrix product into a zero accumulator is, at the output index `(r, c)`, the sum over
  `k : Fin K` of `lhs (k, r) * rhs (k, c)`. Imports only the library.
-/
import Idealize.ShloMosaic.PureOps.Ideal.Laws
import Idealize.ShloMosaic.Lib.ValueIdx

noncomputable section

namespace Cert.LibLeadingDot

open Idealize.ShloMosaic Idealize.ShloMosaic.ValueIdx

section LeadingAxes
variable {K M N : Nat} {φ₁ φ₂ : FTy}

/-- The dimension numbers `<[0], [0], [1], [1]>`: `K × M` by `K × N`, both contracted on the first axis. Their
    well-formedness at the given extents is a parameter (a decidable fact at literal extents). -/
def leading (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF ⟨2, ![K, M]⟩ ⟨2, ![K, N]⟩ ⟨2, ![M, N]⟩ [0] [0] [1] [1] [] [])

theorem lead_lhsIdx (j : (⟨2, ![M, N]⟩ : Shape).Idx) (k : Fin K) :
    (leading K M N wf).lhsIdx j ((contrEquiv1 (leading K M N wf) K rfl rfl).symm k) = ix2 k (j 0) := by
  have hk := contrEquiv1_symm_val (leading K M N wf) K rfl rfl k
  funext a
  apply Fin.ext
  match a with
  | ⟨0, _⟩ => exact ((leading K M N wf).lhsIdx_val_of_single rfl j _).trans hk
  | ⟨1, _⟩ => rfl

theorem lead_rhsIdx (j : (⟨2, ![M, N]⟩ : Shape).Idx) (k : Fin K) :
    (leading K M N wf).rhsIdx j ((contrEquiv1 (leading K M N wf) K rfl rfl).symm k) = ix2 k (j 1) := by
  have hk := contrEquiv1_symm_val (leading K M N wf) K rfl rfl k
  funext a
  apply Fin.ext
  match a with
  | ⟨0, _⟩ => exact ((leading K M N wf).rhsIdx_val_of_single rfl j _).trans hk
  | ⟨1, _⟩ => rfl

/-- Columns against columns: the entry (r, c) is the sum over the shared height of the products. -/
theorem lead_matmul_apply (prec : Option ContractPrecision) (lhs : FVec Ideal ⟨2, ![K, M]⟩ φ₁) (rhs : FVec Ideal ⟨2, ![K, N]⟩ φ₂)
    (j : (⟨2, ![M, N]⟩ : Shape).Idx) :
    FloatOps.matmul (leading K M N wf) prec lhs rhs (constant ⟨2, ![M, N]⟩ .f32 0x00000000#32) j
      = ∑ k : Fin K, lhs (ix2 k (j 0)) * rhs (ix2 k (j 1)) := by
  rw [Ideal.matmul_constant_zero_apply, ← Equiv.sum_comp (contrEquiv1 (leading K M N wf) K rfl rfl).symm]
  exact Finset.sum_congr rfl fun k _ => by rw [lead_lhsIdx, lead_rhsIdx]; rfl

end LeadingAxes

end Cert.LibLeadingDot

end
-- ==== Proof.KI.Pay1.lean ====
/-
  The attention body's stored values, read at an index over the reals.

  One step of the second kernel body handles a block of 512 query rows of one head against all 2048 keys.
  With q the block (512 × 64), k the keys (2048 × 64) and s the scratch row (2048 entries) it computes

    score[i, j] = Σ_d (q[i, d] · 1/8) · k[j, d]          the scaled scores,
    m[i]        = max_j score[i, j]                        the row maximum,
    e[i, j]     = exp (score[i, j] − m[i])                 the shifted exponentials,
    l[i]        = Σ_j e[i, j]                              the row sum, at least 1 and so not zero,
    s'[j]       = s[j] + Σ_i (1 / l[i]) · e[i, j]          the scratch row plus the block's column sums of the
                                                           softmax weights.

  The scratch row starts as zeros; at the last step it is copied out as it stands, and the pooled context is
  Σ_j (s[j] · 1/2048) · v[j, d].  Every entry of the inputs is a real number, every intermediate value stays
  real (the row maximum of finitely many reals is one of them, the divisor l[i] is positive), so each stored
  entry is the coercion of the real formula.
-/
import proofs.«155430_j62354335204093_2_alg».proof.Proof.Gen.KernelIdeal.Skeleton
import proofs.«155430_j62354335204093_2_alg».proof.Proof.Spec
import proofs.«155430_j62354335204093_2_alg».proof.Proof.LibIdealCoe
import proofs.«155430_j62354335204093_2_alg».proof.Proof.LibPlainDot
import proofs.«155430_j62354335204093_2_alg».proof.Proof.LibTransposedDot
import proofs.«155430_j62354335204093_2_alg».proof.Proof.LibRowStat
import proofs.«155430_j62354335204093_2_alg».proof.Proof.LibLeadingDot
import Idealize.ShloMosaic.Lib.ValueLayout

noncomputable section

namespace Cert.KernelIdeal.Val

open Cert.KernelIdeal Cert.KernelIdeal.Gen Idealize.ShloMosaic ValueIdx
open BigOperators

/-! ## The literals -/

/-- The bf16 word `0x3E00` denotes `1/8`. -/
theorem ofBits_bf16_eighth : Ideal.ofBits .bf16 0x3E00#16 = (((1 / 8 : ℝ)) : EReal) := by
  simp [Ideal.ofBits, Ideal.ieee]
  rw [← EReal.coe_mul]
  exact congrArg _ (by norm_num)

/-- The f32 word `0x3F800000` denotes `1`. -/
theorem ofBits_f32_one : Ideal.ofBits .f32 0x3F800000#32 = ((1 : ℝ) : EReal) := by
  simp [Ideal.ofBits, Ideal.ieee]
  rw [← EReal.coe_mul, ← EReal.coe_one]
  exact congrArg _ (by norm_num)

/-- The f32 word `0x3A000000` denotes `2⁻¹¹ = 1/2048`. -/
theorem ofBits_f32_inv2048 : Ideal.ofBits .f32 0x3A000000#32 = (((1 / 2048 : ℝ)) : EReal) := by
  simp [Ideal.ofBits, Ideal.ieee]
  rw [← EReal.coe_mul]
  exact congrArg _ (by norm_num)

/-! ## Two reshapes by coordinates -/

/-- A `[1, 1, a, b]` array cast to `[a, b]` reads, at `(i, j)`, the operand at `(0, 0, i, j)`: the two indices have
    the same row-major position. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, a]` array cast to `[1, 1, 1, a]` reads, at `(0, 0, 0, j)`, the operand at `(0, j)`. -/
theorem shapeCast_1a_111a_apply {α : Type} {a : ℕ} (x : (⟨2, ![1, a]⟩ : Shape).Idx → α)
    (h : (⟨2, ![1, a]⟩ : Shape).ShapeCasts ⟨4, ![1, 1, 1, a]⟩) (j : Fin a) :
    shapeCast ⟨4, ![1, 1, 1, a]⟩ x h (ix4 (0 : Fin 1) (0 : Fin 1) (0 : Fin 1) j) = x (ix2 (0 : Fin 1) j) :=
  shapeCast_apply x h _ _ (by
    rw [Shape.rowMajor_val_four, Shape.rowMajor_val_two]
    show 0 * a + j.val = ((0 * 1 + 0) * 1 + 0) * a + j.val
    simp only [Nat.zero_mul, Nat.zero_add, Nat.mul_one, Nat.add_zero])

/-- A row sum kept as a column `[R, 1]` reads, at `(r, u)`, the sum of row `r`. -/
theorem rowSum_col_apply {R C : Nat} (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hφ : FKind.Formats .f32)
    (hacc : (0x00000000#32 : BitVec 32) = 0x00000000#32) (r : Fin R) (u : Fin 1) :
    shapeCast ⟨2, ![R, 1]⟩ (multiReduction .add [1] ⟨1, ![R]⟩ S 0x00000000#32 hr hφ hacc) hc (ix2 r u)
      = ∑ k : Fin C, S (ix2 r k) := by
  rw [Cert.ColumnCast.shapeCast_a_a1_apply]
  refine (Ideal.multiReduction_add_single S _ hr hφ hacc (ix1 r)).trans ?_
  show (∑ k : Fin C, S (hr.lift (ix1 r) k)) = _
  exact Finset.sum_congr rfl fun k _ => congrArg S (Cert.LibRowStat.lift_row hr r k)

/-! ## The real formulas of one block -/

/-- The scaled scores of a block of 512 query rows against the 2048 keys. -/
def scoreBlk (qr : Fin 512 → Fin 64 → ℝ) (kr : Fin 2048 → Fin 64 → ℝ) (i : Fin 512) (j : Fin 2048) : ℝ :=
  ∑ d, (qr i d * (1 / 8)) * kr j d

/-- The exponential of a score less its row's maximum. -/
def expBlk (qr : Fin 512 → Fin 64 → ℝ) (kr : Fin 2048 → Fin 64 → ℝ) (i : Fin 512) (j : Fin 2048) : ℝ :=
  Real.exp (scoreBlk qr kr i j - Cert.Attn.rowMax (scoreBlk qr kr i))

/-- A row of shifted exponentials has a positive sum. -/
theorem rowSum_expBlk_pos (qr : Fin 512 → Fin 64 → ℝ) (kr : Fin 2048 → Fin 64 → ℝ) (i : Fin 512) :
    0 < ∑ j, expBlk qr kr i j :=
  Finset.sum_pos (fun j _ => Real.exp_pos _) Finset.univ_nonempty

/-! ## The stages of the accumulating step, as the body computes them -/

section Stages

variable (x0 : Vec Ideal S1x1x512x64 .bf16) (x1 : Vec Ideal S1x1x2048x64 .bf16)

/-- The query block times the literal `0.125`. -/
def qScaled : FVec Ideal S512x64 .bf16 :=
  mulf (shapeCast S512x64 x0 shapeCasts_S1x1x512x64_S512x64 : FVec Ideal S512x64 .bf16)
    (broadcast S512x64 (Scalar.ofBits (F := Ideal) .bf16 0x3E00#16))

/-- The scores: the scaled block against the keys, contracted over the 64 lanes. -/
def scores : FVec Ideal S512x2048 .f32 :=
  matmul dot_S512x64_S2048x64_S512x2048_1_1_0_0_n_n none (qScaled x0)
    (shapeCast S2048x64 x1 shapeCasts_S1x1x2048x64_S2048x64 : FVec Ideal S2048x64 .bf16) (constant S512x2048 .f32 0x00000000#32)

/-- The row maxima, kept as a column and stretched back over the columns. -/
def rowMaxB : FVec Ideal S512x2048 .f32 :=
  broadcastTo S512x2048
    (shapeCast S512x1 (multiReduction .maximumf [1] S512 (scores x0 x1) 0xFF800000#32 reduces_S512x2048_S512 (.inl rfl) rfl)
      shapeCasts_S512_S512x1) broadcasts_S512x1_S512x2048

/-- The shifted exponentials. -/
def expScores : FVec Ideal S512x2048 .f32 := exp (subf (scores x0 x1) (rowMaxB x0 x1))

/-- The row sums of the exponentials, kept as a column. -/
def rowSumCol : FVec Ideal S512x1 .f32 :=
  shapeCast S512x1 (multiReduction .add [1] S512 (expScores x0 x1) 0x00000000#32 reduces_S512x2048_S512 (.inl rfl) rfl)
    shapeCasts_S512_S512x1

/-- The reciprocals of the row sums: the literal `1.0` divided by each. -/
def recipRowSum : FVec Ideal S512x1 .f32 :=
  divf (broadcast S512x1 (Scalar.ofBits (F := Ideal) .f32 0x3F800000#32)) (rowSumCol x0 x1)

/-- The accumulating step is the scratch row plus the reciprocals contracted with the exponentials over the rows. -/
theorem k1_pay2_eq (s : Vec Ideal S1x2048 .f32) :
    k1_pay2 (F := Ideal) x0 x1 s
      = addf s (matmul dot_S512x1_S512x2048_S1x2048_0_0_1_1_n_n none
          (truncf .bf16 (recipRowSum x0 x1) bitsLt_bf16_f32) (truncf .bf16 (expScores x0 x1) bitsLt_bf16_f32)
          (constant S1x2048 .f32 0x00000000#32)) := by
  unfold k1_pay2
  exact shapeCast_self _ _

variable (qr : Fin 512 → Fin 64 → ℝ) (kr : Fin 2048 → Fin 64 → ℝ)

theorem qScaled_apply (h0 : ∀ i d, x0 (ix4 0 0 i d) = ((qr i d : ℝ) : EReal)) (i : Fin 512) (d : Fin 64) :
    qScaled x0 (ix2 i d) = ((qr i d * (1 / 8) : ℝ) : EReal) := by
  unfold qScaled
  rw [mulf_apply, broadcast_apply, shapeCast_11ab_ab_apply, h0]
  show ((qr i d : ℝ) : EReal) * Ideal.ofBits .bf16 0x3E00#16 = _
  rw [ofBits_bf16_eighth, ← EReal.coe_mul]

theorem scores_apply (h0 : ∀ i d, x0 (ix4 0 0 i d) = ((qr i d : ℝ) : EReal))
    (h1 : ∀ j d, x1 (ix4 0 0 j d) = ((kr j d : ℝ) : EReal)) (i : Fin 512) (j : Fin 2048) :
    scores x0 x1 (ix2 i j) = ((scoreBlk qr kr i j : ℝ) : EReal) := by
  unfold scores scoreBlk
  refine (Cert.LibTransposedDot.tr_matmul_apply (M := 512) (K := 64) (N := 2048) none (qScaled x0)
    (shapeCast S2048x64 x1 shapeCasts_S1x1x2048x64_S2048x64 : FVec Ideal S2048x64 .bf16) (ix2 i j)).trans ?_
  show (∑ d : Fin 64, qScaled x0 (ix2 i d) * shapeCast S2048x64 x1 shapeCasts_S1x1x2048x64_S2048x64 (ix2 j d)) = _
  simp only [qScaled_apply x0 qr h0, shapeCast_11ab_ab_apply, h1, ← EReal.coe_mul, Cert.IdealCoe.coe_sum]

theorem rowMaxB_apply (h0 : ∀ i d, x0 (ix4 0 0 i d) = ((qr i d : ℝ) : EReal))
    (h1 : ∀ j d, x1 (ix4 0 0 j d) = ((kr j d : ℝ) : EReal)) (i : Fin 512) (j : Fin 2048) :
    rowMaxB x0 x1 (ix2 i j) = ((Cert.Attn.rowMax (scoreBlk qr kr i) : ℝ) : EReal) := by
  unfold rowMaxB
  refine (Cert.LibRowStat.rowMax_apply (R := 512) (C := 2048) (by decide) (scores x0 x1) _ _ _ _ _ i j).trans ?_
  simp only [scores_apply x0 x1 qr kr h0 h1]
  exact Cert.IdealCoe.iSup_coe _

theorem expScores_apply (h0 : ∀ i d, x0 (ix4 0 0 i d) = ((qr i d : ℝ) : EReal))
    (h1 : ∀ j d, x1 (ix4 0 0 j d) = ((kr j d : ℝ) : EReal)) (i : Fin 512) (j : Fin 2048) :
    expScores x0 x1 (ix2 i j) = ((expBlk qr kr i j : ℝ) : EReal) := by
  show Ideal.exp (scores x0 x1 (ix2 i j) - rowMaxB x0 x1 (ix2 i j)) = _
  rw [scores_apply x0 x1 qr kr h0 h1, rowMaxB_apply x0 x1 qr kr h0 h1, ← EReal.coe_sub]
  rfl

theorem rowSumCol_apply (h0 : ∀ i d, x0 (ix4 0 0 i d) = ((qr i d : ℝ) : EReal))
    (h1 : ∀ j d, x1 (ix4 0 0 j d) = ((kr j d : ℝ) : EReal)) (i : Fin 512) (u : Fin 1) :
    rowSumCol x0 x1 (ix2 i u) = ((∑ j, expBlk qr kr i j : ℝ) : EReal) := by
  unfold rowSumCol
  refine (rowSum_col_apply (R := 512) (C := 2048) (expScores x0 x1) _ _ _ _ i u).trans ?_
  simp only [expScores_apply x0 x1 qr kr h0 h1, Cert.IdealCoe.coe_sum]

theorem recipRowSum_apply (h0 : ∀ i d, x0 (ix4 0 0 i d) = ((qr i d : ℝ) : EReal))
    (h1 : ∀ j d, x1 (ix4 0 0 j d) = ((kr j d : ℝ) : EReal)) (i : Fin 512) (u : Fin 1) :
    recipRowSum x0 x1 (ix2 i u) = ((1 / ∑ j, expBlk qr kr i j : ℝ) : EReal) := by
  unfold recipRowSum
  rw [divf_apply, broadcast_apply, rowSumCol_apply x0 x1 qr kr h0 h1]
  show Ideal.div (Ideal.ofBits .f32 0x3F800000#32) _ = _
  rw [ofBits_f32_one, Cert.IdealCoe.div_coe_coe _ _ (rowSum_expBlk_pos qr kr i).ne']

end Stages

/-! ## The four stored values -/

/-- The scratch row is started as zeros. -/
theorem pay1_zero (j : Fin 2048) : k1_pay1 (F := Ideal) (ix2 0 j) = 0 := by
  unfold k1_pay1
  rw [shapeCast_self]
  exact Ideal.ofBits_zero_f32

/-- One accumulating step: the scratch row plus the block's column sums of the softmax weights. -/
theorem pay1_acc (qr : Fin 512 → Fin 64 → ℝ) (kr : Fin 2048 → Fin 64 → ℝ) (sr : Fin 2048 → ℝ)
    (x0 : Vec Ideal S1x1x512x64 .bf16) (x1 : Vec Ideal S1x1x2048x64 .bf16) (s : Vec Ideal S1x2048 .f32)
    (h0 : ∀ i d, x0 (ix4 0 0 i d) = ((qr i d : ℝ) : EReal)) (h1 : ∀ j d, x1 (ix4 0 0 j d) = ((kr j d : ℝ) : EReal))
    (hs : ∀ j, s (ix2 0 j) = ((sr j : ℝ) : EReal)) (j : Fin 2048) :
    k1_pay2 (F := Ideal) x0 x1 s (ix2 0 j)
      = ((sr j + ∑ i : Fin 512, (1 / ∑ j', expBlk qr kr i j') * expBlk qr kr i j : ℝ) : EReal) := by
  have hD : dot_S512x1_S512x2048_S1x2048_0_0_1_1_n_n
      = Cert.LibLeadingDot.leading 512 1 2048 dot_S512x1_S512x2048_S1x2048_0_0_1_1_n_n.wf := rfl
  rw [k1_pay2_eq, addf_apply, hs, hD]
  refine (congrArg (((sr j : ℝ) : EReal) + ·)
    (Cert.LibLeadingDot.lead_matmul_apply _ none _ _ (ix2 (0 : Fin 1) j))).trans ?_
  show ((sr j : ℝ) : EReal) + (∑ i : Fin 512, recipRowSum x0 x1 (ix2 i (0 : Fin 1)) * expScores x0 x1 (ix2 i j)) = _
  simp only [recipRowSum_apply x0 x1 qr kr h0 h1, expScores_apply x0 x1 qr kr h0 h1, ← EReal.coe_mul,
    Cert.IdealCoe.coe_sum, ← EReal.coe_add]

/-- At the last step the scratch row is copied out as it stands. -/
theorem pay1_row (s : Vec Ideal S1x2048 .f32) (j : Fin 2048) :
    k1_pay3 (F := Ideal) s (ix4 0 0 0 j) = s (ix2 0 j) := by
  unfold k1_pay3
  exact shapeCast_1a_111a_apply s _ j

/-- The pooled context: the scratch row scaled by `1/2048` against the values. -/
theorem pay1_ctx (vr : Fin 2048 → Fin 64 → ℝ) (sr : Fin 2048 → ℝ)
    (x2 : Vec Ideal S1x1x2048x64 .bf16) (s : Vec Ideal S1x2048 .f32)
    (h2 : ∀ j d, x2 (ix4 0 0 j d) = ((vr j d : ℝ) : EReal)) (hs : ∀ j, s (ix2 0 j) = ((sr j : ℝ) : EReal)) (d : Fin 64) :
    k1_pay4 (F := Ideal) x2 s (ix4 0 0 0 d) = ((∑ j, (sr j * (1 / 2048)) * vr j d : ℝ) : EReal) := by
  have hD : dot_S1x2048_S2048x64_S1x64_1_0_0_1_n_n = DotDims.plain 1 2048 64 := rfl
  unfold k1_pay4
  rw [shapeCast_1a_111a_apply, hD]
  refine (Cert.LibPlainDot.plain_matmul_apply (M := 1) (K := 2048) (N := 64) (some .fp32) _ _ (ix2 (0 : Fin 1) d)).trans ?_
  show (∑ j : Fin 2048, (s (ix2 (0 : Fin 1) j) * Ideal.ofBits .f32 0x3A000000#32)
      * shapeCast S2048x64 x2 shapeCasts_S1x1x2048x64_S2048x64 (ix2 j d)) = _
  simp only [hs, shapeCast_11ab_ab_apply, h2, ofBits_f32_inv2048, ← EReal.coe_mul, Cert.IdealCoe.coe_sum]

end Cert.KernelIdeal.Val

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.SpecAcc.lean ====
/-
  The column sum of the softmax weights over the 2048 query rows, taken four blocks of 512 rows at a time: a running total
  that starts from zero at the first block and adds each block's own column sum. After the fourth block it is the whole
  column sum.
-/
import proofs.«155430_j62354335204093_2_alg».proof.Proof.Spec
import proofs.«155430_j62354335204093_2_alg».proof.Proof.LibBlockSum

noncomputable section

namespace Cert.Attn

open Finset BigOperators

variable (q k : Fin 4 → Fin 16 → Fin 2048 → Fin 64 → ℝ)

/-- The softmax weight of query row `i` on key `j`, the normaliser as a reciprocal. -/
def aK (b : Fin 4) (n : Fin 16) (i j : Fin 2048) : ℝ := (1 / ∑ j', expK q k b n i j') * expK q k b n i j

theorem colsumK_eq (b : Fin 4) (n : Fin 16) (j : Fin 2048) : colsumK q k b n j = ∑ i, aK q k b n i j := rfl

/-- Row `i` of query block `r`: `512 r + i`. -/
def qrow (r : Fin 4) (i : Fin 512) : Fin 2048 := ⟨512 * r.val + i.val, by have := r.isLt; have := i.isLt; omega⟩

/-- Query block `r`'s own column sum. -/
def blkK (b : Fin 4) (n : Fin 16) (r : Fin 4) (j : Fin 2048) : ℝ := ∑ i : Fin 512, aK q k b n (qrow r i) j

/-- The running total after query block `r`: zero plus the first block's column sum, then each later block's added. -/
def partK (b : Fin 4) (n : Fin 16) : (r : ℕ) → r < 4 → Fin 2048 → ℝ
  | 0, _ => fun j => 0 + blkK q k b n 0 j
  | r + 1, h => fun j => partK b n r (Nat.lt_of_succ_lt h) j + blkK q k b n ⟨r + 1, h⟩ j

theorem partK_zero (b : Fin 4) (n : Fin 16) (h : 0 < 4) (j : Fin 2048) : partK q k b n 0 h j = 0 + blkK q k b n 0 j := rfl
theorem partK_succ (b : Fin 4) (n : Fin 16) (r : ℕ) (h : r + 1 < 4) (j : Fin 2048) :
    partK q k b n (r + 1) h j = partK q k b n r (Nat.lt_of_succ_lt h) j + blkK q k b n ⟨r + 1, h⟩ j := rfl

/-- After the fourth block the running total is the whole column sum. -/
theorem partK_last (b : Fin 4) (n : Fin 16) (j : Fin 2048) : partK q k b n 3 (by norm_num) j = colsumK q k b n j := by
  rw [colsumK_eq]
  have e := BlockSum.sum_fin_blocks (M := ℝ) 4 512 (fun i : Fin (4 * 512) => aK q k b n ⟨i.val, by have := i.isLt; omega⟩ j)
  have e' : (∑ i : Fin 2048, aK q k b n i j) = ∑ i : Fin (4 * 512), aK q k b n ⟨i.val, by have := i.isLt; omega⟩ j := rfl
  rw [e', e, Fin.sum_univ_four]
  simp only [partK, blkK, qrow]
  have hr : ∀ (r : Fin 4), (∑ i : Fin 512, aK q k b n ⟨512 * r.val + i.val, by have := r.isLt; have := i.isLt; omega⟩ j)
      = ∑ i : Fin 512, aK q k b n ⟨r.val * 512 + i.val, by have := r.isLt; have := i.isLt; omega⟩ j :=
    fun r => Finset.sum_congr rfl fun i _ => by congr 1; apply Fin.ext; show 512 * r.val + i.val = r.val * 512 + i.val; omega
  simp only [hr]
  simp only [Fin.val_zero, Fin.val_one, Fin.val_two, zero_add]
  rfl

end Cert.Attn

end
-- ==== Proof.KI.AccR1.lean ====
/-
  The scratch row of the attention pipeline, at the ideal instance on finite data: after the body at point `t` (batch
  `t / 64`, head `(t / 4) mod 16`, query block `t mod 4`) its entry `j` is the running column sum of the softmax weights
  over the query blocks `0 … t mod 4` of that batch and head. By induction on the point: a first block adds its own column
  sum to a row of zeros, a later block to what the point before (same batch and head, the block before) left.
-/
import proofs.«155430_j62354335204093_2_alg».proof.Proof.KI.PiecesR1
import proofs.«155430_j62354335204093_2_alg».proof.Proof.KI.BlocksR1
import proofs.«155430_j62354335204093_2_alg».proof.Proof.KI.Pay1
import proofs.«155430_j62354335204093_2_alg».proof.Proof.SpecAcc

set_option maxRecDepth 16384

noncomputable section

namespace Cert.KernelIdeal.Val

open Cert.KernelIdeal Cert.KernelIdeal.Gen Cert.KernelIdeal.Fr Cert.Attn
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b)) (c : Dev nD)
variable (Q K Vv : Fin 4 → Fin 16 → Fin 2048 → Fin 64 → ℝ)

/-- The batch, head and query block of a point. -/
def bOf (t : Fin cfg1.N) : Fin 4 := ⟨t.val / 64, by have h : t.val < 256 := lt_of_lt_of_eq t.isLt (show cfg1.N = 256 from N_1); omega⟩
def nOf (t : Fin cfg1.N) : Fin 16 := ⟨t.val / 4 % 16, Nat.mod_lt _ (by norm_num)⟩
def rOf (t : Fin cfg1.N) : Fin 4 := ⟨t.val % 4, Nat.mod_lt _ (by norm_num)⟩

section
variable (hQ : ∀ b n l d, (V c main_v15 : S4x16x2048x64.Idx → EReal) (ix4 b n l d) = ((Q b n l d : ℝ) : EReal))
variable (hK : ∀ b n l d, (V c main_v17 : S4x16x2048x64.Idx → EReal) (ix4 b n l d) = ((K b n l d : ℝ) : EReal))
variable (hV : ∀ b n l d, (V c main_v19 : S4x16x2048x64.Idx → EReal) (ix4 b n l d) = ((Vv b n l d : ℝ) : EReal))
include hQ in
/-- The query block of point `t`: rows `512 (t mod 4) + i` of its batch and head. -/
theorem qblk (t : Fin cfg1.N) (i : Fin 512) (d : Fin 64) :
    (iblk1 V c 0 t : Vec Ideal S1x1x512x64 .bf16) (ix4 0 0 i d) = ((Q (bOf t) (nOf t) (qrow (rOf t) i) d : ℝ) : EReal) := by
  rw [iblk1_0_apply V c t (ix4 0 0 i d) (ix4 (bOf t) (nOf t) (qrow (rOf t) i) d) rfl rfl rfl rfl]
  exact hQ _ _ _ _
include hK in
/-- The key block of point `t`: its batch and head's keys. -/
theorem kblk (t : Fin cfg1.N) (j : Fin 2048) (d : Fin 64) :
    (iblk1 V c 1 t : Vec Ideal S1x1x2048x64 .bf16) (ix4 0 0 j d) = ((K (bOf t) (nOf t) j d : ℝ) : EReal) := by
  rw [iblk1_1_apply V c t (ix4 0 0 j d) (ix4 (bOf t) (nOf t) j d) rfl rfl rfl rfl]
  exact hK _ _ _ _
include hV in
/-- The value block of point `t`: its batch and head's values. -/
theorem vblk (t : Fin cfg1.N) (j : Fin 2048) (d : Fin 64) :
    (iblk1 V c 2 t : Vec Ideal S1x1x2048x64 .bf16) (ix4 0 0 j d) = ((Vv (bOf t) (nOf t) j d : ℝ) : EReal) := by
  rw [iblk1_2_apply V c t (ix4 0 0 j d) (ix4 (bOf t) (nOf t) j d) rfl rfl rfl rfl]
  exact hV _ _ _ _

include hQ hK in
/-- One point's step: a scratch row holding the reals `sr` becomes `sr` plus the point's block's column sum. -/
theorem acc_step (t : Fin cfg1.N) (s : Vec Ideal S1x2048 .f32) (sr : Fin 2048 → ℝ)
    (hs : ∀ j, s (ix2 0 j) = ((sr j : ℝ) : EReal)) (j : Fin 2048) :
    k1_pay2 (F := Ideal) (iblk1 V c 0 t) (iblk1 V c 1 t) s (ix2 0 j)
      = ((sr j + blkK Q K (bOf t) (nOf t) (rOf t) j : ℝ) : EReal) :=
  (pay1_acc (fun i d => Q (bOf t) (nOf t) (qrow (rOf t) i) d) (fun j d => K (bOf t) (nOf t) j d) sr
    (iblk1 V c 0 t) (iblk1 V c 1 t) s (qblk V c Q hQ t) (kblk V c K hK t) hs j).trans rfl

include hQ hK in
/-- After the body at position `n`, the scratch row holds the running total for the point's batch, head and block. -/
theorem scratch_at : ∀ (n : ℕ) (hn : n < cfg1.N) (r : ℕ) (hr : r < 4), n % 4 = r → ∀ j : Fin 2048,
    ((outsAt1 V c n hn).2.2 : Vec Ideal S1x2048 .f32) (ix2 0 j)
      = ((partK Q K (bOf ⟨n, hn⟩) (nOf ⟨n, hn⟩) r hr j : ℝ) : EReal) := by
  intro n
  induction n with
  | zero =>
    intro hn r hr h j
    obtain rfl : r = 0 := by omega
    have hc1 : ¬cond1_1 (grid1.coords ⟨0, hn⟩) := fun hh => absurd ((hcond1_1 ⟨0, hn⟩).mp hh) (by (try dsimp only); omega)
    rw [outsAt1_A V c ⟨0, hn⟩ rfl hc1]
    dsimp only
    rw [sout1_A_eq]
    refine (acc_step V c Q K hQ hK ⟨0, hn⟩ (k1_pay1 (F := Ideal)) (fun _ => 0) (fun j => (pay1_zero j).trans EReal.coe_zero.symm) j).trans ?_
    have hr0 : rOf ⟨0, hn⟩ = 0 := Fin.ext rfl
    rw [partK_zero, hr0]
  | succ n ih =>
    intro hn r hr h j
    by_cases h0 : (n + 1) % 4 = 0
    · obtain rfl : r = 0 := by omega
      have hc1 : ¬cond1_1 (grid1.coords ⟨n + 1, hn⟩) := fun hh => absurd ((hcond1_1 ⟨n + 1, hn⟩).mp hh) (by (try dsimp only); omega)
      rw [outsAt1_A V c ⟨n + 1, hn⟩ h0 hc1]
      dsimp only
      rw [sout1_A_eq]
      refine (acc_step V c Q K hQ hK ⟨n + 1, hn⟩ (k1_pay1 (F := Ideal)) (fun _ => 0) (fun j => (pay1_zero j).trans EReal.coe_zero.symm) j).trans ?_
      have hr0 : rOf ⟨n + 1, hn⟩ = 0 := Fin.ext h0
      rw [partK_zero, hr0]
    · obtain ⟨r', rfl⟩ : ∃ r', r = r' + 1 := ⟨r - 1, by omega⟩
      have hr' : r' < 4 := by omega
      have hprev : n % 4 = r' := by omega
      have hb : bOf ⟨n, Nat.lt_of_succ_lt hn⟩ = bOf ⟨n + 1, hn⟩ := Fin.ext (by show n / 64 = (n + 1) / 64; omega)
      have hnn : nOf ⟨n, Nat.lt_of_succ_lt hn⟩ = nOf ⟨n + 1, hn⟩ := Fin.ext (by show n / 4 % 16 = (n + 1) / 4 % 16; omega)
      have IH := ih (Nat.lt_of_succ_lt hn) r' hr' hprev
      rw [hb, hnn] at IH
      have hrr : rOf ⟨n + 1, hn⟩ = ⟨r' + 1, hr⟩ := Fin.ext h
      by_cases h1 : (n + 1) % 4 = 3
      · rw [outsAt1_C V c ⟨n + 1, hn⟩ h0 h1]
        dsimp only
        rw [sout1_C_eq]
        refine (acc_step V c Q K hQ hK ⟨n + 1, hn⟩ _ (partK Q K (bOf ⟨n + 1, hn⟩) (nOf ⟨n + 1, hn⟩) r' hr') IH j).trans ?_
        rw [partK_succ, hrr]
      · rw [outsAt1_B V c ⟨n + 1, hn⟩ h0 h1]
        dsimp only
        rw [sout1_B_eq]
        refine (acc_step V c Q K hQ hK ⟨n + 1, hn⟩ _ (partK Q K (bOf ⟨n + 1, hn⟩) (nOf ⟨n + 1, hn⟩) r' hr') IH j).trans ?_
        rw [partK_succ, hrr]

end

end Cert.KernelIdeal.Val

end
-- ==== Proof.KI.FinalR1.lean ====
/-
  The two results of the attention pipeline, at the ideal instance on finite data. At the last query block of a batch and
  head the scratch row holds the whole column sum of that batch and head's softmax weights; the first result block is that
  row, the second its product, scaled by 1/2048, with the values. Those points write their blocks back, and the blocks of
  the 64 (batch, head) pairs tile the two result arrays.
-/
import proofs.«155430_j62354335204093_2_alg».proof.Proof.KI.AccR1

set_option maxRecDepth 16384

noncomputable section

namespace Cert.KernelIdeal.Val

open Cert.KernelIdeal Cert.KernelIdeal.Gen Cert.KernelIdeal.Fr Cert.Attn
open Idealize.ShloMosaic Idealize.ShloMosaic.TcCoe Idealize.SL.Sem ValueIdx
open Idealize.ShloMosaic.Pipeline (Dat)

/-- At a last query block the first result is the new scratch row, reshaped; the second its scaled product with the values. -/
theorem outs_C_3 {F : FTy → Type} [FloatOps F] (V : (c : Dev nD) → (b : Ref sig .tc) → Buf (Elt F) ((c : Thread nD τ).loc b)) (c : Dev nD)
    (t : Fin cfg1.N) (h0 : ¬t.val % 4 = 0) (h3 : t.val % 4 = 3) :
    (outsAt1 V c t.val t.isLt).1 = k1_pay3 (outsAt1 V c t.val t.isLt).2.2 := by
  rw [outsAt1_C V c t h0 h3]; dsimp only; rw [out1_C_3_eq, sout1_C_eq]
theorem outs_C_4 {F : FTy → Type} [FloatOps F] (V : (c : Dev nD) → (b : Ref sig .tc) → Buf (Elt F) ((c : Thread nD τ).loc b)) (c : Dev nD)
    (t : Fin cfg1.N) (h0 : ¬t.val % 4 = 0) (h3 : t.val % 4 = 3) :
    (outsAt1 V c t.val t.isLt).2.1 = k1_pay4 (iblk1 V c 2 t) (outsAt1 V c t.val t.isLt).2.2 := by
  rw [outsAt1_C V c t h0 h3]; dsimp only; rw [out1_C_4_eq, sout1_C_eq]

variable (V : (c : Dev nD) → (b : Ref sig .tc) → Buf (Elt Ideal) ((c : Thread nD τ).loc b)) (c : Dev nD)
variable (Q K Vv : Fin 4 → Fin 16 → Fin 2048 → Fin 64 → ℝ)
variable (hQ : ∀ b n l d, (V c main_v15 : S4x16x2048x64.Idx → EReal) (ix4 b n l d) = ((Q b n l d : ℝ) : EReal))
variable (hK : ∀ b n l d, (V c main_v17 : S4x16x2048x64.Idx → EReal) (ix4 b n l d) = ((K b n l d : ℝ) : EReal))
variable (hV : ∀ b n l d, (V c main_v19 : S4x16x2048x64.Idx → EReal) (ix4 b n l d) = ((Vv b n l d : ℝ) : EReal))

/-- The first result array: the column sums. -/
def G3 : S4x16x1x2048.Idx → EReal := fun i =>
  ((colsumK Q K ⟨(i 0).val, (i 0).isLt⟩ ⟨(i 1).val, (i 1).isLt⟩ ⟨(i 3).val, (i 3).isLt⟩ : ℝ) : EReal)
/-- The second: the context averaged over the query positions. -/
def G4 : S4x16x1x64.Idx → EReal := fun i =>
  ((ctxmeanK Q K Vv ⟨(i 0).val, (i 0).isLt⟩ ⟨(i 1).val, (i 1).isLt⟩ ⟨(i 3).val, (i 3).isLt⟩ : ℝ) : EReal)

include hQ hK in
/-- At a last query block the scratch row is the whole column sum. -/
theorem scratch_last (t : Fin cfg1.N) (h3 : t.val % 4 = 3) (j : Fin 2048) :
    ((outsAt1 V c t.val t.isLt).2.2 : Vec Ideal S1x2048 .f32) (ix2 0 j) = ((colsumK Q K (bOf t) (nOf t) j : ℝ) : EReal) := by
  rw [scratch_at V c Q K hQ hK t.val t.isLt 3 (by norm_num) h3 j, partK_last]

include hQ hK in
/-- What a last query block writes back to the first result: its block of the column sums. -/
theorem flushed1_3 (t : Fin cfg1.N) (hf : (cfg1.win 3).flush t = true) :
    (dat1 V c).flushed 3 t = ((cfg1.win 3).blk t).view.read (Elt Ideal) (G3 Q K) := by
  have h3 : t.val % 4 = 3 := (flush1_3 t).mp hf
  have h0 : ¬t.val % 4 = 0 := by omega
  obtain ⟨e0, e1, e2, e3⟩ := idx1_3 t
  show (cfg1.win 3).cut (grid1.coords t) ((dat1 V c).after 3 t) = _
  rw [after1_3, outs_C_3 V c t h0 h3]
  funext y
  have hy0 : (y 0).val = 0 := by have h : (y 0).val < 1 := (y 0).isLt; omega
  have hy1 : (y 1).val = 0 := by have h : (y 1).val < 1 := (y 1).isLt; omega
  have hy2 : (y 2).val = 0 := by have h : (y 2).val < 1 := (y 2).isLt; omega
  obtain ⟨j, rfl⟩ : ∃ j : Fin 2048, y = ix4 (0 : Fin 1) (0 : Fin 1) (0 : Fin 1) j := ⟨y 3, by
    funext a; apply Fin.ext
    match a with
    | ⟨0, _⟩ => exact hy0
    | ⟨1, _⟩ => exact hy1
    | ⟨2, _⟩ => exact hy2
    | ⟨3, _⟩ => rfl⟩
  show k1_pay3 (F := Ideal) ((outsAt1 V c t.val t.isLt).2.2) (ix4 0 0 0 j) = G3 Q K (((cfg1.win 3).blk t).view.emb (ix4 0 0 0 j))
  have hemb : ((cfg1.win 3).blk t).view.emb (ix4 0 0 0 j) = (ix4 (bOf t) (nOf t) 0 j : S4x16x1x2048.Idx) := by
    funext a; apply Fin.ext
    match a with
    | ⟨0, _⟩ => show win1_3.index t 0 * 1 + 1 * 0 = t.val / 64; rw [e0]; omega
    | ⟨1, _⟩ => show win1_3.index t 1 * 1 + 1 * 0 = t.val / 4 % 16; rw [e1]; omega
    | ⟨2, _⟩ => show win1_3.index t 2 * 1 + 1 * 0 = 0; rw [e2]
    | ⟨3, _⟩ => show win1_3.index t 3 * 2048 + 1 * j.val = j.val; rw [e3]; omega
  refine ((pay1_row _ _).trans (scratch_last V c Q K hQ hK t h3 _)).trans ?_
  rw [hemb]
  rfl

include hQ hK hV in
/-- What it writes back to the second: its block of the averaged context. -/
theorem flushed1_4 (t : Fin cfg1.N) (hf : (cfg1.win 4).flush t = true) :
    (dat1 V c).flushed 4 t = ((cfg1.win 4).blk t).view.read (Elt Ideal) (G4 Q K Vv) := by
  have h3 : t.val % 4 = 3 := (flush1_4 t).mp hf
  have h0 : ¬t.val % 4 = 0 := by omega
  obtain ⟨e0, e1, e2, e3⟩ := idx1_4 t
  show (cfg1.win 4).cut (grid1.coords t) ((dat1 V c).after 4 t) = _
  rw [after1_4, outs_C_4 V c t h0 h3]
  funext y
  have hy0 : (y 0).val = 0 := by have h : (y 0).val < 1 := (y 0).isLt; omega
  have hy1 : (y 1).val = 0 := by have h : (y 1).val < 1 := (y 1).isLt; omega
  have hy2 : (y 2).val = 0 := by have h : (y 2).val < 1 := (y 2).isLt; omega
  obtain ⟨j, rfl⟩ : ∃ j : Fin 64, y = ix4 (0 : Fin 1) (0 : Fin 1) (0 : Fin 1) j := ⟨y 3, by
    funext a; apply Fin.ext
    match a with
    | ⟨0, _⟩ => exact hy0
    | ⟨1, _⟩ => exact hy1
    | ⟨2, _⟩ => exact hy2
    | ⟨3, _⟩ => rfl⟩
  show k1_pay4 (F := Ideal) (iblk1 V c 2 t) ((outsAt1 V c t.val t.isLt).2.2) (ix4 0 0 0 j) = G4 Q K Vv (((cfg1.win 4).blk t).view.emb (ix4 0 0 0 j))
  have hemb : ((cfg1.win 4).blk t).view.emb (ix4 0 0 0 j) = (ix4 (bOf t) (nOf t) 0 j : S4x16x1x64.Idx) := by
    funext a; apply Fin.ext
    match a with
    | ⟨0, _⟩ => show win1_4.index t 0 * 1 + 1 * 0 = t.val / 64; rw [e0]; omega
    | ⟨1, _⟩ => show win1_4.index t 1 * 1 + 1 * 0 = t.val / 4 % 16; rw [e1]; omega
    | ⟨2, _⟩ => show win1_4.index t 2 * 1 + 1 * 0 = 0; rw [e2]
    | ⟨3, _⟩ => show win1_4.index t 3 * 64 + 1 * j.val = j.val; rw [e3]; omega
  refine (pay1_ctx (fun j d => Vv (bOf t) (nOf t) j d) (fun j => colsumK Q K (bOf t) (nOf t) j) _ _
    (vblk V c Vv hV t) (scratch_last V c Q K hQ hK t h3) _).trans ?_
  rw [hemb]
  rfl

/-- An index of the first result array is in point `t`'s block iff each coordinate is in the block's range. -/
theorem mem_blk1_3 (t : Fin cfg1.N) (i : S4x16x1x2048.Idx) :
    i ∈ ((cfg1.win 3).blk t).view.set ↔ ∀ a : Fin 4, win1_3.index t a * S1x1x1x2048.size a ≤ (i a).val ∧ (i a).val < win1_3.index t a * S1x1x1x2048.size a + S1x1x1x2048.size a := by
  show i ∈ ((View.whole main_v20_0).slice (win1_3.rect t)).set ↔ _
  rw [View.set_slice_whole, Rect.mem_set_unit]
  exact Iff.rfl
theorem mem_blk1_4 (t : Fin cfg1.N) (i : S4x16x1x64.Idx) :
    i ∈ ((cfg1.win 4).blk t).view.set ↔ ∀ a : Fin 4, win1_4.index t a * S1x1x1x64.size a ≤ (i a).val ∧ (i a).val < win1_4.index t a * S1x1x1x64.size a + S1x1x1x64.size a := by
  show i ∈ ((View.whole main_v20_1).slice (win1_4.rect t)).set ↔ _
  rw [View.set_slice_whole, Rect.mem_set_unit]
  exact Iff.rfl

/-- The last query block of batch `b`, head `n`: point `64 b + 4 n + 3`. -/
def lastPt (b : Fin 4) (n : Fin 16) : Fin cfg1.N := ⟨64 * b.val + 4 * n.val + 3, by rw [show cfg1.N = 256 from N_1]; have := b.isLt; have := n.isLt; omega⟩

/-- Every index of the first result array is in the block some last query block writes back. -/
theorem cover1_3 (i : S4x16x1x2048.Idx) : ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 1 := (i 2).isLt
  have hi3 : (i 3).val < 2048 := (i 3).isLt
  refine ⟨lastPt ⟨(i 0).val, hi0⟩ ⟨(i 1).val, hi1⟩, (flush1_3 _).mpr (by show (64 * (i 0).val + 4 * (i 1).val + 3) % 4 = 3; omega), ?_⟩
  obtain ⟨e0, e1, e2, e3⟩ := idx1_3 (lastPt ⟨(i 0).val, hi0⟩ ⟨(i 1).val, hi1⟩)
  have ev : (lastPt ⟨(i 0).val, hi0⟩ ⟨(i 1).val, hi1⟩).val = 64 * (i 0).val + 4 * (i 1).val + 3 := rfl
  rw [mem_blk1_3]
  intro a
  match a with
  | ⟨0, _⟩ => show win1_3.index _ 0 * 1 ≤ (i 0).val ∧ (i 0).val < win1_3.index _ 0 * 1 + 1; rw [e0, ev]; omega
  | ⟨1, _⟩ => show win1_3.index _ 1 * 1 ≤ (i 1).val ∧ (i 1).val < win1_3.index _ 1 * 1 + 1; rw [e1, ev]; omega
  | ⟨2, _⟩ => show win1_3.index _ 2 * 1 ≤ (i 2).val ∧ (i 2).val < win1_3.index _ 2 * 1 + 1; rw [e2]; omega
  | ⟨3, _⟩ => show win1_3.index _ 3 * 2048 ≤ (i 3).val ∧ (i 3).val < win1_3.index _ 3 * 2048 + 2048; rw [e3]; omega

theorem cover1_4 (i : S4x16x1x64.Idx) : ∃ t : Fin cfg1.N, (cfg1.win 4).flush t = true ∧ i ∈ ((cfg1.win 4).blk t).view.set := by
  have hi0 : (i 0).val < 4 := (i 0).isLt
  have hi1 : (i 1).val < 16 := (i 1).isLt
  have hi2 : (i 2).val < 1 := (i 2).isLt
  have hi3 : (i 3).val < 64 := (i 3).isLt
  refine ⟨lastPt ⟨(i 0).val, hi0⟩ ⟨(i 1).val, hi1⟩, (flush1_4 _).mpr (by show (64 * (i 0).val + 4 * (i 1).val + 3) % 4 = 3; omega), ?_⟩
  obtain ⟨e0, e1, e2, e3⟩ := idx1_4 (lastPt ⟨(i 0).val, hi0⟩ ⟨(i 1).val, hi1⟩)
  have ev : (lastPt ⟨(i 0).val, hi0⟩ ⟨(i 1).val, hi1⟩).val = 64 * (i 0).val + 4 * (i 1).val + 3 := rfl
  rw [mem_blk1_4]
  intro a
  match a with
  | ⟨0, _⟩ => show win1_4.index _ 0 * 1 ≤ (i 0).val ∧ (i 0).val < win1_4.index _ 0 * 1 + 1; rw [e0, ev]; omega
  | ⟨1, _⟩ => show win1_4.index _ 1 * 1 ≤ (i 1).val ∧ (i 1).val < win1_4.index _ 1 * 1 + 1; rw [e1, ev]; omega
  | ⟨2, _⟩ => show win1_4.index _ 2 * 1 ≤ (i 2).val ∧ (i 2).val < win1_4.index _ 2 * 1 + 1; rw [e2]; omega
  | ⟨3, _⟩ => show win1_4.index _ 3 * 64 ≤ (i 3).val ∧ (i 3).val < win1_4.index _ 3 * 64 + 64; rw [e3]; omega

include hQ hK in
/-- The first result array ends holding the column sums, -/
theorem final1_3 : (dat1 V c).arrAt 3 cfg1.N = G3 Q K :=
  (dat1 V c).arrAt_eq_of_cover 3 (G3 Q K) (flushed1_3 V c Q K hQ hK) cover1_3

include hQ hK hV in
/-- and the second the averaged context. -/
theorem final1_4 : (dat1 V c).arrAt 4 cfg1.N = G4 Q K Vv :=
  (dat1 V c).arrAt_eq_of_cover 4 (G4 Q K Vv) (flushed1_4 V c Q K Vv hQ hK hV) cover1_4

end Cert.KernelIdeal.Val

end
-- ==== Proof.KI.Pay2.lean ====
/-
  The output projection's block, read at an index over the reals.

  The third kernel body takes the pooled context c (4 rows of width 1024), the projection matrix W and the
  bias row, and stores  c · W + bias.  With real entries the entry (b, o) is  Σ_h c[b, h] · W[h, o] + bias[o].
-/
import proofs.«155430_j62354335204093_2_alg».proof.Proof.Gen.KernelIdeal.Skeleton
import proofs.«155430_j62354335204093_2_alg».proof.Proof.KI.PayLin

noncomputable section

namespace Cert.KernelIdeal.Val

open Cert.KernelIdeal Cert.KernelIdeal.Gen Idealize.ShloMosaic ValueIdx
open Finset BigOperators

/-- The block the output projection stores, entry by entry. -/
theorem pay2_apply (cr : Fin 4 → Fin 1024 → ℝ) (wr : Fin 1024 → Fin 1024 → ℝ) (br : Fin 1024 → ℝ)
    (x0 : Vec Ideal S4x1024 .f32) (x1 : Vec Ideal S1024x1024 .bf16) (x2 : Vec Ideal S1x1024 .f32)
    (h0 : ∀ b h, x0 (ix2 b h) = ((cr b h : ℝ) : EReal)) (h1 : ∀ h o, x1 (ix2 h o) = ((wr h o : ℝ) : EReal))
    (h2 : ∀ o, x2 (ix2 0 o) = ((br o : ℝ) : EReal)) (b : Fin 4) (o : Fin 1024) :
    k2_pay1 (F := Ideal) x0 x1 x2 (ix2 b o) = (((∑ h, cr b h * wr h o) + br o : ℝ) : EReal) := by
  unfold k2_pay1
  rw [shapeCast_self, shapeCast_self, shapeCast_self]
  exact rows_affine_apply (M := 4) cr wr br none x0 x1 x2 broadcasts_S1x1024_S4x1024 h0 h1 h2 b o

end Cert.KernelIdeal.Val

end
-- ==== Proof.KI.Final2.lean ====
/-
  The output projection's array after its pipeline, as one function of the arrays the pipeline reads.

  The last pipeline has a single grid point, and each of its four windows is its whole array: the point's block of
  the pooled context is the 4 × 1024 array itself, likewise the matrix and the bias row, and the block written
  back is the whole result.  So the result array ends holding, at (b, o),  Σ_h c[b, h] · W[h, o] + bias[o].
-/
import proofs.«155430_j62354335204093_2_alg».proof.Proof.KI.FrameR2
import proofs.«155430_j62354335204093_2_alg».proof.Proof.KI.Pay2
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem ValueIdx
open Idealize.ShloMosaic.Pipeline (Dat)
open BigOperators

variable (V : (c : Dev nD) → (b : Ref sig .tc) → Buf (Elt Ideal) ((c : Thread nD τ).loc b)) (c : Dev nD)

/-- The offset `(0, 0)` of a whole-buffer rectangle. -/
theorem zero_off2 : (![0, 0] : Fin 2 → Nat) = fun _ => 0 := funext fun a => by fin_cases a <;> rfl

/-- Every window of the last pipeline sits at block index `(0, 0)` at its one grid point. -/
theorem idx2_all : ∀ t : Fin cfg2.N, win2_0.index t 0 = 0 ∧ win2_0.index t 1 = 0 ∧ win2_1.index t 0 = 0 ∧ win2_1.index t 1 = 0
    ∧ win2_2.index t 0 = 0 ∧ win2_2.index t 1 = 0 ∧ win2_3.index t 0 = 0 ∧ win2_3.index t 1 = 0 :=
  (by decide +kernel : ∀ t : Fin grid2.N, win2_0.index t 0 = 0 ∧ win2_0.index t 1 = 0 ∧ win2_1.index t 0 = 0 ∧ win2_1.index t 1 = 0
    ∧ win2_2.index t 0 = 0 ∧ win2_2.index t 1 = 0 ∧ win2_3.index t 0 = 0 ∧ win2_3.index t 1 = 0)

/-- The pooled context's block at the point is the array itself. -/
theorem iblk2_0_apply (t : Fin cfg2.N) (x : S4x1024.Idx) :
    (iblk2 V c 0 t : Vec Ideal S4x1024 .f32) x = (V c main_v28 : S4x1024.Idx → EReal) x := by
  obtain ⟨e0, e1, -⟩ := idx2_all t
  unfold iblk2
  rw [View.read_apply]
  show V c main_v28 _ = V c main_v28 _
  congr 1
  funext a
  apply Fin.ext
  match a with
  | ⟨0, _⟩ => show win2_0.index t 0 * 4 + 1 * (x 0).val = (x 0).val; rw [e0]; omega
  | ⟨1, _⟩ => show win2_0.index t 1 * 1024 + 1 * (x 1).val = (x 1).val; rw [e1]; omega

/-- The matrix's block at the point is the array itself. -/
theorem iblk2_1_apply (t : Fin cfg2.N) (x : S1024x1024.Idx) :
    (iblk2 V c 1 t : Vec Ideal S1024x1024 .bf16) x = (V c main_v7 : S1024x1024.Idx → EReal) x := by
  obtain ⟨-, -, e0, e1, -⟩ := idx2_all t
  unfold iblk2
  rw [View.read_apply]
  show V c main_v7 _ = V c main_v7 _
  congr 1
  funext a
  apply Fin.ext
  match a with
  | ⟨0, _⟩ => show win2_1.index t 0 * 1024 + 1 * (x 0).val = (x 0).val; rw [e0]; omega
  | ⟨1, _⟩ => show win2_1.index t 1 * 1024 + 1 * (x 1).val = (x 1).val; rw [e1]; omega

/-- The bias row's block at the point is the array itself. -/
theorem iblk2_2_apply (t : Fin cfg2.N) (x : S1x1024.Idx) :
    (iblk2 V c 2 t : Vec Ideal S1x1024 .f32) x = (V c main_v11 : S1x1024.Idx → EReal) x := by
  obtain ⟨-, -, -, -, e0, e1, -⟩ := idx2_all t
  unfold iblk2
  rw [View.read_apply]
  show V c main_v11 _ = V c main_v11 _
  congr 1
  funext a
  apply Fin.ext
  match a with
  | ⟨0, _⟩ => show win2_2.index t 0 * 1 + 1 * (x 0).val = (x 0).val; rw [e0]; omega
  | ⟨1, _⟩ => show win2_2.index t 1 * 1024 + 1 * (x 1).val = (x 1).val; rw [e1]; omega

/-- The projected array: at `(b, o)` the real number `Σ_h c[b, h] · W[h, o] + bias[o]`. -/
abbrev projArr2 (cf : Fin 4 → Fin 1024 → ℝ) (wT : Fin 1024 → Fin 1024 → ℝ) (bb : Fin 1024 → ℝ) : S4x1024.Idx → EReal :=
  fun i => (((∑ h, cf ⟨(i 0).val, (i 0).isLt⟩ h * wT h ⟨(i 1).val, (i 1).isLt⟩) + bb ⟨(i 1).val, (i 1).isLt⟩ : ℝ) : EReal)

/-- The body's stored block at any index of the block, from real operands. -/
theorem pay2_at (cf : Fin 4 → Fin 1024 → ℝ) (wT : Fin 1024 → Fin 1024 → ℝ) (bb : Fin 1024 → ℝ)
    (x0 : Vec Ideal S4x1024 .f32) (x1 : Vec Ideal S1024x1024 .bf16) (x2 : Vec Ideal S1x1024 .f32)
    (h0 : ∀ b h, x0 (ix2 b h) = ((cf b h : ℝ) : EReal)) (h1 : ∀ h o, x1 (ix2 h o) = ((wT h o : ℝ) : EReal))
    (h2 : ∀ o, x2 (ix2 0 o) = ((bb o : ℝ) : EReal)) (y : S4x1024.Idx) :
    k2_pay1 (F := Ideal) x0 x1 x2 y = projArr2 cf wT bb y :=
  (congrArg (k2_pay1 (F := Ideal) x0 x1 x2) (eq_ix2 y)).trans (pay2_apply cf wT bb x0 x1 x2 h0 h1 h2 (y 0) (y 1))

variable (cf : Fin 4 → Fin 1024 → ℝ) (wT : Fin 1024 → Fin 1024 → ℝ) (bb : Fin 1024 → ℝ)

/-- What the one point writes back is the block of the projected array. -/
theorem flushed2_3_eq (h0 : ∀ b h, (V c main_v28 : S4x1024.Idx → EReal) (ix2 b h) = ((cf b h : ℝ) : EReal))
    (h1 : ∀ h o, (V c main_v7 : S1024x1024.Idx → EReal) (ix2 h o) = ((wT h o : ℝ) : EReal))
    (h2 : ∀ o, (V c main_v11 : S1x1024.Idx → EReal) (ix2 0 o) = ((bb o : ℝ) : EReal)) (t : Fin cfg2.N) :
    (dat2 V c).flushed 3 t = ((cfg2.win 3).blk t).view.read (Elt Ideal) (projArr2 cf wT bb) := by
  show (cfg2.win 3).cut (grid2.coords t) ((dat2 V c).after 3 t) = _
  rw [after2_3]
  unfold out2_3
  rw [View.canon_unit_zero zero_off2]
  simp only [View.ld_unit_zero (S := S4x1024) zero_off2, View.ld_unit_zero (S := S1024x1024) zero_off2,
    View.ld_unit_zero (S := S1x1024) zero_off2]
  funext y
  show k2_pay1 (F := Ideal) (iblk2 V c 0 t) (iblk2 V c 1 t) (iblk2 V c 2 t) y
    = projArr2 cf wT bb (((cfg2.win 3).blk t).view.emb y)
  have he : ((cfg2.win 3).blk t).view.emb y = y := by
    obtain ⟨-, -, -, -, -, -, e0, e1⟩ := idx2_all t
    funext a
    apply Fin.ext
    match a with
    | ⟨0, _⟩ => show win2_3.index t 0 * 4 + 1 * (y 0).val = (y 0).val; rw [e0]; omega
    | ⟨1, _⟩ => show win2_3.index t 1 * 1024 + 1 * (y 1).val = (y 1).val; rw [e1]; omega
  rw [he]
  exact pay2_at cf wT bb _ _ _ (fun b h => (iblk2_0_apply V c t (ix2 b h)).trans (h0 b h))
    (fun h o => (iblk2_1_apply V c t (ix2 h o)).trans (h1 h o)) (fun o => (iblk2_2_apply V c t (ix2 0 o)).trans (h2 o)) y

/-- An index of the result array is in the point's block iff each coordinate is in the block's range. -/
theorem mem_blk2_3 (t : Fin cfg2.N) (i : S4x1024.Idx) :
    i ∈ ((cfg2.win 3).blk t).view.set ↔ ∀ a : Fin 2, win2_3.index t a * S4x1024.size a ≤ (i a).val
      ∧ (i a).val < win2_3.index t a * S4x1024.size a + S4x1024.size a := by
  show i ∈ ((View.whole main_v29).slice (win2_3.rect t)).set ↔ _
  rw [View.set_slice_whole, Rect.mem_set_unit]
  exact Iff.rfl

/-- The one block is the whole result array. -/
theorem cover2_3_all (i : S4x1024.Idx) :
    ∃ t : Fin cfg2.N, (cfg2.win 3).flush t = true ∧ i ∈ ((cfg2.win 3).blk t).view.set := by
  have hN : 0 < cfg2.N := by decide
  refine ⟨⟨0, hN⟩, flush2_3 _, ?_⟩
  obtain ⟨-, -, -, -, -, -, e0, e1⟩ := idx2_all ⟨0, hN⟩
  rw [mem_blk2_3]
  intro a
  match a with
  | ⟨0, _⟩ =>
    show win2_3.index ⟨0, hN⟩ 0 * 4 ≤ (i 0).val ∧ (i 0).val < win2_3.index ⟨0, hN⟩ 0 * 4 + 4
    have hi : (i 0).val < 4 := (i 0).isLt
    rw [e0]; omega
  | ⟨1, _⟩ =>
    show win2_3.index ⟨0, hN⟩ 1 * 1024 ≤ (i 1).val ∧ (i 1).val < win2_3.index ⟨0, hN⟩ 1 * 1024 + 1024
    have hi : (i 1).val < 1024 := (i 1).isLt
    rw [e1]; omega

/-- The result array after the pipeline: the projection of the pooled context, entry by entry. -/
theorem final2_3 (h0 : ∀ b h, (V c main_v28 : S4x1024.Idx → EReal) (ix2 b h) = ((cf b h : ℝ) : EReal))
    (h1 : ∀ h o, (V c main_v7 : S1024x1024.Idx → EReal) (ix2 h o) = ((wT h o : ℝ) : EReal))
    (h2 : ∀ o, (V c main_v11 : S1x1024.Idx → EReal) (ix2 0 o) = ((bb o : ℝ) : EReal)) :
    (dat2 V c).arrAt 3 cfg2.N = fun i =>
      (((∑ h, cf ⟨(i 0).val, (i 0).isLt⟩ h * wT h ⟨(i 1).val, (i 1).isLt⟩) + bb ⟨(i 1).val, (i 1).isLt⟩ : ℝ) : EReal) :=
  (dat2 V c).arrAt_eq_of_cover 3 (projArr2 cf wT bb) (fun t _ => flushed2_3_eq V c cf wT bb h0 h1 h2 t) cover2_3_all

end Cert.KernelIdeal.Val

end
-- ==== Proof.Lift.lean ====
/-
  Real coordinate arrays as index-addressed arrays of finite extended reals.

  An input of the attention block whose every entry is finite is the entrywise coercion of a real
  array given by coordinates: the activations `x[b, l, h]`, a weight matrix `W[o, h]`, a bias `b[o]`.
  `lift3`, `lift2`, `lift1` are those coercions over the literal shapes `[4, 2048, 1024]`,
  `[1024, 1024]`, `[1024]`; at an index built from coordinates they read the real entry.
-/
import Idealize.ShloMosaic.PureOps.Ideal
import Idealize.ShloMosaic.Lib.ValueIdx

noncomputable section

namespace Cert.Attn

open Idealize.ShloMosaic Idealize.ShloMosaic.ValueIdx

/-- The activations `x[b, l, h]` as an array of finite extended reals over `[4, 2048, 1024]`. -/
def lift3 (xr : Fin 4 → Fin 2048 → Fin 1024 → ℝ) : (⟨3, ![4, 2048, 1024]⟩ : Shape).Idx → EReal :=
  fun i => ((xr ⟨(i 0).val, (i 0).isLt⟩ ⟨(i 1).val, (i 1).isLt⟩ ⟨(i 2).val, (i 2).isLt⟩ : ℝ) : EReal)

/-- A weight matrix `W[o, h]` as an array of finite extended reals over `[1024, 1024]`. -/
def lift2 (W : Fin 1024 → Fin 1024 → ℝ) : (⟨2, ![1024, 1024]⟩ : Shape).Idx → EReal :=
  fun i => ((W ⟨(i 0).val, (i 0).isLt⟩ ⟨(i 1).val, (i 1).isLt⟩ : ℝ) : EReal)

/-- A bias `b[o]` as an array of finite extended reals over `[1024]`. -/
def lift1 (bias : Fin 1024 → ℝ) : (⟨1, ![1024]⟩ : Shape).Idx → EReal :=
  fun i => ((bias ⟨(i 0).val, (i 0).isLt⟩ : ℝ) : EReal)

/-- `lift3` at the index of coordinates `(b, l, h)` is the real entry. -/
theorem lift3_ix3 (xr : Fin 4 → Fin 2048 → Fin 1024 → ℝ) (b : Fin 4) (l : Fin 2048) (h : Fin 1024) :
    lift3 xr (ix3 b l h) = ((xr b l h : ℝ) : EReal) := rfl

/-- `lift2` at the index of coordinates `(o, h)` is the real entry. -/
theorem lift2_ix2 (W : Fin 1024 → Fin 1024 → ℝ) (o h : Fin 1024) :
    lift2 W (ix2 o h) = ((W o h : ℝ) : EReal) := rfl

/-- `lift1` at the index of coordinate `o` is the real entry. -/
theorem lift1_ix1 (bias : Fin 1024 → ℝ) (o : Fin 1024) :
    lift1 bias (ix1 o) = ((bias o : ℝ) : EReal) := rfl

/-- `lift3` at any index, by the index's coordinates. -/
theorem lift3_apply (xr : Fin 4 → Fin 2048 → Fin 1024 → ℝ) (i : (⟨3, ![4, 2048, 1024]⟩ : Shape).Idx) :
    lift3 xr i = ((xr ⟨(i 0).val, (i 0).isLt⟩ ⟨(i 1).val, (i 1).isLt⟩ ⟨(i 2).val, (i 2).isLt⟩ : ℝ) : EReal) := rfl

/-- `lift2` at any index, by the index's coordinates. -/
theorem lift2_apply (W : Fin 1024 → Fin 1024 → ℝ) (i : (⟨2, ![1024, 1024]⟩ : Shape).Idx) :
    lift2 W i = ((W ⟨(i 0).val, (i 0).isLt⟩ ⟨(i 1).val, (i 1).isLt⟩ : ℝ) : EReal) := rfl

/-- `lift1` at any index, by the index's coordinate. -/
theorem lift1_apply (bias : Fin 1024 → ℝ) (i : (⟨1, ![1024]⟩ : Shape).Idx) :
    lift1 bias i = ((bias ⟨(i 0).val, (i 0).isLt⟩ : ℝ) : EReal) := rfl

end Cert.Attn

end
-- ==== Proof.KI.Host0.lean ====
/-
  The first stretch of host operations of the kernel program, read at an index on real inputs.

  Before the first pipeline the program lays its inputs out for it: each weight matrix is transposed
  (and rounded to bf16, the identity on extended reals), each bias becomes one row [1, 1024], and the
  activations [4, 2048, 1024] become the matrix [8192, 1024] whose row r is position r % 2048 of
  batch r / 2048.  When the inputs are coercions of reals, each of these buffers reads, at an index
  built from coordinates, the coercion of the real entry.  The transposed output weights and the
  output bias are used only by the last pipeline; nothing in between writes or stages them.
-/
import proofs.«155430_j62354335204093_2_alg».proof.Proof.KI.RunBase
import proofs.«155430_j62354335204093_2_alg».proof.Proof.Lift
import proofs.«155430_j62354335204093_2_alg».proof.Proof.LibIdealCoe
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Attn Cert.IdealCoe
open Finset BigOperators

-- the middle pipeline's half, at any entry contents
variable (R1 : ∀ V : (c : Dev nD) → (b : Ref sig .tc) → Buf (Elt Ideal) ((c : Thread nD τ).loc b), R1Half (F := Ideal) V)
variable (m : (ℓ : Loc nD τ sig) → Buf (Elt Ideal) ℓ) (ρ : Dev nD → PrngReg) (c : Dev nD)

/-! ### The activations as a matrix of rows -/

/-- Buffer `%12`: the activations reshaped to [8192, 1024]. -/
theorem V1_main_v12_eq :
    (V1 m ρ c main_v12 : S8192x1024.Idx → EReal)
      = shapeCast S8192x1024 (m ((c : Thread nD τ).loc main_arg0)) shapeCasts_S4x2048x1024_S8192x1024 := by
  show StableHlo.after hostOps0 (W0 m ρ c) (Proc.devRef .tc main_v12) = _
  after_results
  rfl

/-- At (r, h) it is the activation of batch r / 2048, position r % 2048. -/
theorem V1_main_v12_apply (xr : Fin 4 → Fin 2048 → Fin 1024 → ℝ)
    (hm : m ((c : Thread nD τ).loc main_arg0) = lift3 xr) (r : Fin 8192) (h : Fin 1024) :
    (V1 m ρ c main_v12 : S8192x1024.Idx → EReal) (ix2 r h)
      = ((xr ⟨r.val / 2048, by omega⟩ ⟨r.val % 2048, Nat.mod_lt _ (by norm_num)⟩ h : ℝ) : EReal) := by
  rw [V1_main_v12_eq, hm]
  exact shapeCast_apply (lift3 xr) shapeCasts_S4x2048x1024_S8192x1024 (ix2 r h)
    (ix3 ⟨r.val / 2048, by omega⟩ ⟨r.val % 2048, Nat.mod_lt _ (by norm_num)⟩ h)
    (by rewrite [Shape.rowMajor_val_three, Shape.rowMajor_val_two]
        show (r.val / 2048 * 2048 + r.val % 2048) * 1024 + h.val = r.val * 1024 + h.val
        omega)

/-! ### The transposed weights -/

/-- Buffer `%1`: the transposed q weights, rounded to bf16 (the identity on extended reals). -/
theorem V1_main_v1_eq :
    (V1 m ρ c main_v1 : S1024x1024.Idx → EReal)
      = truncf (F := Ideal) .bf16 (transpose S1024x1024 [1, 0] (m ((c : Thread nD τ).loc main_arg1))
          transposes_S1024x1024_S1024x1024_1_0) bitsLt_bf16_f32 := by
  show StableHlo.after hostOps0 (W0 m ρ c) (Proc.devRef .tc main_v1) = _
  after_results

/-- At (h, o) it is the weight `W[o, h]`. -/
theorem V1_main_v1_apply (W : Fin 1024 → Fin 1024 → ℝ)
    (hm : m ((c : Thread nD τ).loc main_arg1) = lift2 W) (h o : Fin 1024) :
    (V1 m ρ c main_v1 : S1024x1024.Idx → EReal) (ix2 h o) = ((W o h : ℝ) : EReal) := by
  rw [V1_main_v1_eq, hm]
  refine (truncf_apply (φ := .f32) (ψ := .bf16) _ bitsLt_bf16_f32 (ix2 h o)).trans ?_
  exact transpose_apply [1, 0] (lift2 W) transposes_S1024x1024_S1024x1024_1_0 (ix2 h o) (ix2 o h)
    (fun b => match b with | ⟨0, _⟩ => rfl | ⟨1, _⟩ => rfl)

/-- Buffer `%3`: the transposed k weights, rounded to bf16 (the identity on extended reals). -/
theorem V1_main_v3_eq :
    (V1 m ρ c main_v3 : S1024x1024.Idx → EReal)
      = truncf (F := Ideal) .bf16 (transpose S1024x1024 [1, 0] (m ((c : Thread nD τ).loc main_arg3))
          transposes_S1024x1024_S1024x1024_1_0) bitsLt_bf16_f32 := by
  show StableHlo.after hostOps0 (W0 m ρ c) (Proc.devRef .tc main_v3) = _
  after_results

/-- At (h, o) it is the weight `W[o, h]`. -/
theorem V1_main_v3_apply (W : Fin 1024 → Fin 1024 → ℝ)
    (hm : m ((c : Thread nD τ).loc main_arg3) = lift2 W) (h o : Fin 1024) :
    (V1 m ρ c main_v3 : S1024x1024.Idx → EReal) (ix2 h o) = ((W o h : ℝ) : EReal) := by
  rw [V1_main_v3_eq, hm]
  refine (truncf_apply (φ := .f32) (ψ := .bf16) _ bitsLt_bf16_f32 (ix2 h o)).trans ?_
  exact transpose_apply [1, 0] (lift2 W) transposes_S1024x1024_S1024x1024_1_0 (ix2 h o) (ix2 o h)
    (fun b => match b with | ⟨0, _⟩ => rfl | ⟨1, _⟩ => rfl)

/-- Buffer `%5`: the transposed v weights, rounded to bf16 (the identity on extended reals). -/
theorem V1_main_v5_eq :
    (V1 m ρ c main_v5 : S1024x1024.Idx → EReal)
      = truncf (F := Ideal) .bf16 (transpose S1024x1024 [1, 0] (m ((c : Thread nD τ).loc main_arg5))
          transposes_S1024x1024_S1024x1024_1_0) bitsLt_bf16_f32 := by
  show StableHlo.after hostOps0 (W0 m ρ c) (Proc.devRef .tc main_v5) = _
  after_results

/-- At (h, o) it is the weight `W[o, h]`. -/
theorem V1_main_v5_apply (W : Fin 1024 → Fin 1024 → ℝ)
    (hm : m ((c : Thread nD τ).loc main_arg5) = lift2 W) (h o : Fin 1024) :
    (V1 m ρ c main_v5 : S1024x1024.Idx → EReal) (ix2 h o) = ((W o h : ℝ) : EReal) := by
  rw [V1_main_v5_eq, hm]
  refine (truncf_apply (φ := .f32) (ψ := .bf16) _ bitsLt_bf16_f32 (ix2 h o)).trans ?_
  exact transpose_apply [1, 0] (lift2 W) transposes_S1024x1024_S1024x1024_1_0 (ix2 h o) (ix2 o h)
    (fun b => match b with | ⟨0, _⟩ => rfl | ⟨1, _⟩ => rfl)

/-- Buffer `%7`: the transposed output weights, rounded to bf16 (the identity on extended reals). -/
theorem V1_main_v7_eq :
    (V1 m ρ c main_v7 : S1024x1024.Idx → EReal)
      = truncf (F := Ideal) .bf16 (transpose S1024x1024 [1, 0] (m ((c : Thread nD τ).loc main_arg7))
          transposes_S1024x1024_S1024x1024_1_0) bitsLt_bf16_f32 := by
  show StableHlo.after hostOps0 (W0 m ρ c) (Proc.devRef .tc main_v7) = _
  after_results

/-- At (h, o) it is the weight `W[o, h]`. -/
theorem V1_main_v7_apply (W : Fin 1024 → Fin 1024 → ℝ)
    (hm : m ((c : Thread nD τ).loc main_arg7) = lift2 W) (h o : Fin 1024) :
    (V1 m ρ c main_v7 : S1024x1024.Idx → EReal) (ix2 h o) = ((W o h : ℝ) : EReal) := by
  rw [V1_main_v7_eq, hm]
  refine (truncf_apply (φ := .f32) (ψ := .bf16) _ bitsLt_bf16_f32 (ix2 h o)).trans ?_
  exact transpose_apply [1, 0] (lift2 W) transposes_S1024x1024_S1024x1024_1_0 (ix2 h o) (ix2 o h)
    (fun b => match b with | ⟨0, _⟩ => rfl | ⟨1, _⟩ => rfl)

/-! ### The biases as rows -/

/-- Buffer `%8`: the q bias as one row. -/
theorem V1_main_v8_eq :
    (V1 m ρ c main_v8 : S1x1024.Idx → EReal)
      = shapeCast S1x1024 (m ((c : Thread nD τ).loc main_arg2)) shapeCasts_S1024_S1x1024 := by
  show StableHlo.after hostOps0 (W0 m ρ c) (Proc.devRef .tc main_v8) = _
  after_results
  rfl

/-- At (0, o) it is the bias entry `b[o]`. -/
theorem V1_main_v8_apply (bias : Fin 1024 → ℝ)
    (hm : m ((c : Thread nD τ).loc main_arg2) = lift1 bias) (o : Fin 1024) :
    (V1 m ρ c main_v8 : S1x1024.Idx → EReal) (ix2 0 o) = ((bias o : ℝ) : EReal) := by
  rw [V1_main_v8_eq, hm]
  exact shapeCast_apply (lift1 bias) shapeCasts_S1024_S1x1024 (ix2 0 o) (ix1 o)
    (by rewrite [Shape.rowMajor_val_one, Shape.rowMajor_val_two]; show o.val = 0 * 1024 + o.val; omega)

/-- Buffer `%9`: the k bias as one row. -/
theorem V1_main_v9_eq :
    (V1 m ρ c main_v9 : S1x1024.Idx → EReal)
      = shapeCast S1x1024 (m ((c : Thread nD τ).loc main_arg4)) shapeCasts_S1024_S1x1024 := by
  show StableHlo.after hostOps0 (W0 m ρ c) (Proc.devRef .tc main_v9) = _
  after_results
  rfl

/-- At (0, o) it is the bias entry `b[o]`. -/
theorem V1_main_v9_apply (bias : Fin 1024 → ℝ)
    (hm : m ((c : Thread nD τ).loc main_arg4) = lift1 bias) (o : Fin 1024) :
    (V1 m ρ c main_v9 : S1x1024.Idx → EReal) (ix2 0 o) = ((bias o : ℝ) : EReal) := by
  rw [V1_main_v9_eq, hm]
  exact shapeCast_apply (lift1 bias) shapeCasts_S1024_S1x1024 (ix2 0 o) (ix1 o)
    (by rewrite [Shape.rowMajor_val_one, Shape.rowMajor_val_two]; show o.val = 0 * 1024 + o.val; omega)

/-- Buffer `%10`: the v bias as one row. -/
theorem V1_main_v10_eq :
    (V1 m ρ c main_v10 : S1x1024.Idx → EReal)
      = shapeCast S1x1024 (m ((c : Thread nD τ).loc main_arg6)) shapeCasts_S1024_S1x1024 := by
  show StableHlo.after hostOps0 (W0 m ρ c) (Proc.devRef .tc main_v10) = _
  after_results
  rfl

/-- At (0, o) it is the bias entry `b[o]`. -/
theorem V1_main_v10_apply (bias : Fin 1024 → ℝ)
    (hm : m ((c : Thread nD τ).loc main_arg6) = lift1 bias) (o : Fin 1024) :
    (V1 m ρ c main_v10 : S1x1024.Idx → EReal) (ix2 0 o) = ((bias o : ℝ) : EReal) := by
  rw [V1_main_v10_eq, hm]
  exact shapeCast_apply (lift1 bias) shapeCasts_S1024_S1x1024 (ix2 0 o) (ix1 o)
    (by rewrite [Shape.rowMajor_val_one, Shape.rowMajor_val_two]; show o.val = 0 * 1024 + o.val; omega)

/-- Buffer `%11`: the output bias as one row. -/
theorem V1_main_v11_eq :
    (V1 m ρ c main_v11 : S1x1024.Idx → EReal)
      = shapeCast S1x1024 (m ((c : Thread nD τ).loc main_arg8)) shapeCasts_S1024_S1x1024 := by
  show StableHlo.after hostOps0 (W0 m ρ c) (Proc.devRef .tc main_v11) = _
  after_results
  rfl

/-- At (0, o) it is the bias entry `b[o]`. -/
theorem V1_main_v11_apply (bias : Fin 1024 → ℝ)
    (hm : m ((c : Thread nD τ).loc main_arg8) = lift1 bias) (o : Fin 1024) :
    (V1 m ρ c main_v11 : S1x1024.Idx → EReal) (ix2 0 o) = ((bias o : ℝ) : EReal) := by
  rw [V1_main_v11_eq, hm]
  exact shapeCast_apply (lift1 bias) shapeCasts_S1024_S1x1024 (ix2 0 o) (ix1 o)
    (by rewrite [Shape.rowMajor_val_one, Shape.rowMajor_val_two]; show o.val = 0 * 1024 + o.val; omega)

/-! ### The last pipeline's two operands are still there when it is entered -/

/-- Buffer `%7` is not written again and is staged by neither of the first two pipelines: it holds the same
    contents when the last pipeline is entered. -/
theorem V5_main_v7 : V5 R1 m ρ c main_v7 = V1 m ρ c main_v7 :=
  (W5_of R1 m ρ c main_v7 (by decide)).trans <| (W4_of_ne R1 m ρ c main_v7 (by decide)).trans <|
    (W3_of m ρ c main_v7 (by decide)).trans (W2_of_ne m ρ c main_v7 (by decide))

/-- Buffer `%11` is not written again and is staged by neither of the first two pipelines: it holds the same
    contents when the last pipeline is entered. -/
theorem V5_main_v11 : V5 R1 m ρ c main_v11 = V1 m ρ c main_v11 :=
  (W5_of R1 m ρ c main_v11 (by decide)).trans <| (W4_of_ne R1 m ρ c main_v11 (by decide)).trans <|
    (W3_of m ρ c main_v11 (by decide)).trans (W2_of_ne m ρ c main_v11 (by decide))

end Cert.KernelIdeal.Val

end
-- ==== Proof.KI.Host1.lean ====
/-
  The second stretch of host operations of the kernel program, read at an index.

  Between the first and the middle pipeline each of the three projected matrices [8192, 1024] is
  reshaped to [4, 2048, 16, 64] and its head axis is moved in front of the position axis.  Entry
  (b, n, l, d) of the result is therefore row 2048 b + l, column 64 n + d of the matrix, because
  ((b·2048 + l)·16 + n)·64 + d = (2048 b + l)·1024 + (64 n + d).  This holds for any contents.
-/
import proofs.«155430_j62354335204093_2_alg».proof.Proof.KI.RunBase
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Finset BigOperators

-- the middle pipeline's half, at any entry contents
variable (R1 : ∀ V : (c : Dev nD) → (b : Ref sig .tc) → Buf (Elt Ideal) ((c : Thread nD τ).loc b), R1Half (F := Ideal) V)
variable (m : (ℓ : Loc nD τ sig) → Buf (Elt Ideal) ℓ) (ρ : Dev nD → PrngReg) (c : Dev nD)

/-- Buffer `%15`: the q rows split into heads and the head axis moved in front of the positions. -/
theorem V3_main_v15_eq :
    (V3 m ρ c main_v15 : S4x16x2048x64.Idx → EReal)
      = transpose S4x16x2048x64 [0, 2, 1, 3]
          (shapeCast S4x2048x16x64 (W2 m ρ c (Proc.devRef .tc main_v13_0)) shapeCasts_S8192x1024_S4x2048x16x64)
          transposes_S4x2048x16x64_S4x16x2048x64_0_2_1_3 := by
  show StableHlo.after hostOps1 (W2 m ρ c) (Proc.devRef .tc main_v15) = _
  after_results
  rfl

/-- At (b, n, l, d) it is row 2048 b + l, column 64 n + d of the first pipeline's output. -/
theorem V3_main_v15_apply (b : Fin 4) (n : Fin 16) (l : Fin 2048) (d : Fin 64) :
    (V3 m ρ c main_v15 : S4x16x2048x64.Idx → EReal) (ix4 b n l d)
      = (W2 m ρ c (Proc.devRef .tc main_v13_0) : S8192x1024.Idx → EReal)
          (ix2 ⟨2048 * b.val + l.val, by omega⟩ ⟨64 * n.val + d.val, by omega⟩) := by
  rw [V3_main_v15_eq]
  refine (transpose_apply [0, 2, 1, 3] _ transposes_S4x2048x16x64_S4x16x2048x64_0_2_1_3 (ix4 b n l d) (ix4 b l n d)
    (fun a => match a with | ⟨0, _⟩ => rfl | ⟨1, _⟩ => rfl | ⟨2, _⟩ => rfl | ⟨3, _⟩ => rfl)).trans ?_
  exact shapeCast_apply _ shapeCasts_S8192x1024_S4x2048x16x64 (ix4 b l n d)
    (ix2 ⟨2048 * b.val + l.val, by omega⟩ ⟨64 * n.val + d.val, by omega⟩)
    (by have hb := b.isLt; have hl := l.isLt; have hn := n.isLt; have hd := d.isLt
        rewrite [Shape.rowMajor_val_two, Shape.rowMajor_val_four]
        show (2048 * b.val + l.val) * 1024 + (64 * n.val + d.val) = ((b.val * 2048 + l.val) * 16 + n.val) * 64 + d.val
        omega)

/-- Buffer `%17`: the k rows split into heads and the head axis moved in front of the positions. -/
theorem V3_main_v17_eq :
    (V3 m ρ c main_v17 : S4x16x2048x64.Idx → EReal)
      = transpose S4x16x2048x64 [0, 2, 1, 3]
          (shapeCast S4x2048x16x64 (W2 m ρ c (Proc.devRef .tc main_v13_1)) shapeCasts_S8192x1024_S4x2048x16x64)
          transposes_S4x2048x16x64_S4x16x2048x64_0_2_1_3 := by
  show StableHlo.after hostOps1 (W2 m ρ c) (Proc.devRef .tc main_v17) = _
  after_results
  rfl

/-- At (b, n, l, d) it is row 2048 b + l, column 64 n + d of the first pipeline's output. -/
theorem V3_main_v17_apply (b : Fin 4) (n : Fin 16) (l : Fin 2048) (d : Fin 64) :
    (V3 m ρ c main_v17 : S4x16x2048x64.Idx → EReal) (ix4 b n l d)
      = (W2 m ρ c (Proc.devRef .tc main_v13_1) : S8192x1024.Idx → EReal)
          (ix2 ⟨2048 * b.val + l.val, by omega⟩ ⟨64 * n.val + d.val, by omega⟩) := by
  rw [V3_main_v17_eq]
  refine (transpose_apply [0, 2, 1, 3] _ transposes_S4x2048x16x64_S4x16x2048x64_0_2_1_3 (ix4 b n l d) (ix4 b l n d)
    (fun a => match a with | ⟨0, _⟩ => rfl | ⟨1, _⟩ => rfl | ⟨2, _⟩ => rfl | ⟨3, _⟩ => rfl)).trans ?_
  exact shapeCast_apply _ shapeCasts_S8192x1024_S4x2048x16x64 (ix4 b l n d)
    (ix2 ⟨2048 * b.val + l.val, by omega⟩ ⟨64 * n.val + d.val, by omega⟩)
    (by have hb := b.isLt; have hl := l.isLt; have hn := n.isLt; have hd := d.isLt
        rewrite [Shape.rowMajor_val_two, Shape.rowMajor_val_four]
        show (2048 * b.val + l.val) * 1024 + (64 * n.val + d.val) = ((b.val * 2048 + l.val) * 16 + n.val) * 64 + d.val
        omega)

/-- Buffer `%19`: the v rows split into heads and the head axis moved in front of the positions. -/
theorem V3_main_v19_eq :
    (V3 m ρ c main_v19 : S4x16x2048x64.Idx → EReal)
      = transpose S4x16x2048x64 [0, 2, 1, 3]
          (shapeCast S4x2048x16x64 (W2 m ρ c (Proc.devRef .tc main_v13_2)) shapeCasts_S8192x1024_S4x2048x16x64)
          transposes_S4x2048x16x64_S4x16x2048x64_0_2_1_3 := by
  show StableHlo.after hostOps1 (W2 m ρ c) (Proc.devRef .tc main_v19) = _
  after_results
  rfl

/-- At (b, n, l, d) it is row 2048 b + l, column 64 n + d of the first pipeline's output. -/
theorem V3_main_v19_apply (b : Fin 4) (n : Fin 16) (l : Fin 2048) (d : Fin 64) :
    (V3 m ρ c main_v19 : S4x16x2048x64.Idx → EReal) (ix4 b n l d)
      = (W2 m ρ c (Proc.devRef .tc main_v13_2) : S8192x1024.Idx → EReal)
          (ix2 ⟨2048 * b.val + l.val, by omega⟩ ⟨64 * n.val + d.val, by omega⟩) := by
  rw [V3_main_v19_eq]
  refine (transpose_apply [0, 2, 1, 3] _ transposes_S4x2048x16x64_S4x16x2048x64_0_2_1_3 (ix4 b n l d) (ix4 b l n d)
    (fun a => match a with | ⟨0, _⟩ => rfl | ⟨1, _⟩ => rfl | ⟨2, _⟩ => rfl | ⟨3, _⟩ => rfl)).trans ?_
  exact shapeCast_apply _ shapeCasts_S8192x1024_S4x2048x16x64 (ix4 b l n d)
    (ix2 ⟨2048 * b.val + l.val, by omega⟩ ⟨64 * n.val + d.val, by omega⟩)
    (by have hb := b.isLt; have hl := l.isLt; have hn := n.isLt; have hd := d.isLt
        rewrite [Shape.rowMajor_val_two, Shape.rowMajor_val_four]
        show (2048 * b.val + l.val) * 1024 + (64 * n.val + d.val) = ((b.val * 2048 + l.val) * 16 + n.val) * 64 + d.val
        omega)

end Cert.KernelIdeal.Val

end
-- ==== Proof.KI.Host2.lean ====
/-
  The third stretch of host operations of the kernel program, read at an index.

  After the middle pipeline its two outputs are laid out for the results.  The averaged context
  [4, 16, 1, 64] loses its unit axis and its (head, lane) axes are merged into the model index:
  entry (b, h) of the result is entry (b, h / 64, 0, h % 64).  The column sums [4, 16, 1, 2048] lose
  their unit axis, are multiplied by the f32 word of 2⁻¹¹ = 1/2048, summed over the head axis from 0
  and divided by the word of 16: on finite column sums that is the coercion of
  (Σ_n cs[b,n,j] · (1/2048)) / 16.
-/
import proofs.«155430_j62354335204093_2_alg».proof.Proof.KI.RunBase
import proofs.«155430_j62354335204093_2_alg».proof.Proof.Spec
import proofs.«155430_j62354335204093_2_alg».proof.Proof.LibIdealCoe
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Attn Cert.IdealCoe
open Finset BigOperators

-- the middle pipeline's half, at any entry contents
variable (R1 : ∀ V : (c : Dev nD) → (b : Ref sig .tc) → Buf (Elt Ideal) ((c : Thread nD τ).loc b), R1Half (F := Ideal) V)
variable (m : (ℓ : Loc nD τ sig) → Buf (Elt Ideal) ℓ) (ρ : Dev nD → PrngReg) (c : Dev nD)

/-- The f32 word `0x3A000000` denotes 2⁻¹¹ = 1/2048. -/
theorem ofBits_f32_inv2048 : Ideal.ofBits .f32 0x3A000000#32 = ((1 / 2048 : ℝ) : EReal) := by
  simp [Ideal.ofBits, Ideal.ieee]
  rw [← EReal.coe_mul]
  exact congrArg _ (by norm_num)

/-! ### The averaged context, heads merged -/

/-- Buffer `%28`: the middle pipeline's second output without its unit axis, (head, lane) merged. -/
theorem V5_main_v28_eq :
    (V5 R1 m ρ c main_v28 : S4x1024.Idx → EReal)
      = shapeCast S4x1024
          (shapeCast S4x16x64 (W4 R1 m ρ c (Proc.devRef .tc main_v20_1)) shapeCasts_S4x16x1x64_S4x16x64)
          shapeCasts_S4x16x64_S4x1024 := by
  show StableHlo.after hostOps2 (W4 R1 m ρ c) (Proc.devRef .tc main_v28) = _
  after_results
  rfl

/-- At (b, h) it is entry (b, h / 64, 0, h % 64) of that output. -/
theorem V5_main_v28_apply (b : Fin 4) (h : Fin 1024) :
    (V5 R1 m ρ c main_v28 : S4x1024.Idx → EReal) (ix2 b h)
      = (W4 R1 m ρ c (Proc.devRef .tc main_v20_1) : S4x16x1x64.Idx → EReal) (ix4 b (hdN h) 0 (hdD h)) := by
  have hb := b.isLt; have hh := h.isLt
  rw [V5_main_v28_eq]
  refine (shapeCast_apply _ shapeCasts_S4x16x64_S4x1024 (ix2 b h) (ix3 b (hdN h) (hdD h))
    (by rewrite [Shape.rowMajor_val_three, Shape.rowMajor_val_two]
        show (b.val * 16 + h.val / 64) * 64 + h.val % 64 = b.val * 1024 + h.val
        omega)).trans ?_
  exact shapeCast_apply _ shapeCasts_S4x16x1x64_S4x16x64 (ix3 b (hdN h) (hdD h)) (ix4 b (hdN h) 0 (hdD h))
    (by rewrite [Shape.rowMajor_val_four, Shape.rowMajor_val_three]
        show ((b.val * 16 + h.val / 64) * 1 + 0) * 64 + h.val % 64 = (b.val * 16 + h.val / 64) * 64 + h.val % 64
        omega)

/-! ### The attention weights -/

/-- Buffer `%27`: the column sums scaled by the word of 2⁻¹¹, summed over the heads from 0, divided by the word of 16. -/
theorem W5_main_v27_eq :
    (W5 R1 m ρ c (Proc.devRef .tc main_v27) : S4x2048.Idx → EReal)
      = Host.divf (F := Ideal)
          (Host.reduceAdd (F := Ideal)
            (mulf (F := Ideal)
              (shapeCast S4x16x2048 (W4 R1 m ρ c (Proc.devRef .tc main_v20_0)) shapeCasts_S4x16x1x2048_S4x16x2048)
              (broadcastInDim S4x16x2048 ![] bcast_S_S4x16x2048 (constant (F := Ideal) S_ .f32 0x3A000000#32)))
            (constant (F := Ideal) S_ .f32 0x00000000#32) reducesTo_S4x16x2048_S4x2048_d1 h_S_)
          (broadcastInDim S4x2048 ![] bcast_S_S4x2048 (constant (F := Ideal) S_ .f32 0x41800000#32)) := by
  show StableHlo.after hostOps2 (W4 R1 m ρ c) (Proc.devRef .tc main_v27) = _
  after_results
  rfl

/-- The tail of the weights on any array of finite column sums: scaled by the word of 2⁻¹¹, summed over the
    heads from 0, divided by the word of 16, at (b, j) it is the coercion of (Σ_n cs[b,n,j] · (1/2048)) / 16. -/
theorem weights_tail_apply (A0 : FVec Ideal S4x16x1x2048 .f32) (cs : Fin 4 → Fin 16 → Fin 2048 → ℝ)
    (hA : ∀ (b : Fin 4) (n : Fin 16) (j : Fin 2048), A0 (ix4 b n 0 j) = ((cs b n j : ℝ) : EReal))
    (b : Fin 4) (j : Fin 2048) :
    Host.divf (F := Ideal)
        (Host.reduceAdd (F := Ideal)
          (mulf (F := Ideal) (shapeCast S4x16x2048 A0 shapeCasts_S4x16x1x2048_S4x16x2048)
            (broadcastInDim S4x16x2048 ![] bcast_S_S4x16x2048 (constant (F := Ideal) S_ .f32 0x3A000000#32)))
          (constant (F := Ideal) S_ .f32 0x00000000#32) reducesTo_S4x16x2048_S4x2048_d1 h_S_)
        (broadcastInDim S4x2048 ![] bcast_S_S4x2048 (constant (F := Ideal) S_ .f32 0x41800000#32)) (ix2 b j)
      = (((∑ n, cs b n j * (1 / 2048)) / 16 : ℝ) : EReal) := by
  have hb := b.isLt; have hj := j.isLt
  have e : ∀ k : Fin 16,
      mulf (F := Ideal) (shapeCast S4x16x2048 A0 shapeCasts_S4x16x1x2048_S4x16x2048)
          (broadcastInDim S4x16x2048 ![] bcast_S_S4x16x2048 (constant (F := Ideal) S_ .f32 0x3A000000#32))
          (ix3 b k j)
        = ((cs b k j * (1 / 2048) : ℝ) : EReal) := fun k => by
    have hk := k.isLt
    show shapeCast S4x16x2048 A0 shapeCasts_S4x16x1x2048_S4x16x2048 (ix3 b k j) * Ideal.ofBits .f32 0x3A000000#32 = _
    rw [shapeCast_apply A0 shapeCasts_S4x16x1x2048_S4x16x2048 (ix3 b k j) (ix4 b k 0 j)
      (by rewrite [Shape.rowMajor_val_four, Shape.rowMajor_val_three]
          show ((b.val * 16 + k.val) * 1 + 0) * 2048 + j.val = (b.val * 16 + k.val) * 2048 + j.val
          omega), hA, ofBits_f32_inv2048, EReal.coe_mul]
  generalize mulf (F := Ideal) (shapeCast S4x16x2048 A0 shapeCasts_S4x16x1x2048_S4x16x2048)
      (broadcastInDim S4x16x2048 ![] bcast_S_S4x16x2048 (constant (F := Ideal) S_ .f32 0x3A000000#32)) = M at e ⊢
  have h : S4x16x2048.Reduces [1] S4x2048 := by decide
  show Ideal.div (Host.reduceAdd (F := Ideal) M (constant (F := Ideal) S_ .f32 0x00000000#32)
      reducesTo_S4x16x2048_S4x2048_d1 h_S_ (ix2 b j)) (Ideal.ofBits .f32 0x41800000#32) = _
  rw [hostReduceAdd_apply, Ideal.hostReduceAdd_single reducesTo_S4x16x2048_S4x2048_d1 h]
  show Ideal.div (Ideal.ofBits .f32 0x00000000#32 + ∑ k : Fin 16, M (h.lift (ix2 b j) k))
    (Ideal.ofBits .f32 0x41800000#32) = _
  have es : ∀ k : Fin 16, M (h.lift (ix2 b j) k) = ((cs b k j * (1 / 2048) : ℝ) : EReal) := fun k =>
    (congrArg M (funext fun a => Fin.ext (by
      match a with | ⟨0, _⟩ => rfl | ⟨1, _⟩ => rfl | ⟨2, _⟩ => rfl))).trans (e k)
  rw [Finset.sum_congr rfl (fun k _ => es k), coe_sum, Ideal.ofBits_zero_f32, zero_add, ofBits_f32_16,
    div_coe_coe _ _ (by norm_num)]

/-- On finite column sums `cs`, at (b, j) buffer `%27` is the coercion of (Σ_n cs[b,n,j] · (1/2048)) / 16. -/
theorem W5_main_v27_apply (cs : Fin 4 → Fin 16 → Fin 2048 → ℝ)
    (hA : ∀ (b : Fin 4) (n : Fin 16) (j : Fin 2048),
      (W4 R1 m ρ c (Proc.devRef .tc main_v20_0) : S4x16x1x2048.Idx → EReal) (ix4 b n 0 j) = ((cs b n j : ℝ) : EReal))
    (b : Fin 4) (j : Fin 2048) :
    (W5 R1 m ρ c (Proc.devRef .tc main_v27) : S4x2048.Idx → EReal) (ix2 b j)
      = (((∑ n, cs b n j * (1 / 2048)) / 16 : ℝ) : EReal) := by
  rw [W5_main_v27_eq]
  exact weights_tail_apply (W4 R1 m ρ c (Proc.devRef .tc main_v20_0)) cs hA b j

end Cert.KernelIdeal.Val

end
-- ==== Proof.LiftOut.lean ====
/-
  A real table given by two coordinates as an array of finite extended reals.

  The two results of the attention block, the pooled output `[4, 1024]` and the attention weights
  `[4, 2048]`, are rank-2 arrays; `liftOut2 f` is the entrywise coercion of a real table `f a b`
  over the literal shape `[n0, n1]`, read at an index built from coordinates as the real entry.
-/
import Idealize.ShloMosaic.PureOps.Ideal
import Idealize.ShloMosaic.Lib.ValueIdx

noncomputable section

namespace Cert.Attn

open Idealize.ShloMosaic Idealize.ShloMosaic.ValueIdx

/-- A real table `f a b` as an array of finite extended reals over `[n0, n1]`. -/
def liftOut2 {n0 n1 : Nat} (f : Fin n0 → Fin n1 → ℝ) : (⟨2, ![n0, n1]⟩ : Shape).Idx → EReal :=
  fun i => ((f ⟨(i 0).val, idx2_lt0 i⟩ ⟨(i 1).val, idx2_lt1 i⟩ : ℝ) : EReal)

/-- `liftOut2` at the index of coordinates `(a, b)` is the real entry. -/
theorem liftOut2_ix2 {n0 n1 : Nat} (f : Fin n0 → Fin n1 → ℝ) (a : Fin n0) (b : Fin n1) :
    liftOut2 f (ix2 a b) = ((f a b : ℝ) : EReal) := rfl

/-- Two arrays over `[n0, n1]` that agree at every index built from coordinates are equal. -/
theorem ext_ix2 {α : Type*} {n0 n1 : Nat} (u v : (⟨2, ![n0, n1]⟩ : Shape).Idx → α)
    (h : ∀ (a : Fin n0) (b : Fin n1), u (ix2 a b) = v (ix2 a b)) : u = v := by
  funext i
  exact (congrArg u (eq_ix2 i)).trans ((h _ _).trans (congrArg v (eq_ix2 i)).symm)

end Cert.Attn

end
-- ==== Proof.KI.KernelIsSpec.lean ====
/-
  The kernel program's two results, as whole arrays, are the coercions of the pooled real tables.

  The inputs are coercions of reals.  The first pipeline writes the three projections x·Wᵀ + bias as
  matrices [8192, 1024]; the host operations split them into heads, and entry (b, n, l, d) is the real
  projection, because row 2048 b + l is position l of batch b.  The middle pipeline turns them into the
  column sums of the softmax weights and the context averaged over the query positions.  The last host
  operations scale the column sums by 1/2048 and average them over the heads — the attention weights —
  and merge the heads of the averaged context, to which the last pipeline applies the output projection
  once — the pooled output.
-/
import proofs.«155430_j62354335204093_2_alg».proof.Proof.KI.RunBase
import proofs.«155430_j62354335204093_2_alg».proof.Proof.KI.BodyR1
import proofs.«155430_j62354335204093_2_alg».proof.Proof.KI.Final0
import proofs.«155430_j62354335204093_2_alg».proof.Proof.KI.FinalR1
import proofs.«155430_j62354335204093_2_alg».proof.Proof.KI.Final2
import proofs.«155430_j62354335204093_2_alg».proof.Proof.KI.Host0
import proofs.«155430_j62354335204093_2_alg».proof.Proof.KI.Host1
import proofs.«155430_j62354335204093_2_alg».proof.Proof.KI.Host2
import proofs.«155430_j62354335204093_2_alg».proof.Proof.Spec
import proofs.«155430_j62354335204093_2_alg».proof.Proof.Lift
import proofs.«155430_j62354335204093_2_alg».proof.Proof.LiftOut

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Attn
open Finset BigOperators

/-- The middle pipeline's half of the run, at any entry contents. -/
abbrev R1i : ∀ V : (c : Dev nD) → (b : Ref sig .tc) → Buf (Elt Ideal) ((c : Thread nD τ).loc b), R1Half (F := Ideal) V :=
  fun V => r1Half V

/-- Row 2048 b + l of the activations' matrix is position l of batch b. -/
theorem xr_row (xr : Fin 4 → Fin 2048 → Fin 1024 → ℝ) (b : Fin 4) (l : Fin 2048)
    (p1 : (2048 * b.val + l.val) / 2048 < 4) (p2 : (2048 * b.val + l.val) % 2048 < 2048) :
    xr ⟨(2048 * b.val + l.val) / 2048, p1⟩ ⟨(2048 * b.val + l.val) % 2048, p2⟩ = xr b l := by
  have hl := l.isLt
  have h1 : (⟨(2048 * b.val + l.val) / 2048, p1⟩ : Fin 4) = b := Fin.ext (by show (2048 * b.val + l.val) / 2048 = b.val; omega)
  have h2 : (⟨(2048 * b.val + l.val) % 2048, p2⟩ : Fin 2048) = l := Fin.ext (by show (2048 * b.val + l.val) % 2048 = l.val; omega)
  rw [h1, h2]

variable (m : (ℓ : Loc nD τ sig) → Buf (Elt Ideal) ℓ) (ρ : Dev nD → PrngReg) (c : Dev nD)
variable (xr : Fin 4 → Fin 2048 → Fin 1024 → ℝ) (Wq Wk Wv Wo : Fin 1024 → Fin 1024 → ℝ) (bq bk bv bo : Fin 1024 → ℝ)

/-! ### The three projections, split into heads -/

/-- The query projection as the middle pipeline finds it: at (b, n, l, d) the coercion of the real projection. -/
theorem q_arr (hm0 : m ((c : Thread nD τ).loc main_arg0) = lift3 xr) (hm1 : m ((c : Thread nD τ).loc main_arg1) = lift2 Wq) (hm2 : m ((c : Thread nD τ).loc main_arg2) = lift1 bq)
    (b : Fin 4) (n : Fin 16) (l : Fin 2048) (d : Fin 64) :
    (V3 m ρ c main_v15 : S4x16x2048x64.Idx → EReal) (ix4 b n l d) = ((proj xr Wq bq b n l d : ℝ) : EReal) := by
  have e : (W2 m ρ c (Proc.devRef .tc main_v13_0) : S8192x1024.Idx → EReal) = _ :=
    (W2_arr m ρ c 7).trans (final0_7 (V1 m ρ) c
      (fun r h => xr ⟨r.val / 2048, by omega⟩ ⟨r.val % 2048, Nat.mod_lt _ (by norm_num)⟩ h) (fun h o => Wq o h) bq
      (fun r h => V1_main_v12_apply m ρ c xr hm0 r h) (fun h o => V1_main_v1_apply m ρ c Wq hm1 h o)
      (fun o => V1_main_v8_apply m ρ c bq hm2 o))
  rw [V3_main_v15_apply m ρ c b n l d, e]
  have hb := b.isLt; have hl := l.isLt
  show ((((∑ h, xr ⟨(2048 * b.val + l.val) / 2048, by omega⟩ ⟨(2048 * b.val + l.val) % 2048, by omega⟩ h * Wq (hd n d) h)
    + bq (hd n d) : ℝ)) : EReal) = _
  rw [xr_row xr b l]
  rfl

/-- The key projection as the middle pipeline finds it: at (b, n, l, d) the coercion of the real projection. -/
theorem k_arr (hm0 : m ((c : Thread nD τ).loc main_arg0) = lift3 xr) (hm3 : m ((c : Thread nD τ).loc main_arg3) = lift2 Wk) (hm4 : m ((c : Thread nD τ).loc main_arg4) = lift1 bk)
    (b : Fin 4) (n : Fin 16) (l : Fin 2048) (d : Fin 64) :
    (V3 m ρ c main_v17 : S4x16x2048x64.Idx → EReal) (ix4 b n l d) = ((proj xr Wk bk b n l d : ℝ) : EReal) := by
  have e : (W2 m ρ c (Proc.devRef .tc main_v13_1) : S8192x1024.Idx → EReal) = _ :=
    (W2_arr m ρ c 8).trans (final0_8 (V1 m ρ) c
      (fun r h => xr ⟨r.val / 2048, by omega⟩ ⟨r.val % 2048, Nat.mod_lt _ (by norm_num)⟩ h) (fun h o => Wk o h) bk
      (fun r h => V1_main_v12_apply m ρ c xr hm0 r h) (fun h o => V1_main_v3_apply m ρ c Wk hm3 h o)
      (fun o => V1_main_v9_apply m ρ c bk hm4 o))
  rw [V3_main_v17_apply m ρ c b n l d, e]
  have hb := b.isLt; have hl := l.isLt
  show ((((∑ h, xr ⟨(2048 * b.val + l.val) / 2048, by omega⟩ ⟨(2048 * b.val + l.val) % 2048, by omega⟩ h * Wk (hd n d) h)
    + bk (hd n d) : ℝ)) : EReal) = _
  rw [xr_row xr b l]
  rfl

/-- The value projection as the middle pipeline finds it: at (b, n, l, d) the coercion of the real projection. -/
theorem v_arr (hm0 : m ((c : Thread nD τ).loc main_arg0) = lift3 xr) (hm5 : m ((c : Thread nD τ).loc main_arg5) = lift2 Wv) (hm6 : m ((c : Thread nD τ).loc main_arg6) = lift1 bv)
    (b : Fin 4) (n : Fin 16) (l : Fin 2048) (d : Fin 64) :
    (V3 m ρ c main_v19 : S4x16x2048x64.Idx → EReal) (ix4 b n l d) = ((proj xr Wv bv b n l d : ℝ) : EReal) := by
  have e : (W2 m ρ c (Proc.devRef .tc main_v13_2) : S8192x1024.Idx → EReal) = _ :=
    (W2_arr m ρ c 9).trans (final0_9 (V1 m ρ) c
      (fun r h => xr ⟨r.val / 2048, by omega⟩ ⟨r.val % 2048, Nat.mod_lt _ (by norm_num)⟩ h) (fun h o => Wv o h) bv
      (fun r h => V1_main_v12_apply m ρ c xr hm0 r h) (fun h o => V1_main_v5_apply m ρ c Wv hm5 h o)
      (fun o => V1_main_v10_apply m ρ c bv hm6 o))
  rw [V3_main_v19_apply m ρ c b n l d, e]
  have hb := b.isLt; have hl := l.isLt
  show ((((∑ h, xr ⟨(2048 * b.val + l.val) / 2048, by omega⟩ ⟨(2048 * b.val + l.val) % 2048, by omega⟩ h * Wv (hd n d) h)
    + bv (hd n d) : ℝ)) : EReal) = _
  rw [xr_row xr b l]
  rfl

/-! ### The middle pipeline's two outputs -/

/-- The column sums of the softmax weights, as the middle pipeline leaves them. -/
theorem colsum_arr (hm0 : m ((c : Thread nD τ).loc main_arg0) = lift3 xr) (hm1 : m ((c : Thread nD τ).loc main_arg1) = lift2 Wq) (hm2 : m ((c : Thread nD τ).loc main_arg2) = lift1 bq)
    (hm3 : m ((c : Thread nD τ).loc main_arg3) = lift2 Wk) (hm4 : m ((c : Thread nD τ).loc main_arg4) = lift1 bk) :
    (W4 R1i m ρ c (Proc.devRef .tc main_v20_0) : S4x16x1x2048.Idx → EReal)
      = G3 (proj xr Wq bq) (proj xr Wk bk) :=
  (W4_arr R1i m ρ c 3).trans (final1_3 (V3 m ρ) c (proj xr Wq bq) (proj xr Wk bk)
    (q_arr m ρ c xr Wq bq hm0 hm1 hm2) (k_arr m ρ c xr Wk bk hm0 hm3 hm4))

/-- The context averaged over the query positions, as the middle pipeline leaves it. -/
theorem ctxmean_arr (hm0 : m ((c : Thread nD τ).loc main_arg0) = lift3 xr) (hm1 : m ((c : Thread nD τ).loc main_arg1) = lift2 Wq) (hm2 : m ((c : Thread nD τ).loc main_arg2) = lift1 bq)
    (hm3 : m ((c : Thread nD τ).loc main_arg3) = lift2 Wk) (hm4 : m ((c : Thread nD τ).loc main_arg4) = lift1 bk) (hm5 : m ((c : Thread nD τ).loc main_arg5) = lift2 Wv) (hm6 : m ((c : Thread nD τ).loc main_arg6) = lift1 bv) :
    (W4 R1i m ρ c (Proc.devRef .tc main_v20_1) : S4x16x1x64.Idx → EReal)
      = G4 (proj xr Wq bq) (proj xr Wk bk) (proj xr Wv bv) :=
  (W4_arr R1i m ρ c 4).trans (final1_4 (V3 m ρ) c (proj xr Wq bq) (proj xr Wk bk) (proj xr Wv bv)
    (q_arr m ρ c xr Wq bq hm0 hm1 hm2) (k_arr m ρ c xr Wk bk hm0 hm3 hm4) (v_arr m ρ c xr Wv bv hm0 hm5 hm6))

/-! ### The two results -/

/-- THE ATTENTION WEIGHTS the kernel program returns are the coercion of the pooled real table. -/
theorem kernel_weights_array (hm0 : m ((c : Thread nD τ).loc main_arg0) = lift3 xr) (hm1 : m ((c : Thread nD τ).loc main_arg1) = lift2 Wq) (hm2 : m ((c : Thread nD τ).loc main_arg2) = lift1 bq)
    (hm3 : m ((c : Thread nD τ).loc main_arg3) = lift2 Wk) (hm4 : m ((c : Thread nD τ).loc main_arg4) = lift1 bk) :
    (W6 R1i m ρ c (Proc.devRef .tc main_v27) : S4x2048.Idx → EReal)
      = liftOut2 (weightsK (proj xr Wq bq) (proj xr Wk bk)) := by
  refine ext_ix2 _ _ fun b j => ?_
  rw [W6_main_v27 R1i m ρ c,
    W5_main_v27_apply R1i m ρ c (colsumK (proj xr Wq bq) (proj xr Wk bk))
      (fun b n j => by rw [colsum_arr m ρ c xr Wq Wk bq bk hm0 hm1 hm2 hm3 hm4]; rfl) b j]
  rfl

/-- THE POOLED OUTPUT the kernel program returns is the coercion of the pooled real table. -/
theorem kernel_pooled_array (hm0 : m ((c : Thread nD τ).loc main_arg0) = lift3 xr) (hm1 : m ((c : Thread nD τ).loc main_arg1) = lift2 Wq) (hm2 : m ((c : Thread nD τ).loc main_arg2) = lift1 bq)
    (hm3 : m ((c : Thread nD τ).loc main_arg3) = lift2 Wk) (hm4 : m ((c : Thread nD τ).loc main_arg4) = lift1 bk) (hm5 : m ((c : Thread nD τ).loc main_arg5) = lift2 Wv) (hm6 : m ((c : Thread nD τ).loc main_arg6) = lift1 bv)
    (hm7 : m ((c : Thread nD τ).loc main_arg7) = lift2 Wo) (hm8 : m ((c : Thread nD τ).loc main_arg8) = lift1 bo) :
    (W6 R1i m ρ c (Proc.devRef .tc main_v29) : S4x1024.Idx → EReal)
      = liftOut2 (pooledK (proj xr Wq bq) (proj xr Wk bk) (proj xr Wv bv) Wo bo) := by
  have h28 : ∀ (b : Fin 4) (h : Fin 1024), (V5 R1i m ρ c main_v28 : S4x1024.Idx → EReal) (ix2 b h)
      = ((ctxmeanK (proj xr Wq bq) (proj xr Wk bk) (proj xr Wv bv) b (hdN h) (hdD h) : ℝ) : EReal) := fun b h => by
    rw [V5_main_v28_apply R1i m ρ c b h, ctxmean_arr m ρ c xr Wq Wk Wv bq bk bv hm0 hm1 hm2 hm3 hm4 hm5 hm6]
    rfl
  have h7 : ∀ h o : Fin 1024, (V5 R1i m ρ c main_v7 : S1024x1024.Idx → EReal) (ix2 h o) = ((Wo o h : ℝ) : EReal) :=
    fun h o => by rw [V5_main_v7 R1i m ρ c]; exact V1_main_v7_apply m ρ c Wo hm7 h o
  have h11 : ∀ o : Fin 1024, (V5 R1i m ρ c main_v11 : S1x1024.Idx → EReal) (ix2 0 o) = ((bo o : ℝ) : EReal) :=
    fun o => by rw [V5_main_v11 R1i m ρ c]; exact V1_main_v11_apply m ρ c bo hm8 o
  refine ext_ix2 _ _ fun b o => ?_
  rw [W6_main_v29 R1i m ρ c,
    final2_3 (V5 R1i m ρ) c (fun b h => ctxmeanK (proj xr Wq bq) (proj xr Wk bk) (proj xr Wv bv) b (hdN h) (hdD h))
      (fun h o => Wo o h) bo h28 h7 h11]
  rfl

end Cert.KernelIdeal.Val

end
-- ==== Proof.LibMeanCommute.lean ====
/-
  Means commute with linear maps, over arbitrary finite index types and an arbitrary field.

  Two facts about finite sums in a field `K`.

  * `mean_mean_comm`: averaging a doubly indexed family first over one index and then over the
    other gives the same value in either order, with the two divisors carried as scalars
    (no hypothesis on them: only commutativity of the two sums and of the multiplication is used).
  * `mean_affine_comm`: an affine map `x ↦ Σ_h x_h · W_h + β` whose argument is itself a
    weighted sum `x_h = Σ_j a_{h,l,j} · v_{h,j}` depending on a position `l` may be averaged over
    the positions before or after it is applied: the mean of the images is the image of the family
    in which the weights `a` have been averaged over `l` first.  The divisor has to be the number
    of positions and nonzero (the constant `β` is summed once per position).
-/
import Mathlib.Algebra.BigOperators.Field
import Mathlib.Algebra.BigOperators.Ring.Finset
import Mathlib.Algebra.BigOperators.Group.Finset.Sigma
import Mathlib.Tactic.Ring

namespace Cert.MeanCommute

open Finset BigOperators

variable {K : Type*} [Field K]

/-- Two nested averages of a doubly indexed family may be taken in either order:
    `(Σ_i (Σ_n f n i) / a) / c = (Σ_n (Σ_i f n i) · (1/c)) / a`. -/
theorem mean_mean_comm {ι κ : Type*} [Fintype ι] [Fintype κ] (f : κ → ι → K) (a c : K) :
    (∑ i, (∑ n, f n i) / a) / c = (∑ n, (∑ i, f n i) * (1 / c)) / a := by
  rw [← Finset.sum_div, ← Finset.sum_mul, Finset.sum_comm]
  ring

/-- Pulling a common right factor out of an inner sum, under an outer sum:
    `Σ_j Σ_l a l j · v j = Σ_j (Σ_l a l j) · v j`. -/
theorem sum_sum_mul_right {ι τ : Type*} [Fintype ι] [Fintype τ] (a : ι → τ → K) (v : τ → K) :
    ∑ l, ∑ j, a l j * v j = ∑ j, (∑ l, a l j) * v j := by
  rw [Finset.sum_comm]
  exact Finset.sum_congr rfl fun j _ => (Finset.sum_mul _ _ _).symm

/-- The mean over positions `l` of an affine image of a weighted sum is the affine image of the
    sum whose weights were averaged over `l` first:
    `(Σ_l (Σ_h (Σ_j a h l j · v h j) · W h + β)) / c
       = Σ_h (Σ_j ((Σ_l a h l j) · (1/c)) · v h j) · W h + β`
    when `c` is the (nonzero) number of positions. -/
theorem mean_affine_comm {ι κ τ : Type*} [Fintype ι] [Fintype κ] [Fintype τ]
    (a : κ → ι → τ → K) (v : κ → τ → K) (W : κ → K) (β c : K)
    (hc : (Fintype.card ι : K) = c) (hc0 : c ≠ 0) :
    (∑ l, ((∑ h, (∑ j, a h l j * v h j) * W h) + β)) / c
      = (∑ h, (∑ j, ((∑ l, a h l j) * (1 / c)) * v h j) * W h) + β := by
  rw [Finset.sum_add_distrib, Finset.sum_const, Finset.card_univ, nsmul_eq_mul, hc, add_div,
    mul_div_cancel_left₀ _ hc0]
  congr 1
  rw [Finset.sum_comm, Finset.sum_div]
  refine Finset.sum_congr rfl fun h _ => ?_
  rw [← Finset.sum_mul, sum_sum_mul_right]
  have e : ∀ j, ((∑ l, a h l j) * (1 / c)) * v h j = ((∑ l, a h l j) * v h j) * (1 / c) :=
    fun j => by ring
  simp only [e, ← Finset.sum_mul]
  ring

end Cert.MeanCommute
-- ==== Proof.SpecAlgebra.lean ====
/-
  The direct and the pooled spelling of the two attention results agree on the reals.

  * The scale: `√64 = 8`, so dividing a score by `√64` is multiplying each `q` entry by `1/8`;
    the two score tables are equal, hence so are their row maxima and the exponentials.
  * A softmax weight `e / Σ e` is `(1 / Σ e) · e`.
  * The attention weights: the mean over the heads and the mean over the query positions are two
    nested averages of one doubly indexed family and commute.
  * The pooled output: the mean over the positions of an affine image (the output projection) of a
    weighted sum (attention times `v`) is the affine image of the sum whose weights were averaged
    over the positions first; the divisor `2048` is the number of positions.
-/
import proofs.«155430_j62354335204093_2_alg».proof.Proof.Spec
import proofs.«155430_j62354335204093_2_alg».proof.Proof.LibMeanCommute

noncomputable section

namespace Cert.Attn

open Finset BigOperators

theorem sqrt_sixtyfour : Real.sqrt 64 = 8 := by
  rw [show (64 : ℝ) = 8 ^ 2 by norm_num]
  exact Real.sqrt_sq (by norm_num)

section Heads

variable (q k v : Fin 4 → Fin 16 → Fin 2048 → Fin 64 → ℝ)

/-- Dividing the score by `√64` is scaling `q` by `1/8`. -/
theorem scoreR_eq_scoreK : scoreR q k = scoreK q k := by
  funext b n i j
  simp only [scoreR, scoreK, sqrt_sixtyfour]
  rw [Finset.sum_div]
  exact Finset.sum_congr rfl fun d _ => by ring

theorem expR_eq_expK : expR q k = expK q k := by
  funext b n i j
  simp only [expR, expK, scoreR_eq_scoreK]

/-- A softmax weight with its normaliser as a reciprocal factor. -/
theorem attnR_eq (b : Fin 4) (n : Fin 16) (i j : Fin 2048) :
    attnR q k b n i j = (1 / ∑ j', expK q k b n i j') * expK q k b n i j := by
  simp only [attnR, expR_eq_expK]
  ring

theorem weights_eq : weightsR q k = weightsK q k := by
  funext b j
  simp only [weightsR, weightsK, colsumK, attnR_eq]
  exact Cert.MeanCommute.mean_mean_comm
    (fun (n : Fin 16) (i : Fin 2048) => (1 / ∑ j', expK q k b n i j') * expK q k b n i j) 16 2048

theorem pooled_eq (Wo : Fin 1024 → Fin 1024 → ℝ) (bo : Fin 1024 → ℝ) :
    pooledR q k v Wo bo = pooledK q k v Wo bo := by
  funext b o
  simp only [pooledR, pooledK, ctxR, ctxmeanK, colsumK, attnR_eq]
  exact Cert.MeanCommute.mean_affine_comm
    (fun (h : Fin 1024) (l j : Fin 2048) =>
      (1 / ∑ j', expK q k b (hdN h) l j') * expK q k b (hdN h) l j)
    (fun (h : Fin 1024) (j : Fin 2048) => v b (hdN h) j (hdD h)) (fun h => Wo o h) (bo o) 2048
    (by simp) (by norm_num)

end Heads

end Cert.Attn

end
-- ==== Proof.RefProj.lean ====
/-
  The reference's three head projections, read at coordinates.

  Each of q, k, v is computed by the same six operations: the product of the activations with a
  weight matrix contracted over the model index, the bias broadcast over batch and position and
  added, the model index split as (head, lane) = (h / 64, h % 64), and head and position swapped.
  The source of (b, n, l, d) under the transposition is (b, l, n, d), and the source of that under
  the reshape is (b, l, 64 n + d), because ((b·2048 + l)·16 + n)·64 + d = (b·2048 + l)·1024 + (64 n + d).
  At coordinates (b, n, l, d) the result is therefore the entry (b, l, 64 n + d) of x·Wᵀ + bias;
  when the inputs are coercions of reals, it is the coercion of the real number `proj … b n l d`.
-/
import proofs.«155430_j62354335204093_2_alg».proof.Proof.Gen.ReferenceIdeal.Read
import proofs.«155430_j62354335204093_2_alg».proof.Proof.Spec
import proofs.«155430_j62354335204093_2_alg».proof.Proof.Lift
import proofs.«155430_j62354335204093_2_alg».proof.Proof.LibIdealCoe

noncomputable section

namespace Cert.ReferenceIdeal.RefValue

open Cert.ReferenceIdeal Cert.ReferenceIdeal.Gen Cert.ReferenceIdeal.Read
open Idealize.ShloMosaic Idealize.ShloMosaic.ValueIdx
open Cert.Attn Cert.IdealCoe
open Finset BigOperators

variable (xr : Fin 4 → Fin 2048 → Fin 1024 → ℝ) (W : Fin 1024 → Fin 1024 → ℝ) (bias : Fin 1024 → ℝ)

/-! ### The q projection -/

theorem idx_swap_q (b : Fin 4) (n : Fin 16) (l : Fin 2048) (d : Fin 64) :
    idx_main_v5 (ix4 b n l d) = ix4 b l n d := by
  funext a; match a with | ⟨0, _⟩ => rfl | ⟨1, _⟩ => rfl | ⟨2, _⟩ => rfl | ⟨3, _⟩ => rfl

theorem idx_merge_q (b : Fin 4) (l : Fin 2048) (n : Fin 16) (d : Fin 64) :
    idx_main_v4 (ix4 b l n d) = ix3 b l (hd n d) := by
  have hb := b.isLt; have hl := l.isLt; have hn := n.isLt; have hd' := d.isLt
  funext a
  apply Fin.ext
  match a with
  | ⟨0, _⟩ => show (((b.val * 2048 + l.val) * 16 + n.val) * 64 + d.val) / 2097152 = b.val; omega
  | ⟨1, _⟩ => show (((b.val * 2048 + l.val) * 16 + n.val) * 64 + d.val) / 1024 % 2048 = l.val; omega
  | ⟨2, _⟩ => show (((b.val * 2048 + l.val) * 16 + n.val) * 64 + d.val) % 1024 = 64 * n.val + d.val; omega

/-- The q projection at (b, n, l, d) is the coercion of the real projection. -/
theorem ref_q (b : Fin 4) (n : Fin 16) (l : Fin 2048) (d : Fin 64) :
    val_main_v5 (F := Ideal) (lift3 xr) (lift2 W) (lift1 bias) (ix4 b n l d)
      = ((proj xr W bias b n l d : ℝ) : EReal) := by
  rw [val_main_v5_apply, idx_swap_q, val_main_v4_apply, idx_merge_q, val_main_v3_apply,
    val_main_v0_apply, val_main_v2_apply, val_main_v1_apply, Ideal.addf_def]
  have e : ∀ k : Fin 1024,
      lift3 xr (lidx_main_v0 (ix3 b l (hd n d)) k) * lift2 W (ridx_main_v0 (ix3 b l (hd n d)) k)
        = ((xr b l k * W (hd n d) k : ℝ) : EReal) := fun k => (EReal.coe_mul _ _).symm
  rw [Finset.sum_congr rfl (fun k _ => e k), coe_sum]
  exact (EReal.coe_add _ _).symm

/-! ### The k projection -/

theorem idx_swap_k (b : Fin 4) (n : Fin 16) (l : Fin 2048) (d : Fin 64) :
    idx_main_v11 (ix4 b n l d) = ix4 b l n d := by
  funext a; match a with | ⟨0, _⟩ => rfl | ⟨1, _⟩ => rfl | ⟨2, _⟩ => rfl | ⟨3, _⟩ => rfl

theorem idx_merge_k (b : Fin 4) (l : Fin 2048) (n : Fin 16) (d : Fin 64) :
    idx_main_v10 (ix4 b l n d) = ix3 b l (hd n d) := by
  have hb := b.isLt; have hl := l.isLt; have hn := n.isLt; have hd' := d.isLt
  funext a
  apply Fin.ext
  match a with
  | ⟨0, _⟩ => show (((b.val * 2048 + l.val) * 16 + n.val) * 64 + d.val) / 2097152 = b.val; omega
  | ⟨1, _⟩ => show (((b.val * 2048 + l.val) * 16 + n.val) * 64 + d.val) / 1024 % 2048 = l.val; omega
  | ⟨2, _⟩ => show (((b.val * 2048 + l.val) * 16 + n.val) * 64 + d.val) % 1024 = 64 * n.val + d.val; omega

/-- The k projection at (b, n, l, d) is the coercion of the real projection. -/
theorem ref_k (b : Fin 4) (n : Fin 16) (l : Fin 2048) (d : Fin 64) :
    val_main_v11 (F := Ideal) (lift3 xr) (lift2 W) (lift1 bias) (ix4 b n l d)
      = ((proj xr W bias b n l d : ℝ) : EReal) := by
  rw [val_main_v11_apply, idx_swap_k, val_main_v10_apply, idx_merge_k, val_main_v9_apply,
    val_main_v6_apply, val_main_v8_apply, val_main_v7_apply, Ideal.addf_def]
  have e : ∀ k : Fin 1024,
      lift3 xr (lidx_main_v6 (ix3 b l (hd n d)) k) * lift2 W (ridx_main_v6 (ix3 b l (hd n d)) k)
        = ((xr b l k * W (hd n d) k : ℝ) : EReal) := fun k => (EReal.coe_mul _ _).symm
  rw [Finset.sum_congr rfl (fun k _ => e k), coe_sum]
  exact (EReal.coe_add _ _).symm

/-! ### The v projection -/

theorem idx_swap_v (b : Fin 4) (n : Fin 16) (l : Fin 2048) (d : Fin 64) :
    idx_main_v17 (ix4 b n l d) = ix4 b l n d := by
  funext a; match a with | ⟨0, _⟩ => rfl | ⟨1, _⟩ => rfl | ⟨2, _⟩ => rfl | ⟨3, _⟩ => rfl

theorem idx_merge_v (b : Fin 4) (l : Fin 2048) (n : Fin 16) (d : Fin 64) :
    idx_main_v16 (ix4 b l n d) = ix3 b l (hd n d) := by
  have hb := b.isLt; have hl := l.isLt; have hn := n.isLt; have hd' := d.isLt
  funext a
  apply Fin.ext
  match a with
  | ⟨0, _⟩ => show (((b.val * 2048 + l.val) * 16 + n.val) * 64 + d.val) / 2097152 = b.val; omega
  | ⟨1, _⟩ => show (((b.val * 2048 + l.val) * 16 + n.val) * 64 + d.val) / 1024 % 2048 = l.val; omega
  | ⟨2, _⟩ => show (((b.val * 2048 + l.val) * 16 + n.val) * 64 + d.val) % 1024 = 64 * n.val + d.val; omega

/-- The v projection at (b, n, l, d) is the coercion of the real projection. -/
theorem ref_v (b : Fin 4) (n : Fin 16) (l : Fin 2048) (d : Fin 64) :
    val_main_v17 (F := Ideal) (lift3 xr) (lift2 W) (lift1 bias) (ix4 b n l d)
      = ((proj xr W bias b n l d : ℝ) : EReal) := by
  rw [val_main_v17_apply, idx_swap_v, val_main_v16_apply, idx_merge_v, val_main_v15_apply,
    val_main_v12_apply, val_main_v14_apply, val_main_v13_apply, Ideal.addf_def]
  have e : ∀ k : Fin 1024,
      lift3 xr (lidx_main_v12 (ix3 b l (hd n d)) k) * lift2 W (ridx_main_v12 (ix3 b l (hd n d)) k)
        = ((xr b l k * W (hd n d) k : ℝ) : EReal) := fun k => (EReal.coe_mul _ _).symm
  rw [Finset.sum_congr rfl (fun k _ => e k), coe_sum]
  exact (EReal.coe_add _ _).symm

end Cert.ReferenceIdeal.RefValue

end
-- ==== Proof.RefSoftmax.lean ====
/-
  The reference's softmax, read at coordinates.

  With q and k the coercions of the real projections: the score at (b, n, i, j) is the coercion of
  (Σ_d q[i,d] k[j,d]) / √64 (the divisor is the square root of the f32 word of 64, a nonzero real);
  the row maximum, a reduction by max from -∞ over the last axis followed by one more max with -∞,
  is the coercion of the largest score of the row; subtracting it and exponentiating stays finite;
  the row sum from 0 is the coercion of the real row sum, which is positive, so the quotient is the
  coercion of the real softmax weight.
-/
import proofs.«155430_j62354335204093_2_alg».proof.Proof.Gen.ReferenceIdeal.Read
import proofs.«155430_j62354335204093_2_alg».proof.Proof.Spec
import proofs.«155430_j62354335204093_2_alg».proof.Proof.Lift
import proofs.«155430_j62354335204093_2_alg».proof.Proof.LibIdealCoe
import proofs.«155430_j62354335204093_2_alg».proof.Proof.LibReduceExtremum
import proofs.«155430_j62354335204093_2_alg».proof.Proof.RefProj

noncomputable section

namespace Cert.ReferenceIdeal.RefValue

open Cert.ReferenceIdeal Cert.ReferenceIdeal.Gen Cert.ReferenceIdeal.Read
open Idealize.ShloMosaic Idealize.ShloMosaic.ValueIdx
open Cert.Attn Cert.IdealCoe
open Finset BigOperators

open Idealize.ShloMosaic.ReduceExtremum

variable (xr : Fin 4 → Fin 2048 → Fin 1024 → ℝ) (Wq Wk : Fin 1024 → Fin 1024 → ℝ) (bq bk : Fin 1024 → ℝ)

/-! ### Scores -/

theorem lidx_v19 (b : Fin 4) (n : Fin 16) (i j : Fin 2048) (k : Fin 64) :
    lidx_main_v19 (ix4 b n i j) k = ix4 b n i k := by
  funext a; match a with | ⟨0, _⟩ => rfl | ⟨1, _⟩ => rfl | ⟨2, _⟩ => rfl | ⟨3, _⟩ => rfl

theorem ridx_v19 (b : Fin 4) (n : Fin 16) (i j : Fin 2048) (k : Fin 64) :
    ridx_main_v19 (ix4 b n i j) k = ix4 b n j k := by
  funext a; match a with | ⟨0, _⟩ => rfl | ⟨1, _⟩ => rfl | ⟨2, _⟩ => rfl | ⟨3, _⟩ => rfl

/-- The product q·kᵀ at (b, n, i, j): the sum over the 64 lanes. -/
theorem ref_qk (b : Fin 4) (n : Fin 16) (i j : Fin 2048) :
    val_main_v19 (F := Ideal) (lift3 xr) (lift2 Wq) (lift1 bq) (lift2 Wk) (lift1 bk) (ix4 b n i j)
      = ((∑ d, proj xr Wq bq b n i d * proj xr Wk bk b n j d : ℝ) : EReal) := by
  rw [val_main_v19_apply]
  have e : ∀ k : Fin 64,
      val_main_v5 (F := Ideal) (lift3 xr) (lift2 Wq) (lift1 bq) (lidx_main_v19 (ix4 b n i j) k)
        * val_main_v11 (F := Ideal) (lift3 xr) (lift2 Wk) (lift1 bk) (ridx_main_v19 (ix4 b n i j) k)
        = ((proj xr Wq bq b n i k * proj xr Wk bk b n j k : ℝ) : EReal) := fun k => by
    rw [lidx_v19, ridx_v19, ref_q, ref_k, EReal.coe_mul]
  rw [Finset.sum_congr rfl (fun k _ => e k), coe_sum]

/-- The scale: the square root of the f32 word of 64, broadcast. -/
theorem ref_scale (i : S4x16x2048x2048.Idx) :
    val_main_v20 (F := Ideal) i = ((Real.sqrt 64 : ℝ) : EReal) := by
  rw [val_main_v20_apply, val_main_v18_apply, val_main_cst_apply, Ideal.hostUnary_sqrt_def, Ideal.ofBits_def,
    ofBits_f32_64, sqrt_coe_of_nonneg _ (by norm_num)]

/-- The score at (b, n, i, j). -/
theorem ref_score (b : Fin 4) (n : Fin 16) (i j : Fin 2048) :
    val_main_v21 (F := Ideal) (lift3 xr) (lift2 Wq) (lift1 bq) (lift2 Wk) (lift1 bk) (ix4 b n i j)
      = ((scoreR (proj xr Wq bq) (proj xr Wk bk) b n i j : ℝ) : EReal) := by
  rw [val_main_v21_apply, ref_qk, ref_scale, Ideal.hostDivf_def,
    div_coe_coe _ _ (Real.sqrt_ne_zero'.2 (by norm_num))]
  rfl

/-! ### The row maximum -/

/-- The reduction by max from -∞ over the last axis at (b, n, i): the largest score of the row. -/
theorem ref_rowmax_reduce (b : Fin 4) (n : Fin 16) (i : Fin 2048) :
    val_main_v22 (F := Ideal) (lift3 xr) (lift2 Wq) (lift1 bq) (lift2 Wk) (lift1 bk) (ix3 b n i)
      = ((rowMax (scoreR (proj xr Wq bq) (proj xr Wk bk) b n i) : ℝ) : EReal) := by
  have h : S4x16x2048x2048.Reduces [3] S4x16x2048 := by decide
  have hinit : val_main_cst_0 (F := Ideal) (Shape.Idx.first h_S_) = ⊥ := by
    rw [val_main_cst_0_apply, Ideal.ofBits_def, ofBits_f32_negInf]
  unfold val_main_v22
  rw [hostReduce_max_single (φ := .f32) (val_main_v21 (F := Ideal) (lift3 xr) (lift2 Wq) (lift1 bq) (lift2 Wk) (lift1 bk))
    (val_main_cst_0 (F := Ideal)) reducesTo_S4x16x2048x2048_S4x16x2048_d3 h h_S_ hinit (ix3 b n i)]
  show (⨆ k : Fin 2048, val_main_v21 (F := Ideal) (lift3 xr) (lift2 Wq) (lift1 bq) (lift2 Wk) (lift1 bk) (h.lift (ix3 b n i) k)) = _
  have e : ∀ k : Fin 2048, val_main_v21 (F := Ideal) (lift3 xr) (lift2 Wq) (lift1 bq) (lift2 Wk) (lift1 bk) (h.lift (ix3 b n i) k)
      = ((scoreR (proj xr Wq bq) (proj xr Wk bk) b n i k : ℝ) : EReal) := fun k => by
    rw [lift_last4 h (ix3 b n i) k]
    exact ref_score xr Wq Wk bq bk b n i k
  simp only [e]
  exact iSup_coe _

/-- One more max with a broadcast -∞ changes nothing. -/
theorem ref_rowmax (b : Fin 4) (n : Fin 16) (i : Fin 2048) :
    val_main_v24 (F := Ideal) (lift3 xr) (lift2 Wq) (lift1 bq) (lift2 Wk) (lift1 bk) (ix3 b n i)
      = ((rowMax (scoreR (proj xr Wq bq) (proj xr Wk bk) b n i) : ℝ) : EReal) := by
  rw [val_main_v24_apply, val_main_v23_apply, val_main_cst_1_apply, ref_rowmax_reduce, Ideal.maximumf_def,
    Ideal.ofBits_def, ofBits_f32_negInf]
  exact max_bot_left' _

/-! ### Exponentials, row sums, weights -/

theorem idx_keep_v26 (b : Fin 4) (n : Fin 16) (i j : Fin 2048) :
    idx_main_v25 (idx_main_v26 (ix4 b n i j)) = ix3 b n i := by
  funext a; match a with | ⟨0, _⟩ => rfl | ⟨1, _⟩ => rfl | ⟨2, _⟩ => rfl

/-- exp (score - row max) at (b, n, i, j). -/
theorem ref_exp (b : Fin 4) (n : Fin 16) (i j : Fin 2048) :
    val_main_v28 (F := Ideal) (lift3 xr) (lift2 Wq) (lift1 bq) (lift2 Wk) (lift1 bk) (ix4 b n i j)
      = ((expR (proj xr Wq bq) (proj xr Wk bk) b n i j : ℝ) : EReal) := by
  rw [val_main_v28_apply, val_main_v27_apply, val_main_v26_apply, val_main_v25_apply, idx_keep_v26, ref_score,
    ref_rowmax, Ideal.hostUnary_exp_def, Ideal.subf_def, ← EReal.coe_sub, Ideal.exp_coe]
  rfl

theorem idx_v29 (b : Fin 4) (n : Fin 16) (i : Fin 2048) (k : Fin 2048) :
    idx_main_v29 (ix3 b n i) k = ix4 b n i k := by
  funext a; match a with | ⟨0, _⟩ => rfl | ⟨1, _⟩ => rfl | ⟨2, _⟩ => rfl | ⟨3, _⟩ => rfl

/-- The row sum from 0 at (b, n, i). -/
theorem ref_rowsum (b : Fin 4) (n : Fin 16) (i : Fin 2048) :
    val_main_v29 (F := Ideal) (lift3 xr) (lift2 Wq) (lift1 bq) (lift2 Wk) (lift1 bk) (ix3 b n i)
      = ((∑ j, expR (proj xr Wq bq) (proj xr Wk bk) b n i j : ℝ) : EReal) := by
  rw [val_main_v29_apply, val_main_cst_2_apply, Ideal.ofBits_def, Ideal.ofBits_zero_f32, zero_add]
  have e : ∀ k : Fin 2048, val_main_v28 (F := Ideal) (lift3 xr) (lift2 Wq) (lift1 bq) (lift2 Wk) (lift1 bk) (idx_main_v29 (ix3 b n i) k)
      = ((expR (proj xr Wq bq) (proj xr Wk bk) b n i k : ℝ) : EReal) := fun k => by
    rw [idx_v29]; exact ref_exp xr Wq Wk bq bk b n i k
  rw [Finset.sum_congr rfl (fun k _ => e k), coe_sum]

/-- A row sum of exponentials is positive. -/
theorem rowsum_pos (q k : Fin 4 → Fin 16 → Fin 2048 → Fin 64 → ℝ) (b : Fin 4) (n : Fin 16) (i : Fin 2048) :
    0 < ∑ j, expR q k b n i j :=
  Finset.sum_pos (fun j _ => Real.exp_pos _) Finset.univ_nonempty

theorem idx_keep_v31 (b : Fin 4) (n : Fin 16) (i j : Fin 2048) :
    idx_main_v30 (idx_main_v31 (ix4 b n i j)) = ix3 b n i := by
  funext a; match a with | ⟨0, _⟩ => rfl | ⟨1, _⟩ => rfl | ⟨2, _⟩ => rfl

/-- The softmax weight at (b, n, i, j). -/
theorem ref_attn (b : Fin 4) (n : Fin 16) (i j : Fin 2048) :
    val_main_v32 (F := Ideal) (lift3 xr) (lift2 Wq) (lift1 bq) (lift2 Wk) (lift1 bk) (ix4 b n i j)
      = ((attnR (proj xr Wq bq) (proj xr Wk bk) b n i j : ℝ) : EReal) := by
  rw [val_main_v32_apply, val_main_v31_apply, val_main_v30_apply, idx_keep_v31, ref_exp, ref_rowsum,
    Ideal.hostDivf_def, div_coe_coe _ _ (rowsum_pos _ _ b n i).ne']
  rfl

end Cert.ReferenceIdeal.RefValue

end
-- ==== Proof.RefIsSpec.lean ====
/-
  The reference's two results, read at coordinates, are the coercions of the direct real formulas.

  With the inputs coercions of reals and q, k, v the real projections:
  the context at (b, n, i, d) is the coercion of Σ_j attn[i,j] v[j,d]; swapping position and head back
  and merging (head, lane) into the model index h reads it at (b, l, h / 64, h % 64), because
  (b·2048 + l)·1024 + h = ((b·2048 + l)·16 + h / 64)·64 + h % 64; the output projection and its bias
  give the coercion of Σ_h ctx·Wo[o,h] + bo[o]; the sum over the positions from 0 divided by the f32
  word of 2048 is the coercion of the mean.  For the weights, the sum over the 16 heads from 0
  divided by the word of 16 and then the sum over the query positions divided by the word of 2048
  are the coercions of the two nested means.
-/
import proofs.«155430_j62354335204093_2_alg».proof.Proof.Gen.ReferenceIdeal.Read
import proofs.«155430_j62354335204093_2_alg».proof.Proof.Spec
import proofs.«155430_j62354335204093_2_alg».proof.Proof.Lift
import proofs.«155430_j62354335204093_2_alg».proof.Proof.LibIdealCoe
import proofs.«155430_j62354335204093_2_alg».proof.Proof.RefProj
import proofs.«155430_j62354335204093_2_alg».proof.Proof.RefSoftmax

noncomputable section

namespace Cert.ReferenceIdeal.RefValue

open Cert.ReferenceIdeal Cert.ReferenceIdeal.Gen Cert.ReferenceIdeal.Read
open Idealize.ShloMosaic Idealize.ShloMosaic.ValueIdx
open Cert.Attn Cert.IdealCoe
open Finset BigOperators

variable (xr : Fin 4 → Fin 2048 → Fin 1024 → ℝ) (Wq Wk Wv Wo : Fin 1024 → Fin 1024 → ℝ)
  (bq bk bv bo : Fin 1024 → ℝ)

/-! ### The context -/

theorem lidx_v33 (b : Fin 4) (n : Fin 16) (i : Fin 2048) (d : Fin 64) (k : Fin 2048) :
    lidx_main_v33 (ix4 b n i d) k = ix4 b n i k := by
  funext a; match a with | ⟨0, _⟩ => rfl | ⟨1, _⟩ => rfl | ⟨2, _⟩ => rfl | ⟨3, _⟩ => rfl

theorem ridx_v33 (b : Fin 4) (n : Fin 16) (i : Fin 2048) (d : Fin 64) (k : Fin 2048) :
    ridx_main_v33 (ix4 b n i d) k = ix4 b n k d := by
  funext a; match a with | ⟨0, _⟩ => rfl | ⟨1, _⟩ => rfl | ⟨2, _⟩ => rfl | ⟨3, _⟩ => rfl

/-- The context at (b, n, i, d): the weights of row i against column d of v. -/
theorem ref_ctx (b : Fin 4) (n : Fin 16) (i : Fin 2048) (d : Fin 64) :
    val_main_v33 (F := Ideal) (lift3 xr) (lift2 Wq) (lift1 bq) (lift2 Wk) (lift1 bk) (lift2 Wv) (lift1 bv) (ix4 b n i d)
      = ((ctxR (proj xr Wq bq) (proj xr Wk bk) (proj xr Wv bv) b n i d : ℝ) : EReal) := by
  rw [val_main_v33_apply]
  have e : ∀ k : Fin 2048,
      val_main_v32 (F := Ideal) (lift3 xr) (lift2 Wq) (lift1 bq) (lift2 Wk) (lift1 bk) (lidx_main_v33 (ix4 b n i d) k)
        * val_main_v17 (F := Ideal) (lift3 xr) (lift2 Wv) (lift1 bv) (ridx_main_v33 (ix4 b n i d) k)
        = ((attnR (proj xr Wq bq) (proj xr Wk bk) b n i k * proj xr Wv bv b n k d : ℝ) : EReal) := fun k => by
    rw [lidx_v33, ridx_v33, ref_attn, ref_v, EReal.coe_mul]
  rw [Finset.sum_congr rfl (fun k _ => e k), coe_sum]
  rfl

theorem idx_swap_v34 (b : Fin 4) (l : Fin 2048) (n : Fin 16) (d : Fin 64) :
    idx_main_v34 (ix4 b l n d) = ix4 b n l d := by
  funext a; match a with | ⟨0, _⟩ => rfl | ⟨1, _⟩ => rfl | ⟨2, _⟩ => rfl | ⟨3, _⟩ => rfl

/-- Splitting the model index: the source of (b, l, h) under the reshape is (b, l, h / 64, h % 64). -/
theorem idx_split_v35 (b : Fin 4) (l : Fin 2048) (h : Fin 1024) :
    idx_main_v35 (ix3 b l h) = ix4 b l (hdN h) (hdD h) := by
  have hb := b.isLt; have hl := l.isLt; have hh := h.isLt
  funext a
  apply Fin.ext
  match a with
  | ⟨0, _⟩ => show ((b.val * 2048 + l.val) * 1024 + h.val) / 2097152 = b.val; omega
  | ⟨1, _⟩ => show ((b.val * 2048 + l.val) * 1024 + h.val) / 1024 % 2048 = l.val; omega
  | ⟨2, _⟩ => show ((b.val * 2048 + l.val) * 1024 + h.val) / 64 % 16 = h.val / 64; omega
  | ⟨3, _⟩ => show ((b.val * 2048 + l.val) * 1024 + h.val) % 64 = h.val % 64; omega

/-- The context with the heads merged, at (b, l, h). -/
theorem ref_ctx_merged (b : Fin 4) (l : Fin 2048) (h : Fin 1024) :
    val_main_v35 (F := Ideal) (lift3 xr) (lift2 Wq) (lift1 bq) (lift2 Wk) (lift1 bk) (lift2 Wv) (lift1 bv) (ix3 b l h)
      = ((ctxR (proj xr Wq bq) (proj xr Wk bk) (proj xr Wv bv) b (hdN h) l (hdD h) : ℝ) : EReal) := by
  rw [val_main_v35_apply, idx_split_v35, val_main_v34_apply, idx_swap_v34, ref_ctx]

/-! ### The output projection and its mean over the positions -/

theorem lidx_v36 (b : Fin 4) (l : Fin 2048) (o k : Fin 1024) :
    lidx_main_v36 (ix3 b l o) k = ix3 b l k := by
  funext a; match a with | ⟨0, _⟩ => rfl | ⟨1, _⟩ => rfl | ⟨2, _⟩ => rfl

/-- The projected output at (b, l, o). -/
theorem ref_out (b : Fin 4) (l : Fin 2048) (o : Fin 1024) :
    val_main_v39 (F := Ideal) (lift3 xr) (lift2 Wq) (lift1 bq) (lift2 Wk) (lift1 bk) (lift2 Wv) (lift1 bv) (lift2 Wo) (lift1 bo) (ix3 b l o)
      = (((∑ h, ctxR (proj xr Wq bq) (proj xr Wk bk) (proj xr Wv bv) b (hdN h) l (hdD h) * Wo o h) + bo o : ℝ) : EReal) := by
  rw [val_main_v39_apply, val_main_v36_apply, val_main_v38_apply, val_main_v37_apply, Ideal.addf_def]
  have e : ∀ k : Fin 1024,
      val_main_v35 (F := Ideal) (lift3 xr) (lift2 Wq) (lift1 bq) (lift2 Wk) (lift1 bk) (lift2 Wv) (lift1 bv) (lidx_main_v36 (ix3 b l o) k) * lift2 Wo (ridx_main_v36 (ix3 b l o) k)
        = ((ctxR (proj xr Wq bq) (proj xr Wk bk) (proj xr Wv bv) b (hdN k) l (hdD k) * Wo o k : ℝ) : EReal) := fun k => by
    rw [lidx_v36, ref_ctx_merged]
    exact (EReal.coe_mul _ _).symm
  rw [Finset.sum_congr rfl (fun k _ => e k), coe_sum]
  exact (EReal.coe_add _ _).symm

theorem idx_v40 (b : Fin 4) (o : Fin 1024) (k : Fin 2048) : idx_main_v40 (ix2 b o) k = ix3 b k o := by
  funext a; match a with | ⟨0, _⟩ => rfl | ⟨1, _⟩ => rfl | ⟨2, _⟩ => rfl

/-- THE POOLED OUTPUT of the reference at (b, o) is the coercion of the direct real formula. -/
theorem ref_pooled (b : Fin 4) (o : Fin 1024) :
    val_main_v42 (F := Ideal) (lift3 xr) (lift2 Wq) (lift1 bq) (lift2 Wk) (lift1 bk) (lift2 Wv) (lift1 bv) (lift2 Wo) (lift1 bo) (ix2 b o)
      = ((pooledR (proj xr Wq bq) (proj xr Wk bk) (proj xr Wv bv) Wo bo b o : ℝ) : EReal) := by
  rw [val_main_v42_apply, val_main_v40_apply, val_main_v41_apply, val_main_cst_3_apply, val_main_cst_4_apply]
  simp only [Ideal.ofBits_def, Ideal.ofBits_zero_f32, ofBits_f32_2048, zero_add, Ideal.hostDivf_def]
  have e : ∀ k : Fin 2048, val_main_v39 (F := Ideal) (lift3 xr) (lift2 Wq) (lift1 bq) (lift2 Wk) (lift1 bk) (lift2 Wv) (lift1 bv) (lift2 Wo) (lift1 bo) (idx_main_v40 (ix2 b o) k)
      = (((∑ h, ctxR (proj xr Wq bq) (proj xr Wk bk) (proj xr Wv bv) b (hdN h) k (hdD h) * Wo o h) + bo o : ℝ) : EReal) := fun k => by
    rw [idx_v40]; exact ref_out xr Wq Wk Wv Wo bq bk bv bo b k o
  rw [Finset.sum_congr rfl (fun k _ => e k), coe_sum, div_coe_coe _ _ (by norm_num)]
  rfl

/-! ### The attention weights: the mean over the heads, then over the query positions -/

theorem idx_v43 (b : Fin 4) (i j : Fin 2048) (k : Fin 16) : idx_main_v43 (ix3 b i j) k = ix4 b k i j := by
  funext a; match a with | ⟨0, _⟩ => rfl | ⟨1, _⟩ => rfl | ⟨2, _⟩ => rfl | ⟨3, _⟩ => rfl

/-- The mean over the heads at (b, i, j). -/
theorem ref_headmean (b : Fin 4) (i j : Fin 2048) :
    val_main_v45 (F := Ideal) (lift3 xr) (lift2 Wq) (lift1 bq) (lift2 Wk) (lift1 bk) (ix3 b i j)
      = (((∑ n, attnR (proj xr Wq bq) (proj xr Wk bk) b n i j) / 16 : ℝ) : EReal) := by
  rw [val_main_v45_apply, val_main_v43_apply, val_main_v44_apply, val_main_cst_5_apply, val_main_cst_6_apply]
  simp only [Ideal.ofBits_def, Ideal.ofBits_zero_f32, ofBits_f32_16, zero_add, Ideal.hostDivf_def]
  have e : ∀ k : Fin 16, val_main_v32 (F := Ideal) (lift3 xr) (lift2 Wq) (lift1 bq) (lift2 Wk) (lift1 bk) (idx_main_v43 (ix3 b i j) k)
      = ((attnR (proj xr Wq bq) (proj xr Wk bk) b k i j : ℝ) : EReal) := fun k => by
    rw [idx_v43]; exact ref_attn xr Wq Wk bq bk b k i j
  rw [Finset.sum_congr rfl (fun k _ => e k), coe_sum, div_coe_coe _ _ (by norm_num)]

theorem idx_v46 (b : Fin 4) (j : Fin 2048) (k : Fin 2048) : idx_main_v46 (ix2 b j) k = ix3 b k j := by
  funext a; match a with | ⟨0, _⟩ => rfl | ⟨1, _⟩ => rfl | ⟨2, _⟩ => rfl

/-- THE ATTENTION WEIGHTS of the reference at (b, j) are the coercion of the direct real formula. -/
theorem ref_weights (b : Fin 4) (j : Fin 2048) :
    val_main_v48 (F := Ideal) (lift3 xr) (lift2 Wq) (lift1 bq) (lift2 Wk) (lift1 bk) (ix2 b j)
      = ((weightsR (proj xr Wq bq) (proj xr Wk bk) b j : ℝ) : EReal) := by
  rw [val_main_v48_apply, val_main_v46_apply, val_main_v47_apply, val_main_cst_7_apply, val_main_cst_8_apply]
  simp only [Ideal.ofBits_def, Ideal.ofBits_zero_f32, ofBits_f32_2048, zero_add, Ideal.hostDivf_def]
  have e : ∀ k : Fin 2048, val_main_v45 (F := Ideal) (lift3 xr) (lift2 Wq) (lift1 bq) (lift2 Wk) (lift1 bk) (idx_main_v46 (ix2 b j) k)
      = (((∑ n, attnR (proj xr Wq bq) (proj xr Wk bk) b n k j) / 16 : ℝ) : EReal) := fun k => by
    rw [idx_v46]; exact ref_headmean xr Wq Wk bq bk b k j
  rw [Finset.sum_congr rfl (fun k _ => e k), coe_sum, div_coe_coe _ _ (by norm_num)]
  rfl

end Cert.ReferenceIdeal.RefValue

end
-- ==== Proof.RefResult.lean ====
/-
  The reference's two results as whole arrays, in the pooled spelling.

  At every index the pooled output is the coercion of the direct real formula, which equals the
  pooled one (a mean over positions commutes with the product with v and with the output
  projection); likewise the attention weights (the two means commute).  Two arrays that agree at
  every index built from coordinates are equal, so each result IS the entrywise coercion of the
  pooled real table.
-/
import proofs.«155430_j62354335204093_2_alg».proof.Proof.Gen.ReferenceIdeal.Read
import proofs.«155430_j62354335204093_2_alg».proof.Proof.Spec
import proofs.«155430_j62354335204093_2_alg».proof.Proof.SpecAlgebra
import proofs.«155430_j62354335204093_2_alg».proof.Proof.Lift
import proofs.«155430_j62354335204093_2_alg».proof.Proof.LiftOut
import proofs.«155430_j62354335204093_2_alg».proof.Proof.RefIsSpec

noncomputable section

namespace Cert.ReferenceIdeal.RefValue

open Cert.ReferenceIdeal Cert.ReferenceIdeal.Gen Cert.ReferenceIdeal.Read
open Idealize.ShloMosaic Idealize.ShloMosaic.ValueIdx
open Cert.Attn Cert.IdealCoe
open Finset BigOperators

variable (xr : Fin 4 → Fin 2048 → Fin 1024 → ℝ) (Wq Wk Wv Wo : Fin 1024 → Fin 1024 → ℝ)
  (bq bk bv bo : Fin 1024 → ℝ)

/-- The reference's pooled output is the coercion of the pooled real table. -/
theorem ref_pooled_array :
    val_main_v42 (F := Ideal) (lift3 xr) (lift2 Wq) (lift1 bq) (lift2 Wk) (lift1 bk) (lift2 Wv) (lift1 bv) (lift2 Wo) (lift1 bo)
      = liftOut2 (pooledK (proj xr Wq bq) (proj xr Wk bk) (proj xr Wv bv) Wo bo) := by
  refine ext_ix2 _ _ fun b o => ?_
  rw [ref_pooled, pooled_eq]
  rfl

/-- The reference's attention weights are the coercion of the pooled real table. -/
theorem ref_weights_array :
    val_main_v48 (F := Ideal) (lift3 xr) (lift2 Wq) (lift1 bq) (lift2 Wk) (lift1 bk)
      = liftOut2 (weightsK (proj xr Wq bq) (proj xr Wk bk)) := by
  refine ext_ix2 _ _ fun b j => ?_
  rw [ref_weights, weights_eq]
  rfl

end Cert.ReferenceIdeal.RefValue

end
-- ==== Proof.Finite.lean ====
/-
  From the printed finiteness precondition to real witnesses of the nine inputs.

  The precondition is the conjunction, over the nine input arrays, of "every entry has absolute value
  below +∞" (the f32 word `0x7F800000`): each conjunct is a reduction by `and` of the comparison
  `|x| < +∞` over all axes, from the constant 1.  An extended real whose absolute value is below +∞
  is neither -∞ nor +∞, so it is the coercion of a real.  Choosing that real at every index gives a
  real coordinate array whose entrywise coercion is the input.
-/
import proofs.«155430_j62354335204093_2_alg».proof.Pre_finite_inputs
import proofs.«155430_j62354335204093_2_alg».proof.Proof.Lift
import Idealize.ShloMosaic.Lib.ReduceAll
import Idealize.ShloMosaic.Lib.ValueIdx
import Idealize.ShloMosaic.PureOps.Ideal.Laws

noncomputable section

namespace Cert.Attn

open Idealize.ShloMosaic Idealize.ShloMosaic.ValueIdx
open Cert.Pre_finite_inputs

/-- An extended real whose absolute value `max x (-x)` compares below the f32 word of +∞ is finite. -/
theorem real_of_abs_lt_posInf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array over `[4, 2048, 1024]` of finite entries is the coercion of a real coordinate array. -/
theorem exists_lift3 (a : (⟨3, ![4, 2048, 1024]⟩ : Shape).Idx → EReal) (h : ∀ i, ∃ r : ℝ, a i = (r : EReal)) :
    ∃ xr : Fin 4 → Fin 2048 → Fin 1024 → ℝ, a = lift3 xr := by
  choose f hf using h
  refine ⟨fun b l o => f (ix3 b l o), funext fun i => ?_⟩
  rw [hf i]
  exact congrArg (fun j => ((f j : ℝ) : EReal)) (eq_ix3 i)

/-- An array over `[1024, 1024]` of finite entries is the coercion of a real matrix. -/
theorem exists_lift2 (a : (⟨2, ![1024, 1024]⟩ : Shape).Idx → EReal) (h : ∀ i, ∃ r : ℝ, a i = (r : EReal)) :
    ∃ W : Fin 1024 → Fin 1024 → ℝ, a = lift2 W := by
  choose f hf using h
  refine ⟨fun o k => f (ix2 o k), funext fun i => ?_⟩
  rw [hf i]
  exact congrArg (fun j => ((f j : ℝ) : EReal)) (eq_ix2 i)

/-- An array over `[1024]` of finite entries is the coercion of a real vector. -/
theorem exists_lift1 (a : (⟨1, ![1024]⟩ : Shape).Idx → EReal) (h : ∀ i, ∃ r : ℝ, a i = (r : EReal)) :
    ∃ bias : Fin 1024 → ℝ, a = lift1 bias := by
  choose f hf using h
  refine ⟨fun o => f (ix1 o), funext fun i => ?_⟩
  rw [hf i]
  exact congrArg (fun j => ((f j : ℝ) : EReal)) (eq_ix1 i)

section Pre

variable [Cert.Pre_finite_inputs.Facts]
open Cert.Pre_finite_inputs.Facts

/-- The scalar shape has one index. -/
instance subsingleton_scalar_idx : Subsingleton Cert.Pre_finite_inputs.S_.Idx :=
  ⟨fun a b => funext fun d => d.elim0⟩

/-- One conjunct of the precondition: the reduction by `and` over every axis of `|x| < +∞` being 1
    makes every entry finite. -/
theorem finite_of_all {s : Shape} {axes : List (Fin s.rank)} (a : FVec Ideal s .f32)
    (hb : S_.BroadcastsInDim s (![] : Fin 0 → Fin s.rank)) (hr : s.ReducesTo axes S_)
    (e : Host.reduce IntOp.andi
        (cmpf .olt (Host.absf a) (broadcastInDim s ![] hb (constant (F := Ideal) S_ .f32 0x7F800000#32)))
        (constantI S_ 1 1#1) hr h_S_ ix0 = 1#1) (i : s.Idx) : ∃ r : ℝ, a i = (r : EReal) :=
  real_of_abs_lt_posInf (a i) (Host.reduce_andi_all _ _ hr h_S_ ix0 e i)

/-- THE PRECONDITION GIVES REAL WITNESSES: if the printed predicate is all ones at the nine inputs, each
    input is the entrywise coercion of a real coordinate array. -/
theorem real_witnesses
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (a7 : FVec Ideal S1024x1024 .f32) (a8 : FVec Ideal S1024 .f32)
    (h : Cert.Pre_finite_inputs.fn (F := Ideal) a0 a1 a2 a3 a4 a5 a6 a7 a8 = fun _ => 1#1) :
    ∃ (xr : Fin 4 → Fin 2048 → Fin 1024 → ℝ) (Wq : Fin 1024 → Fin 1024 → ℝ) (bq : Fin 1024 → ℝ)
      (Wk : Fin 1024 → Fin 1024 → ℝ) (bk : Fin 1024 → ℝ) (Wv : Fin 1024 → Fin 1024 → ℝ) (bv : Fin 1024 → ℝ)
      (Wo : Fin 1024 → Fin 1024 → ℝ) (bo : Fin 1024 → ℝ),
      a0 = lift3 xr ∧ a1 = lift2 Wq ∧ a2 = lift1 bq ∧ a3 = lift2 Wk ∧ a4 = lift1 bk ∧ a5 = lift2 Wv
        ∧ a6 = lift1 bv ∧ a7 = lift2 Wo ∧ a8 = lift1 bo := by
  have h0 : Cert.Pre_finite_inputs.fn (F := Ideal) a0 a1 a2 a3 a4 a5 a6 a7 a8 ix0 = 1#1 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨xr, rfl⟩ := exists_lift3 a0 (finite_of_all a0 _ _ e0)
  obtain ⟨Wq, rfl⟩ := exists_lift2 a1 (finite_of_all a1 _ _ e1)
  obtain ⟨bq, rfl⟩ := exists_lift1 a2 (finite_of_all a2 _ _ e2)
  obtain ⟨Wk, rfl⟩ := exists_lift2 a3 (finite_of_all a3 _ _ e3)
  obtain ⟨bk, rfl⟩ := exists_lift1 a4 (finite_of_all a4 _ _ e4)
  obtain ⟨Wv, rfl⟩ := exists_lift2 a5 (finite_of_all a5 _ _ e5)
  obtain ⟨bv, rfl⟩ := exists_lift1 a6 (finite_of_all a6 _ _ e6)
  obtain ⟨Wo, rfl⟩ := exists_lift2 a7 (finite_of_all a7 _ _ e7)
  obtain ⟨bo, rfl⟩ := exists_lift1 a8 (finite_of_all a8 _ _ e8)
  exact ⟨xr, Wq, bq, Wk, bk, Wv, bv, Wo, bo, rfl, rfl, rfl, rfl, rfl, rfl, rfl, rfl, rfl⟩

end Pre

end Cert.Attn

end
-- ==== Proof.Assemble.lean ====
/-
  The five claims. The three programs run to the end, fault nowhere and leave their arguments as launched. The idealized
  kernel is the kernel's own text read over the extended reals (no operation was rewritten). And over the extended reals,
  on finite inputs, the kernel and the reference end with the same two results: every input entry is a real, so the
  reference's pooled output and attention weights are the coercions of the direct real formulas, the kernel's are the
  coercions of the pooled real formulas, and the two spellings agree because a mean over the query positions commutes with
  the product with the values and with the output projection.
-/
import proofs.«155430_j62354335204093_2_alg».proof.Defs
import proofs.«155430_j62354335204093_2_alg».proof.Proof.KI.Claims
import proofs.«155430_j62354335204093_2_alg».proof.Proof.K.Claims
import proofs.«155430_j62354335204093_2_alg».proof.Proof.KI.KernelIsSpec
import proofs.«155430_j62354335204093_2_alg».proof.Proof.RefResult
import proofs.«155430_j62354335204093_2_alg».proof.Proof.Finite
import proofs.«155430_j62354335204093_2_alg».proof.Proof.Gen.ReferenceIdeal.Run
import proofs.«155430_j62354335204093_2_alg».proof.Proof.Gen.ReferenceIdeal.Read

noncomputable section

namespace Cert.Proof.AttnClaims

open Idealize.ShloMosaic Idealize.ShloMosaic.TcCoe Idealize.SL.Sem
open Cert.Attn

/-- The reference runs and leaves its arguments as launched: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten on the way to the extended reals. -/
theorem preserves : Cert.preserves_Kernel_KernelIdeal := trivial

/-- Over the extended reals, on finite inputs, both programs end with the pooled output and the attention weights of
    the pooled spelling. -/
theorem algebraic : Cert.algebraic_KernelIdeal_ReferenceIdeal := by
  intro m ρ m' ρ' hpre hagree
  refine ⟨fun c => Cert.KernelIdeal.Fr.W6 Cert.KernelIdeal.Val.R1i m ρ c (Proc.devRef .tc Cert.KernelIdeal.main_v29),
    fun c => Cert.KernelIdeal.Fr.W6 Cert.KernelIdeal.Val.R1i m ρ c (Proc.devRef .tc Cert.KernelIdeal.main_v27),
    Cert.KernelIdeal.Fr.run_values m ρ, ?_⟩
  refine (θ_run Cert.ReferenceIdeal.defs _ _).mono (fun r h c => ?_) (Cert.ReferenceIdeal.Value.run (F := Ideal) m' ρ')
  obtain ⟨h42, h48, hargs⟩ := h c
  obtain ⟨xr, Wq, bq, Wk, bk, Wv, bv, Wo, bo, e0, e1, e2, e3, e4, e5, e6, e7, e8⟩ :=
    Cert.Attn.real_witnesses _ _ _ _ _ _ _ _ _ (hpre c)
  obtain ⟨a0, a1, a2, a3, a4, a5, a6, a7, a8⟩ := hagree c
  refine ⟨h42.trans ?_, h48.trans ?_, hargs⟩
  · rw [Cert.ReferenceIdeal.Read.val_main_v42_eq, a0, a1, a2, a3, a4, a5, a6, a7, a8, e0, e1, e2, e3, e4, e5, e6, e7, e8,
      Cert.ReferenceIdeal.RefValue.ref_pooled_array]
    exact (Cert.KernelIdeal.Val.kernel_pooled_array m ρ c xr Wq Wk Wv Wo bq bk bv bo e0 e1 e2 e3 e4 e5 e6 e7 e8).symm
  · rw [Cert.ReferenceIdeal.Read.val_main_v48_eq, a0, a1, a2, a3, a4, e0, e1, e2, e3, e4,
      Cert.ReferenceIdeal.RefValue.ref_weights_array]
    exact (Cert.KernelIdeal.Val.kernel_weights_array m ρ c xr Wq Wk bq bk e0 e1 e2 e3 e4).symm

end Cert.Proof.AttnClaims

end
-- ==== Proof.lean ====
/-
  Multi-head self-attention (4 batches, 2048 positions, model width 1024, 16 heads of 64 lanes) reduced to its two
  pooled results — the projected output averaged over the positions and the attention weights averaged over the heads
  and the query positions — computed by three pipelines (the three input projections; per batch and head, the column
  sums of the softmax weights over the query positions and from them the averaged context; the output projection of that
  average), against the direct computation that forms every attention matrix and every position's output first.

  The claim: each program runs to the end, faults nowhere and leaves its arguments as launched; the kernel read over the
  extended reals is its own text; and over the extended reals, on finite inputs, the two programs end with equal results.
  The runs and the arguments' preservation are in the modules under KI/ (over the extended reals) and K/ (the same text at
  the word level); the equality of the results is assembled in Assemble from the reference side (the direct real
  formulas), the kernel side (the pooled real formulas) and the algebra joining them.
-/
import proofs.«155430_j62354335204093_2_alg».proof.Defs
import proofs.«155430_j62354335204093_2_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Kernel.Fr.frame_k, Cert.KernelIdeal.Fr.frame_ki, AttnClaims.frame_ri, AttnClaims.preserves, AttnClaims.algebraic⟩

end Cert.Proof

end
